-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S100x64 : Shape := ⟨2, ![100, 64]⟩
abbrev S99x128 : Shape := ⟨2, ![99, 128]⟩
abbrev S64 : Shape := ⟨1, ![64]⟩
abbrev S99 : Shape := ⟨1, ![99]⟩
abbrev S16384 : Shape := ⟨1, ![16384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100x64 : S_.BroadcastsInDim S100x64 (![] : Fin 0 → Fin S100x64.rank)
  reducesTo_S100x64_S_d0_1 : S100x64.ReducesTo [0, 1] S_
  bcast_S_S99x128 : S_.BroadcastsInDim S99x128 (![] : Fin 0 → Fin S99x128.rank)
  reducesTo_S99x128_S_d0_1 : S99x128.ReducesTo [0, 1] S_
  bcast_S_S64 : S_.BroadcastsInDim S64 (![] : Fin 0 → Fin S64.rank)
  reducesTo_S64_S_d0 : S64.ReducesTo [0] S_
  bcast_S_S99 : S_.BroadcastsInDim S99 (![] : Fin 0 → Fin S99.rank)
  reducesTo_S99_S_d0 : S99.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg4 : FVec F S99 .f32) (main_arg5 : IVec S16384 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S99 .f32 := Host.absf main_arg4
  let main_cst_6 : FVec F S_ .f32 := constant S_ .f32 0x7F800000#32
  let main_v20 : FVec F S99 .f32 := broadcastInDim S99 ![] bcast_S_S99 main_cst_6
  let main_v21 : IVec S99 1 := cmpf .olt main_v19 main_v20
  let main_c_7 : IVec S_ 1 := constantI S_ 1 1#1
  let main_v22 : IVec S_ 1 := (fun x v => Host.reduce IntOp.andi x v reducesTo_S99_S_d0 h_S_) main_v21 main_c_7
  let main_v23 : IVec S_ 1 := andi main_v18 main_v22
  let main_c_8 : IVec S_ 32 := constantI S_ 32 0#32
  let main_v24 : IVec S16384 32 := broadcastInDim S16384 ![] bcast_S_S16384 main_c_8
  let main_v25 : IVec S16384 1 := cmpi .sge main_arg5 main_v24
  let main_c_9 : IVec S_ 32 := constantI S_ 32 99999#32
  let main_v26 : IVec S16384 32 := broadcastInDim S16384 ![] bcast_S_S16384 main_c_9
  let main_v27 : IVec S16384 1 := cmpi .sle main_arg5 main_v26
  let main_v28 : IVec S16384 1 := andi main_v25 main_v27
  let main_c_10 : IVec S_ 1 := constantI S_ 1 1#1
  let main_v29 : IVec S_ 1 := (fun x v => Host.reduce IntOp.andi x v reducesTo_S16384_S_d0 h_S_) main_v28 main_c_10
  let main_v30 : IVec S_ 1 := andi main_v23 main_v29
  main_v30

def fn {F : FTy → Type} [FloatOps F] (main_arg0 : FVec F S100000x128 .f32) (main_arg1 : FVec F S100x64 .f32) (main_arg2 : FVec F S99x128 .f32) (main_arg3 : FVec F S64 .f32) (main_arg4 : FVec F S99 .f32) (main_arg5 : IVec S16384 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100x64 .f32 := Host.absf main_arg1
  let main_cst_0 : FVec F S_ .f32 := constant S_ .f32 0x7F800000#32
  let main_v5 : FVec F S100x64 .f32 := broadcastInDim S100x64 ![] bcast_S_S100x64 main_cst_0
  let main_v6 : IVec S100x64 1 := cmpf .olt main_v4 main_v5
  let main_c_1 : IVec S_ 1 := constantI S_ 1 1#1
  let main_v7 : IVec S_ 1 := (fun x v => Host.reduce IntOp.andi x v reducesTo_S100x64_S_d0_1 h_S_) main_v6 main_c_1
  let main_v8 : IVec S_ 1 := andi main_v3 main_v7
  let main_v9 : FVec F S99x128 .f32 := Host.absf main_arg2
  let main_cst_2 : FVec F S_ .f32 := constant S_ .f32 0x7F800000#32
  let main_v10 : FVec F S99x128 .f32 := broadcastInDim S99x128 ![] bcast_S_S99x128 main_cst_2
  let main_v11 : IVec S99x128 1 := cmpf .olt main_v9 main_v10
  let main_c_3 : IVec S_ 1 := constantI S_ 1 1#1
  let main_v12 : IVec S_ 1 := (fun x v => Host.reduce IntOp.andi x v reducesTo_S99x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S100000x128 : Shape := ⟨2, ![100000, 128]⟩
abbrev S100x64 : Shape := ⟨2, ![100, 64]⟩
abbrev S99x128 : Shape := ⟨2, ![99, 128]⟩
abbrev S64 : Shape := ⟨1, ![64]⟩
abbrev S99 : Shape := ⟨1, ![99]⟩
abbrev S16384 : Shape := ⟨1, ![16384]⟩
abbrev S1x64 : Shape := ⟨2, ![1, 64]⟩
abbrev S1x99 : Shape := ⟨2, ![1, 99]⟩
abbrev S16384x128 : Shape := ⟨2, ![16384, 128]⟩
abbrev S512 : Shape := ⟨1, ![512]⟩
abbrev S512x128 : Shape := ⟨2, ![512, 128]⟩
abbrev S_ : Shape := ⟨0, ![]⟩
abbrev S16384x100 : Shape := ⟨2, ![16384, 100]⟩
abbrev S8192x128 : Shape := ⟨2, ![8192, 128]⟩
abbrev S8192x100 : Shape := ⟨2, ![8192, 100]⟩
abbrev S1x128 : Shape := ⟨2, ![1, 128]⟩
abbrev S100x128 : Shape := ⟨2, ![100, 128]⟩
abbrev S1x1 : Shape := ⟨2, ![1, 1]⟩
abbrev S1x100 : Shape := ⟨2, ![1, 100]⟩

abbrev nBuf : Table → Nat
  | .hbm => 10
  | .local .tc .vmem => 8
  | .local .scVector .vmem => 2
  | _ => 0

abbrev bufTy : (tb : Table) → Fin (nBuf tb) → BufTy
  | .hbm, ⟨0, _⟩ => ⟨S100000x128, .f32⟩
  | .hbm, ⟨1, _⟩ => ⟨S100x64, .f32⟩
  | .hbm, ⟨2, _⟩ => ⟨S99x128, .f32⟩
  | .hbm, ⟨3, _⟩ => ⟨S64, .f32⟩
  | .hbm, ⟨4, _⟩ => ⟨S99, .f32⟩
  | .hbm, ⟨5, _⟩ => ⟨S16384, .i32⟩
  | .hbm, ⟨6, _⟩ => ⟨S1x64, .f32⟩
  | .hbm, ⟨7, _⟩ => ⟨S1x99, .f32⟩
  | .hbm, ⟨8, _⟩ => ⟨S16384x128, .f32⟩
  | .hbm, ⟨9, _⟩ => ⟨S16384x100, .f32⟩
  | .local .tc .vmem, ⟨0, _⟩ => ⟨S8192x128, .f32⟩
  | .local .tc .vmem, ⟨1, _⟩ => ⟨S8192x128, .f32⟩
  | .local .tc .vmem, ⟨2, _⟩ => ⟨S99x128, .f32⟩
  | .local .tc .vmem, ⟨3, _⟩ => ⟨S100x64, .f32⟩
  | .local .tc .vmem, ⟨4, _⟩ => ⟨S1x64, .f32⟩
  | .local .tc .vmem, ⟨5, _⟩ => ⟨S1x99, .f32⟩
  | .local .tc .vmem, ⟨6, _⟩ => ⟨S8192x100, .f32⟩
  | .local .tc .vmem, ⟨7, _⟩ => ⟨S8192x100, .f32⟩
  | .local .scVector .vmem, ⟨0, _⟩ => ⟨S512, .i32⟩
  | .local .scVector .vmem, ⟨1, _⟩ => ⟨S512x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg0_scv : Ref sig .scVector := ⟨.hbm, 0, rfl⟩
abbrev main_arg5_scv : Ref sig .scVector := ⟨.hbm, 5, rfl⟩
abbrev main_v2_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S99x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S100x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x99 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x100 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S64_S1x64 : S64.ShapeCasts S1x64
  shapeCasts_S99_S1x99 : S99.ShapeCasts S1x99
  inb_S100000x128_S100000x128_0_0 : ∀ a, (![0, 0] : Fin 2 → Nat) a + S100000x128.size a ≤ S100000x128.size a
  gathers_S100000x128_S512x128 : S100000x128.Gathers 0 S512x128
  inb_S99x128_S99x128_0_0 : ∀ a, (![0, 0] : Fin 2 → Nat) a + S99x128.size a ≤ S99x128.size a
  h_S99x128 : 0 < S99x128.numel
  concatenates_S1x128_S99x128_S100x128_d0 : Shape.Concatenates [S1x128, S99x128] S100x128 0
  inb_S1x99_S1x99_0_0 : ∀ a, (![0, 0] : Fin 2 → Nat) a + S1x99.size a ≤ S1x99.size a
  h_S1x99 : 0 < S1x99.numel
  shapeCasts_S1x99_S1x99 : S1x99.ShapeCasts S1x99
  concatenates_S1x1_S1x99_S1x100_d1 : Shape.Concatenates [S1x1, S1x99] S1x100 1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S100x64_S100x64_0_0 : ∀ a, (![0, 0] : Fin 2 → Nat) a + S100x64.size a ≤ S100x64.size a
  h_S100x64 : 0 < S100x64.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  broadcasts_S1x100_S8192x100 : S1x100.Broadcasts S8192x100
  inb_S8192x100_S8192x100_0_0 : ∀ a, (![0, 0] : Fin 2 → Nat) a + S8192x100.size a ≤ S8192x100.size a
  h_S8192x100 : 0 < S8192x100.numel
  dot_S1x64_S100x64_S1x100_1_1_0_0_n_n_wf : DotDims.WF S1x64 S100x64 S1x100 [1] [1] [0] [0] [] []
  dot_S8192x128_S100x128_S8192x100_1_1_0_0_n_n_wf : DotDims.WF S8192x128 S100x128 S8192x100 [1] [1] [0] [0] [] []
  hcc0_scratch2 : 0 + S_.numel ≤ 11
  hcc0_scoped0 : 1 + S_.numel ≤ 11
  hcc0_scoped1 : 2 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S512x128.size a ≤ S16384x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S16384x128.size a
  hwx1_0 : ∀ i : grid1.Coords, EltTy.bits .f32 = 32 ∨ (Rect.block (s := S16384x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S99x128.size a ≤ S99x128.size a
  hwx1_1 : ∀ i : grid1.Coords, EltTy.bits .f32 = 32 ∨ (Rect.block (s := S99x128) S99x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x64.size a ≤ S100x64.size a
  hwx1_2 : ∀ i : grid1.Coords, EltTy.bits .f32 = 32 ∨ (Rect.block (s := S100x64) S100x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x99.size a ≤ S1x99.size a
  hwx1_4 : ∀ i : grid1.Coords, EltTy.bits .f32 = 32 ∨ (Rect.block (s := S1x99) S1x99.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x100.size a ≤ S16384x100.size a
  hwx1_5 : ∀ i : grid1.Coords, EltTy.bits .f32 = 32 ∨ (Rect.block (s := S16384x100) S8192x100.size (cc1_transform_5 i) (hinb1_5 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
def dot_S1x64_S100x64_S1x100_1_1_0_0_n_n : DotDims S1x64 S100x64 S1x100 where
  lhsContracting := [1]
  rhsContracting := [1]
  lhsNonContracting := [0]
  rhsNonContracting := [0]
  lhsBatch := []
  rhsBatch := []
  wf := dot_S1x64_S100x64_S1x100_1_1_0_0_n_n_wf
def dot_S8192x128_S100x128_S8192x100_1_1_0_0_n_n : DotDims S8192x128 S100x128 S8192x100 where
  lhsContracting := [1]
  rhsContracting := [1]
  lhsNonContracting := [0]
  rhsNonContracting := [0]
  lhsBatch := []
  rhsBatch := []
  wf := dot_S8192x128_S100x128_S8192x100_1_1_0_0_n_n_wf

abbrev win1_0 : Pipeline.Window sig grid1 :=
  Pipeline.Window.ofSpec (Memref.whole main_v2) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S99x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S100x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x99.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S8192x100.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S100x64 : Shape := ⟨2, ![100, 64]⟩
abbrev S99x128 : Shape := ⟨2, ![99, 128]⟩
abbrev S64 : Shape := ⟨1, ![64]⟩
abbrev S99 : Shape := ⟨1, ![99]⟩
abbrev S16384 : Shape := ⟨1, ![16384]⟩
abbrev S_ : Shape := ⟨0, ![]⟩
abbrev S1x128 : Shape := ⟨2, ![1, 128]⟩
abbrev S100x128 : Shape := ⟨2, ![100, 128]⟩
abbrev S1 : Shape := ⟨1, ![1]⟩
abbrev S100 : Shape := ⟨1, ![100]⟩
abbrev S16384x1 : Shape := ⟨2, ![16384, 1]⟩
abbrev S1x1 : Shape := ⟨2, ![1, 1]⟩
abbrev S16384x128 : Shape := ⟨2, ![16384, 128]⟩
abbrev S128x100 : Shape := ⟨2, ![128, 100]⟩
abbrev S16384x100 : Shape := ⟨2, ![16384, 100]⟩
abbrev S1x100 : Shape := ⟨2, ![1, 100]⟩

abbrev nBuf : Space → Nat
  | .hbm => 44
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100x64, .f32⟩
  | .hbm, ⟨2, _⟩ => ⟨S99x128, .f32⟩
  | .hbm, ⟨3, _⟩ => ⟨S64, .f32⟩
  | .hbm, ⟨4, _⟩ => ⟨S99, .f32⟩
  | .hbm, ⟨5, _⟩ => ⟨S16384, .i32⟩
  | .hbm, ⟨6, _⟩ => ⟨S_, .f32⟩
  | .hbm, ⟨7, _⟩ => ⟨S1x128, .f32⟩
  | .hbm, ⟨8, _⟩ => ⟨S100x128, .f32⟩
  | .hbm, ⟨9, _⟩ => ⟨S_, .f32⟩
  | .hbm, ⟨10, _⟩ => ⟨S1, .f32⟩
  | .hbm, ⟨11, _⟩ => ⟨S100, .f32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S1, .i32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S1x1, .i32⟩
  | .hbm, ⟨25, _⟩ => ⟨S16384x1, .i32⟩
  | .hbm, ⟨26, _⟩ => ⟨S16384x1, .i1⟩
  | .hbm, ⟨27, _⟩ => ⟨S16384x1, .i1⟩
  | .hbm, ⟨28, _⟩ => ⟨S_, .i1⟩
  | .hbm, ⟨29, _⟩ => ⟨S16384, .i1⟩
  | .hbm, ⟨30, _⟩ => ⟨S16384x128, .f32⟩
  | .hbm, ⟨31, _⟩ => ⟨S16384x128, .i1⟩
  | .hbm, ⟨32, _⟩ => ⟨S_, .f32⟩
  | .hbm, ⟨33, _⟩ => ⟨S16384x128, .f32⟩
  | .hbm, ⟨34, _⟩ => ⟨S16384x128, .f32⟩
  | .hbm, ⟨35, _⟩ => ⟨S128x100, .f32⟩
  | .hbm, ⟨36, _⟩ => ⟨S16384x100, .f32⟩
  | .hbm, ⟨37, _⟩ => ⟨S100, .f32⟩
  | .hbm, ⟨38, _⟩ => ⟨S1x100, .f32⟩
  | .hbm, ⟨39, _⟩ => ⟨S16384x100, .f32⟩
  | .hbm, ⟨40, _⟩ => ⟨S16384x100, .f32⟩
  | .hbm, ⟨41, _⟩ => ⟨S1x100, .f32⟩
  | .hbm, ⟨42, _⟩ => ⟨S16384x100, .f32⟩
  | .hbm, ⟨43, _⟩ => ⟨S16384x100, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩

abbrev nD : Nat := 1
abbrev τ : Topo := Topo.v7x

variable {F : FTy → Type} [FloatOps F]

class Facts₀ : Prop where
  bcast_S_S1x128 : S_.BroadcastsInDim S1x128 (![] : Fin 0 → Fin S1x128.rank)
  concatenates_S1x128_S99x128_S100x128_d0 : Shape.Concatenates [S1x128, S99x128] S100x128 0
  bcast_S_S1 : S_.BroadcastsInDim S1 (![] : Fin 0 → Fin S1.rank)
  concatenates_S1_S99_S100_d0 : Shape.Concatenates [S1, S99] S100 0
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  transposes_S100x128_S128x100_1_0 : S100x128.Transposes [1, 0] S128x100
  bcast_S100_S1x100_1 : S100.BroadcastsInDim S1x100 (![1] : Fin 1 → Fin S1x100.rank)
  bcast_S1x100_S16384x100_0_1 : S1x100.BroadcastsInDim S16384x100 (![0, 1] : Fin 2 → Fin S16384x100.rank)
  gather_S100000x128_S16384x1_S16384x128_1_0_n_n_0_1_1128_wf : GatherDims.WF S100000x128 S16384x1 S16384x128 [1] [0] [] [0] [] 1 ![1, 128]
  dot_S16384x128_S128x100_S16384x100_1_0_0_1_n_n_wf : DotDims.WF S16384x128 S128x100 S16384x100 [1] [0] [0] [1] [] []
  dot_S100x64_S64_S100_1_0_0_n_n_n_wf : DotDims.WF S100x64 S64 S100 [1] [0] [0] [] [] []

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def dot_S16384x128_S128x100_S16384x100_1_0_0_1_n_n : DotDims S16384x128 S128x100 S16384x100 where
  lhsContracting := [1]
  rhsContracting := [0]
  lhsNonContracting := [0]
  rhsNonContracting := [1]
  lhsBatch := []
  rhsBatch := []
  wf := dot_S16384x128_S128x100_S16384x100_1_0_0_1_n_n_wf
def dot_S100x64_S64_S100_1_0_0_n_n_n : DotDims S100x64 S64 S100 where
  lhsContracting := [1]
  rhsContracting := [0]
  lhsNonContracting := [0]
  rhsNonContracting := []
  lhsBatch := []
  rhsBatch := []
  wf := dot_S100x64_S64_S100_1_0_0_n_n_n_wf

class Facts : Prop extends Facts₀ where

variable [Facts]
-- ==== Proof.KISetup.lean ====
/-
  The SparseCore part of the idealized kernel's program: thirty-two tiles (two SparseCores of sixteen), tile (c, s)
  taking chunk w = 2·s + c of the 16384 sessions — 512 consecutive index words and the 512 rows of the gathered
  array they name. A tile copies its index words into its index scratch, streams the rows of the user table those
  words name into its row scratch, and copies the row scratch out to its chunk of the gathered array. The gathered
  array therefore holds, at (b, k), entry k of the user-table row that session b's index word names.
-/
import proofs.«204720_g14766097563961_cont_week2b_356_26_alg».proof.Proof.Gen.KernelIdeal
import proofs.«204720_g14766097563961_cont_week2b_356_26_alg».proof.Proof.Gen.KernelIdeal.Skeleton
import proofs.«204720_g14766097563961_cont_week2b_356_26_alg».proof.Proof.Gen.KernelIdeal.Launch
import proofs.«204720_g14766097563961_cont_week2b_356_26_alg».proof.Proof.Gen.KernelIdeal.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.ValueIdx
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The launch memory and the buffers -/

variable (m : (ℓ : Loc nD τ sig) → Buf (Elt F) ℓ) (ρ : Dev nD → PrngReg)

abbrev uLoc (d : Dev nD) : Loc nD τ sig := (SparseCore.T d).loc main_arg0
abbrev iLoc (d : Dev nD) : Loc nD τ sig := (SparseCore.T d).loc main_arg5
abbrev oLoc (d : Dev nD) : Loc nD τ sig := (SparseCore.T d).loc main_v2

abbrev uV : Memref sig .scVector .hbm S100000x128 .f32 := Memref.whole main_arg0_scv
abbrev iV : Memref sig .scVector .hbm S16384 .i32 := Memref.whole main_arg5_scv
abbrev oV : Memref sig .scVector .hbm S16384x128 .f32 := Memref.whole main_v2_scv
abbrev sV : Memref sig .scVector .vmem S512 .i32 := Memref.whole cc0_scratch0
abbrev rV : Memref sig .scVector .vmem S512x128 .f32 := Memref.whole cc0_scratch1

theorem idiv : 32 ∣ S16384.size 0 := ⟨512, rfl⟩
theorem odiv : 32 ∣ S16384x128.size 0 := ⟨512, rfl⟩
/-- Chunk w of the index vector: words 512·w … 512·w + 511; and of the gathered array: the same rows. -/
abbrev irow (w : Fin 32) : Rect S16384 := Rect.part (s := S16384) (a₀ := 0) idiv w
abbrev orow (w : Fin 32) : Rect S16384x128 := Rect.part (s := S16384x128) (a₀ := 0) odiv w
abbrev iRowSet (w : Fin 32) : Finset S16384.Idx := ((iV).view.slice (irow w)).set
abbrev oRowSet (w : Fin 32) : Finset S16384x128.Idx := ((oV).view.slice (orow w)).set

/-- The chunk of tile s of SparseCore c. -/
def chunkN (c s : ℕ) (hc : c < 2) (hs : s < 16) : Fin 32 := ⟨2 * s + c, by omega⟩
abbrev chunk (c : Fin 2) (s : Fin 16) : Fin 32 := chunkN c.val s.val c.isLt s.isLt

/-! ## Shares of the user table: the full share cut into thirty-two pieces, one per tile -/

abbrev uq (w : Fin 32) : PosShare TreeShare := pieceOf fullShare 32 (by decide) w

variable [FloatOps F]

/-- What the proof asks of the launch memory: every index word names a row of the user table. -/
def PreOK : Prop := ∀ (d : Dev nD) (j : S16384.Idx), (m (iLoc d) j).toNat < 100000

/-- The gathered array: at (b, k), entry k of the user-table row that the index word of session b names. -/
def gath (hpre : PreOK m) (d : Dev nD) : Buf (Elt F) (oLoc d) :=
  fun j : S16384x128.Idx => (m (uLoc d) (ix2 (n0 := 100000) (n1 := 128) ⟨(m (iLoc d) (ix1 (n := 16384) (j 0))).toNat, hpre d _⟩ (j 1)) : Elt F .f32)

/-! ## What the handshakes carry -/

abbrev uPts (d : Dev nD) : sProp 𝕄 := uLoc d ↦{fullShare} m (uLoc d)
abbrev iPts (d : Dev nD) : sProp 𝕄 := iLoc d ↦{fullShare} m (iLoc d)
abbrev oPts (d : Dev nD) (f : Buf (Elt F) (oLoc d)) : sProp 𝕄 := oLoc d ↦{fullShare} f
abbrev iRowPts (d : Dev nD) (w : Fin 32) : sProp 𝕄 := iLoc d ↦[iRowSet w]{fullShare} m (iLoc d)
abbrev uShPts (d : Dev nD) (w : Fin 32) : sProp 𝕄 := uLoc d ↦{uq w} m (uLoc d)
abbrev oRowPts (d : Dev nD) (w : Fin 32) (f : Buf (Elt F) (oLoc d)) : sProp 𝕄 := oLoc d ↦[oRowSet w]{fullShare} f

/-- What a tile is handed and what it brings back: its chunk of the index vector, its share of the user table, its
    chunk of the gathered array — at the launch contents going in, at the gathered array coming back. -/
abbrev goOf (d : Dev nD) (w : Fin 32) : sProp 𝕄 := iprop(iRowPts m d w ∗ uShPts m d w ∗ oRowPts d w (m (oLoc d)))
abbrev tdOf (hpre : PreOK m) (d : Dev nD) (w : Fin 32) : sProp 𝕄 := iprop(iRowPts m d w ∗ uShPts m d w ∗ oRowPts d w (gath m hpre d))

/-- A SparseCore is handed its sixteen tiles' holdings and brings them back. -/
def P (hpre : PreOK m) : (K (F := F)).Pay (nD := nD) (Val := Elt F) (Name := ℕ) (U := UU) where
  st := fun q d c => match q with | 0 => bigSep Finset.univ fun s : Fin 16 => goOf m d (chunk (Fin.cast nCore_zero c) s)
  dn := fun q d c => match q with | 0 => bigSep Finset.univ fun s : Fin 16 => tdOf m hpre d (chunk (Fin.cast nCore_zero c) s)
  go := fun q d c i => match q with | 0 => goOf m d (chunk (Fin.cast nCore_zero c) (Fin.cast nSub_zero i))
  td := fun q d c i => match q with | 0 => tdOf m hpre d (chunk (Fin.cast nCore_zero c) (Fin.cast nSub_zero i))
  x := fun _ _ => iprop(emp)

instance P_storable (hpre : PreOK m) : (P (F := F) m hpre).IsStorable where
  st q d c := match q with
    | 0 => (inferInstance : BI.Storable (upEmb : UEmb _ 𝕄) (bigSep Finset.univ fun s : Fin 16 => goOf m d (chunk (Fin.cast nCore_zero c) s)))
  dn q d c := match q with
    | 0 => (inferInstance : BI.Storable (upEmb : UEmb _ 𝕄) (bigSep Finset.univ fun s : Fin 16 => tdOf m hpre d (chunk (Fin.cast nCore_zero c) s)))
  go q d c i := match q with
    | 0 => (inferInstance : BI.Storable (upEmb : UEmb _ 𝕄) (goOf m d (chunk (Fin.cast nCore_zero c) (Fin.cast nSub_zero i))))
  td q d c i := match q with
    | 0 => (inferInstance : BI.Storable (upEmb : UEmb _ 𝕄) (tdOf m hpre d (chunk (Fin.cast nCore_zero c) (Fin.cast nSub_zero i))))

/-! ## The task -/

section Tile

variable (d : Dev nD) (L : grid0.Coords)

abbrev cV (L : grid0.Coords) : Fin τ.nSC := (L 0).castLE hcore0
abbrev jV (L : grid0.Coords) : Fin τ.nSub := (L 1).castLE hsub0

theorem bound_zero : grid0.bound 0 = 2 := rfl
theorem bound_one : grid0.bound 1 = 16 := rfl
/-- The chunk of the tile at grid coordinates L. -/
abbrev wL (L : grid0.Coords) : Fin 32 := chunkN (L 0).val (L 1).val (L 0).isLt (L 1).isLt

abbrev irowK (L : grid0.Coords) : Rect S16384 := Rect.unit (s := S16384) (k0_off1 L) S512.size (k0_off1_inb L)
abbrev orowK (L : grid0.Coords) : Rect S16384x128 := Rect.unit (s := S16384x128) (k0_off2 L) S512x128.size (k0_off2_inb L)
abbrev iRowK (L : grid0.Coords) : Memref sig .scVector .hbm S512 .i32 := (iV).slice (irowK L) (fun _ => rfl)
abbrev oRowK (L : grid0.Coords) : Memref sig .scVector .hbm S512x128 .f32 := (oV).slice (orowK L) (fun _ => rfl)
abbrev uAllK : Memref sig .scVector .hbm S100000x128 .f32 := (uV).slice (Rect.unit (s := S100000x128) ![0, 0] S100000x128.size inb_S100000x128_S100000x128_0_0) (fun _ => rfl)

omit [FloatOps F] in
theorem irowK_eq : irowK L = irow (wL L) := by
  unfold irowK irow Rect.part Rect.block
  congr 1 <;> funext a
  · rw [k0_off1_eq]
    match a with
    | 0 => simp [Shape.partIx, Shape.partSize, wL, chunkN]; omega
  · match a with
    | 0 => simp [Shape.partSize]
omit [FloatOps F] in
theorem orowK_eq : orowK L = orow (wL L) := by
  unfold orowK orow Rect.part Rect.block
  congr 1 <;> funext a
  · rw [k0_off2_eq]
    match a with
    | 0 => simp [Shape.partIx, Shape.partSize, wL, chunkN]; omega
    | 1 => simp [Shape.partIx, Shape.partSize]
  · match a with
    | 0 => simp [Shape.partSize]
    | 1 => simp [Shape.partSize]

omit [FloatOps F] in
theorem set_iRowK : (iRowK L).view.set = iRowSet (wL L) := by
  show ((iV).view.slice (irowK L)).set = ((iV).view.slice (irow (wL L))).set
  exact irowK_eq L ▸ rfl
omit [FloatOps F] in
theorem set_oRowK : (oRowK L).view.set = oRowSet (wL L) := by
  show ((oV).view.slice (orowK L)).set = ((oV).view.slice (orow (wL L))).set
  exact orowK_eq L ▸ rfl

omit [FloatOps F] in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
theorem pts_uV (q : PosShare TreeShare) (f : Buf (Elt F) (uLoc d)) :
    ((uV).view.loc (V d (cV L) (jV L)) ↦{q} f : sProp 𝕄) = uLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The tile's three cells: the index copy's, the stream's, the copy-out's. -/
abbrev cAcell (d : Dev nD) (c : Fin τ.nSC) (i : Fin τ.nSub) : GSem nD τ sig := (V d c i, .dma cc0_scoped0.sem)
abbrev cGcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0
          ∗ bigSep ((((ownCells (V d (cV L) (jV L))).erase (cAcell d (cV L) (jV L))).erase (cGcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc0_scratch2.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The words the stream reads are in range: what the index copy landed in the index scratch is the tile's chunk of
    the index vector, each word the number of a row of the user table. -/
theorem inb_of_pre (hpre : PreOK m) (fs : Buf (Elt F) ((V d (cV L) (jV L)).loc cc0_scratch0)) (pay : S512.Idx → Elt F .i32)
    (hpay : pay = (iRowK L).view.read (Elt F) (m (iLoc d))) :
    ∀ x, ((sV).view.read (Elt F) (View.write (Elt F) (sV).view fs pay Finset.univ) x).toNat < S100000x128.size gathers_S100000x128_S512x128.axis := by
  subst hpay; intro x
  rw [View.write_whole_univ]
  simp only [Memref.view_whole, View.read_whole]
  rw [show ∀ j, (iRowK L).view.read (Elt F) (m (iLoc d)) j = m (iLoc d) ((iRowK L).view.emb j) from fun j => (View.read_apply _ _).trans (cast_eq _ _)]
  exact hpre d _

end Tile

end Cert.Proof.KI

end
-- ==== Proof.KIRegion.lean ====
/-
  The TensorCore part of the idealized kernel's program: a pipeline of two grid points, point t computing rows
  8192·t … 8192·t + 8191 of the result from block t of the gathered array and the four small operands, which are
  staged whole. What the body stores is one value, the sum of the user term, the item term and the intercepts
  (the skeleton's payload), written through the rectangle that covers the whole result block.
-/
import proofs.«204720_g14766097563961_cont_week2b_356_26_alg».proof.Proof.KISetup
import Idealize.ShloMosaic.Lib.Pipeline.FrameBody
import Idealize.ShloMosaic.Lib.Ring

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## What the TensorCore's arrays hold when the region is entered -/

/-- The launch memory of device d as a valuation. -/
abbrev V0 (d : Dev nD) : Valuation τ sig (Elt F) := fun b => m (d, b)
/-- @main's two reshapes: the item coefficients as a [1, 64] row, the intercepts as a [1, 99] row. -/
abbrev opR3 : HloOp τ sig (Elt F) := StableHlo.reshape main_arg3 main_v0 rfl shapeCasts_S64_S1x64
abbrev opR4 : HloOp τ sig (Elt F) := StableHlo.reshape main_arg4 main_v1 rfl shapeCasts_S99_S1x99
/-- After the two reshapes; -/
def V2 (d : Dev nD) : Valuation τ sig (Elt F) := (opR4 (F := F)).result ((opR3 (F := F)).result (V0 m d))
/-- and after the SparseCore call: the gathered array where the call left it. -/
def Vr (hpre : PreOK m) (d : Dev nD) : Valuation τ sig (Elt F) :=
  Function.update (V2 m d) (Proc.devRef .tc (main_v2 : Ref sig .tc)) (gath m hpre d)

/-- Core c's TensorCore buffers when the region is entered. -/
abbrev Ve (hpre : PreOK m) (c : Dev nD) (b : Ref sig .tc) : Buf (Elt F) ((c : Thread nD τ).loc b) := Vr m hpre c (Proc.devRef .tc b)

/-! ## The windows' blocks -/

/-- Window w's block at point t, read off its array as the region finds it. -/
def iblk (hpre : PreOK m) (c : Dev nD) (w : Fin cfg1.W) (t : Fin cfg1.N) : ((cfg1.win w).xblock (cfg1.grid.coords t)).Idx → Elt F (cfg1.win w).elt :=
  ((cfg1.win w).blk t).view.read (Elt F) (Ve m hpre c (Pipeline.arrRef spec1 w))

/-! ## The body's accesses and what it leaves in the result window's buffer -/

abbrev rX : Rect S8192x128 := Rect.unit (s := S8192x128) ![0, 0] S8192x128.size inb_S8192x128_S8192x128_0_0
abbrev rCu : Rect S99x128 := Rect.unit (s := S99x128) ![0, 0] S99x128.size inb_S99x128_S99x128_0_0
abbrev rIt : Rect S100x64 := Rect.unit (s := S100x64) ![0, 0] S100x64.size inb_S100x64_S100x64_0_0
abbrev rCv : Rect S1x64 := Rect.unit (s := S1x64) ![0, 0] S1x64.size inb_S1x64_S1x64_0_0
abbrev rIc : Rect S1x99 := Rect.unit (s := S1x99) ![0, 0] S1x99.size inb_S1x99_S1x99_0_0
abbrev rO : Rect S8192x100 := Rect.unit (s := S8192x100) ![0, 0] S8192x100.size inb_S8192x100_S8192x100_0_0

/-- The result window's staging buffer after the body, from the five input blocks: its one store, the payload over
    the loads. -/
def outBlk (x0 : Vec F S8192x128 .f32) (x1 : Vec F S99x128 .f32) (x2 : Vec F S100x64 .f32) (x3 : Vec F S1x64 .f32) (x4 : Vec F S1x99 .f32) : Vec F S8192x100 .f32 :=
  View.canon [⟨rO, k1_pay1 (View.ld x1 rCu) (View.ld x4 rIc) (View.ld x3 rCv) (View.ld x2 rIt) (View.ld x0 rX)⟩]

/-- The store covers the buffer. -/
theorem coverO (p0 : Vec F S8192x100 .f32) (y : S8192x100.Idx) :
    ∃ pc ∈ ([⟨rO, p0⟩] : List (View.Piece (Elt F) S8192x100 .f32)), y ∈ pc.1.set :=
  View.cover_of_tiled [⟨rO, p0⟩] S8192x100.size (by rfl) y

/-! ## The body's triple -/

set_option maxHeartbeats 2000000 in
/-- The kernel body on whole staging memrefs, the inputs' at read contents and the output's at anything, runs to the
    continuation holding the inputs' as they were and the output's at the payload of the inputs. -/
theorem sound_kernel (c : Dev nD) (E : Set ℕ) (i : grid1.Coords)
    (arg1 : Memref sig .tc .vmem S8192x128 .f32) (harg1 : arg1.IsWhole) (arg2 : Memref sig .tc .vmem S99x128 .f32) (harg2 : arg2.IsWhole)
    (arg3 : Memref sig .tc .vmem S100x64 .f32) (harg3 : arg3.IsWhole) (arg4 : Memref sig .tc .vmem S1x64 .f32) (harg4 : arg4.IsWhole)
    (arg5 : Memref sig .tc .vmem S1x99 .f32) (harg5 : arg5.IsWhole) (arg6 : Memref sig .tc .vmem S8192x100 .f32) (harg6 : arg6.IsWhole)
    (x0 : Vec F S8192x128 .f32) (x1 : Vec F S99x128 .f32) (x2 : Vec F S100x64 .f32) (x3 : Vec F S1x64 .f32) (x4 : Vec F S1x99 .f32) (Kp : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk x0 x1 x2 x3 x4)) -∗ Kp ⟨⟩))
      ⊢ wp frame (wpE (defs₀ (F := F)) Variants.none c none) E (cc1_body i arg1 harg1 arg2 harg2 arg3 harg3 arg4 harg4 arg5 harg5 arg6 harg6) Kp := by
  simp only [cc1_body_eq_skeleton]; unfold cc1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverO _)

/-! ## The pipeline's proof data -/

/-- The proof data of the one pipeline on core c: the arrays as the region finds them; after the body at point t
    each input's buffer at its block and the result's at the payload of the input blocks; no invariant of its own;
    nothing owed; full shares; the waits recorded so far are those of the SparseCore call, at levels up to 8. -/
def dat1 (hpre : PreOK m) (c : Dev nD) : Dat τ (Elt F) (HIx 1) ℕ UU ℕ cfg1 c where
  A w := Ve m hpre c (Pipeline.arrRef spec1 w)
  after w t := match w with
    | ⟨0, _⟩ => iblk m hpre c 0 t
    | ⟨1, _⟩ => iblk m hpre c 1 t
    | ⟨2, _⟩ => iblk m hpre c 2 t
    | ⟨3, _⟩ => iblk m hpre c 3 t
    | ⟨4, _⟩ => iblk m hpre c 4 t
    | ⟨5, _⟩ => outBlk (iblk m hpre c 0 t) (iblk m hpre c 1 t) (iblk m hpre c 2 t) (iblk m hpre c 3 t) (iblk m hpre c 4 t)
  Φ _ := iprop(emp)
  q _ := fullShare
  owed _ := 0
  recorded _ := {p | (K (F := F)).lev ((c : Thread nD τ), p.1) p.2 ≤ 8}

theorem A_eq (hpre : PreOK m) (c : Dev nD) (w : Fin cfg1.W) : (dat1 m hpre c).A w = Ve m hpre c (Pipeline.arrRef spec1 w) := by
  dsimp only [dat1]

theorem after_0 (hpre : PreOK m) (c : Dev nD) (t : Fin cfg1.N) : (dat1 m hpre c).after 0 t = iblk m hpre c 0 t := by dsimp only [dat1]
theorem after_1 (hpre : PreOK m) (c : Dev nD) (t : Fin cfg1.N) : (dat1 m hpre c).after 1 t = iblk m hpre c 1 t := by dsimp only [dat1]
theorem after_2 (hpre : PreOK m) (c : Dev nD) (t : Fin cfg1.N) : (dat1 m hpre c).after 2 t = iblk m hpre c 2 t := by dsimp only [dat1]
theorem after_3 (hpre : PreOK m) (c : Dev nD) (t : Fin cfg1.N) : (dat1 m hpre c).after 3 t = iblk m hpre c 3 t := by dsimp only [dat1]
theorem after_4 (hpre : PreOK m) (c : Dev nD) (t : Fin cfg1.N) : (dat1 m hpre c).after 4 t = iblk m hpre c 4 t := by dsimp only [dat1]
theorem after_5 (hpre : PreOK m) (c : Dev nD) (t : Fin cfg1.N) : (dat1 m hpre c).after 5 t
    = outBlk (iblk m hpre c 0 t) (iblk m hpre c 1 t) (iblk m hpre c 2 t) (iblk m hpre c 3 t) (iblk m hpre c 4 t) := by dsimp only [dat1]

/-- Each input's current staging buffer holds its block at every point, fetched there or not: the gathered array's
    block is fetched at each point; the four small operands are fetched once and their block index never moves. -/
theorem before_0 (hpre : PreOK m) (c : Dev nD) (t : Fin cfg1.N) (d) : (dat1 m hpre c).before 0 t d = iblk m hpre c 0 t :=
  ((dat1 m hpre c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hpre : PreOK m) (c : Dev nD) (t : Fin cfg1.N) (d) : (dat1 m hpre c).before 1 t d = iblk m hpre c 1 t :=
  ((dat1 m hpre c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (hpre : PreOK m) (c : Dev nD) (t : Fin cfg1.N) (d) : (dat1 m hpre c).before 2 t d = iblk m hpre c 2 t :=
  ((dat1 m hpre c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (hpre : PreOK m) (c : Dev nD) (t : Fin cfg1.N) (d) : (dat1 m hpre c).before 3 t d = iblk m hpre c 3 t :=
  ((dat1 m hpre c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (hpre : PreOK m) (c : Dev nD) (t : Fin cfg1.N) (d) : (dat1 m hpre c).before 4 t d = iblk m hpre c 4 t :=
  ((dat1 m hpre c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body obligation, at a generic point -/

def bodyPre (hpre : PreOK m) (c : Dev nD) (t : Fin cfg1.N) : sProp 𝕄 :=
  iprop((dat1 m hpre c).Φ t.castSucc ∗ (dat1 m hpre c).owesAt (default : HIx 1) t.castSucc
    ∗ (∃ d, owns (c : Thread nD τ) (st1_0 t) fullShare ((dat1 m hpre c).before 0 t d))
    ∗ (∃ d, owns (c : Thread nD τ) (st1_1 t) fullShare ((dat1 m hpre c).before 1 t d))
    ∗ (∃ d, owns (c : Thread nD τ) (st1_2 t) fullShare ((dat1 m hpre c).before 2 t d))
    ∗ (∃ d, owns (c : Thread nD τ) (st1_3 t) fullShare ((dat1 m hpre c).before 3 t d))
    ∗ (∃ d, owns (c : Thread nD τ) (st1_4 t) fullShare ((dat1 m hpre c).before 4 t d))
    ∗ (∃ d, owns (c : Thread nD τ) (st1_5 t) fullShare ((dat1 m hpre c).before 5 t d)))

def bodyPost (hpre : PreOK m) (c : Dev nD) (t : Fin cfg1.N) : sProp 𝕄 :=
  iprop((dat1 m hpre c).Φ t.succ ∗ (dat1 m hpre c).owesAt (default : HIx 1) t.succ
    ∗ owns (c : Thread nD τ) (st1_0 t) fullShare ((dat1 m hpre c).after 0 t)
    ∗ owns (c : Thread nD τ) (st1_1 t) fullShare ((dat1 m hpre c).after 1 t)
    ∗ owns (c : Thread nD τ) (st1_2 t) fullShare ((dat1 m hpre c).after 2 t)
    ∗ owns (c : Thread nD τ) (st1_3 t) fullShare ((dat1 m hpre c).after 3 t)
    ∗ owns (c : Thread nD τ) (st1_4 t) fullShare ((dat1 m hpre c).after 4 t)
    ∗ owns (c : Thread nD τ) (st1_5 t) fullShare ((dat1 m hpre c).after 5 t))

/-- The body at any point: the inputs' memrefs hold their blocks, so the body's triple applies; the invariant and the
    core's dues pass through unread. -/
theorem sound_body (hpre : PreOK m) (c : Dev nD) (t : Fin cfg1.N) :
    bodyPre m hpre c t ⊢ wp frame (wpE (defs₀ (F := F)) Variants.none c none) Set.univ (bodyAt1 t) (fun _ => bodyPost m hpre c t) := by
  unfold bodyPre bodyPost bodyAt1
  simp only [before_0, before_1, before_2, before_3, before_4]
  rw [show (dat1 m hpre c).Φ t.succ = (dat1 m hpre c).Φ t.castSucc from rfl,
    show (dat1 m hpre c).owesAt (default : HIx 1) t.succ = (dat1 m hpre c).owesAt (default : HIx 1) t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _
    (iblk m hpre c 0 t) (iblk m hpre c 1 t) (iblk m hpre c 2 t) (iblk m hpre c 3 t) (iblk m hpre c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (hpre : PreOK m) (c : Dev nD) : BodyObligation (dat1 (F := F) m hpre c) (defs₀ (F := F)) Variants.none (default : HIx 1) Set.univ := fun t => by
  rw [bigSep_W1, bigSep_W1]
  exact sound_body m hpre c t

end Cert.Proof.KI

end
-- ==== Proof.KIFinDefs.lean ====
/-
  What the TensorCore holds when its program ends, and what a final memory must then satisfy: the six argument
  arrays as launched and the result array at what the pipeline's two points wrote back.
-/
import proofs.«204720_g14766097563961_cont_week2b_356_26_alg».proof.Proof.KIRegion

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)
variable [FloatOps F]

/-- The result array after the pipeline: what its two points wrote back. -/
abbrev outFinal (hpre : PreOK m) (c : Dev nD) : Buf (Elt F) ((c : Thread nD τ).loc main_v3) := (dat1 m hpre c).arrAt 5 cfg1.N

/-- A buffer of device d's TensorCore at the full share. -/
abbrev pl (d : Dev nD) (b : Ref sig .tc) (f : Buf (Elt F) ((d : Thread nD τ).loc b)) : sProp 𝕄 := ((d : Thread nD τ).loc b) ↦{fullShare} f

/-- What @main leaves the claim: the six arguments as launched, the result at what the pipeline wrote back. -/
abbrev FIN (hpre : PreOK m) (d : Dev nD) : sProp 𝕄 :=
  iprop(pl d main_arg0 (m ((d : Thread nD τ).loc main_arg0)) ∗ pl d main_arg1 (m ((d : Thread nD τ).loc main_arg1))
    ∗ pl d main_arg2 (m ((d : Thread nD τ).loc main_arg2)) ∗ pl d main_arg3 (m ((d : Thread nD τ).loc main_arg3))
    ∗ pl d main_arg4 (m ((d : Thread nD τ).loc main_arg4)) ∗ pl d main_arg5 (m ((d : Thread nD τ).loc main_arg5))
    ∗ pl d main_v3 (outFinal m hpre d))

/-- What a final memory satisfies on device d. -/
def fq (hpre : PreOK m) (d : Dev nD) (s' : Phys nD τ sig (Elt F)) : Prop :=
  s'.mem.mem ((d : Thread nD τ).loc main_v3) = outFinal m hpre d
    ∧ s'.mem.mem ((d : Thread nD τ).loc main_arg0) = m ((d : Thread nD τ).loc main_arg0)
    ∧ s'.mem.mem ((d : Thread nD τ).loc main_arg1) = m ((d : Thread nD τ).loc main_arg1)
    ∧ s'.mem.mem ((d : Thread nD τ).loc main_arg2) = m ((d : Thread nD τ).loc main_arg2)
    ∧ s'.mem.mem ((d : Thread nD τ).loc main_arg3) = m ((d : Thread nD τ).loc main_arg3)
    ∧ s'.mem.mem ((d : Thread nD τ).loc main_arg4) = m ((d : Thread nD τ).loc main_arg4)
    ∧ s'.mem.mem ((d : Thread nD τ).loc main_arg5) = m ((d : Thread nD τ).loc main_arg5)

/-- The run's post: on every device the result array at what the pipeline wrote back, the arguments as launched. -/
def QC (hpre : PreOK m) : PUnit × MemSt nD τ sig (Elt F) → Prop := fun r => ∀ c : Dev nD,
  r.2.mem ((c : Thread nD τ).loc main_v3) = outFinal m hpre c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)

end Cert.Proof.KI

end
-- ==== Proof.PreRange.lean ====
/-
  The index range the precondition grants.

  The precondition is a conjunction of whole-array "all" reductions; its last conjunct says of every index word w that
  0 ≤ w and w ≤ 99999 as signed 32-bit numbers.  A word in [0, 99999] signed is below 100000 as a natural number, so every
  index word names a row of the [100000, 128] table.  Only this integer conjunct is read; the float conjuncts are dropped.
-/
import proofs.«204720_g14766097563961_cont_week2b_356_26_alg».proof.Proof.Gen.Pre_input_domain
import Idealize.ShloMosaic.Lib.ReduceAll
import Idealize.ShloMosaic.Lib.ValueIdx

namespace Cert.PreRange

open Idealize.ShloMosaic Cert.Pre_input_domain

/-- The scalar shape has one index. -/
instance : Subsingleton S_.Idx := ⟨fun a b => funext fun d => d.elim0⟩

/-- A 32-bit word w with 0 ≤ w and w ≤ 99999, both read signed, is below 100000 read unsigned. -/
theorem word_range (w : BitVec 32)
    (h : IntOp.andi (IntOp.cmpi .sge w 0#32) (IntOp.cmpi .sle w 99999#32) = 1#1) : w.toNat < 100000 := by
  obtain ⟨h0, h1⟩ := IntOp.andi_eq_one.1 h
  have h0' : (0#32 : BitVec 32).toInt ≤ w.toInt := IntOp.cmpi_sge.1 h0
  have h1' : w.toInt ≤ (99999#32 : BitVec 32).toInt := IntOp.cmpi_sle.1 h1
  have e0 : (0#32 : BitVec 32).toInt = 0 := by decide
  have e1 : (99999#32 : BitVec 32).toInt = 99999 := by decide
  rw [e0] at h0'
  rw [e1] at h1'
  -- the signed reading of w is w itself when w < 2³¹ and w − 2³² otherwise; the second case contradicts 0 ≤ w
  have hc := BitVec.toInt_eq_toNat_cond w
  have hlt := w.isLt
  split at hc <;> omega

variable {F : FTy → Type} [FloatOps F]

/-- Under the precondition every index word is below 100000. -/
theorem range_of_pre [Cert.Pre_input_domain.Facts] (a0 : FVec F S100000x128 .f32) (a1 : FVec F S100x64 .f32)
    (a2 : FVec F S99x128 .f32) (a3 : FVec F S64 .f32) (a4 : FVec F S99 .f32) (a5 : IVec S16384 32)
    (h : Cert.Pre_input_domain.fn (F := F) a0 a1 a2 a3 a4 a5 = fun _ => 1#1) : ∀ j, (a5 j).toNat < 100000 := by
  intro j
  have e := congrFun h ValueIdx.ix0
  dsimp only [Cert.Pre_input_domain.fn, Cert.Pre_input_domain.fn_part1] at e
  -- the outer conjunction: keep its last conjunct, the "all" over the index words
  have e29 := (IntOp.andi_eq_one.1 e).2
  -- an "all" that is 1 had a 1 at every index
  have ej := Host.reduce_andi_all _ _ _ _ ValueIdx.ix0 e29 j
  exact word_range (a5 j) ej

end Cert.PreRange
-- ==== Proof.KIPre.lean ====
/-
  The certificate's precondition grants what the SparseCore part asks of the launch memory: every index word names a row
  of the user table. The precondition is stated of the arrays at the TensorCore's locations; the index vector the tiles
  read is the same buffer of the same device.
-/
import proofs.«204720_g14766097563961_cont_week2b_356_26_alg».proof.Defs
import proofs.«204720_g14766097563961_cont_week2b_356_26_alg».proof.Proof.KISetup
import proofs.«204720_g14766097563961_cont_week2b_356_26_alg».proof.Proof.PreRange

noncomputable section

namespace Cert.Proof.KI

open Cert.KernelIdeal Cert.KernelIdeal.Gen

open Idealize.ShloMosaic

/-- If the input-domain predicate of the launch arrays is all ones on every device, every index word is below 100000. -/
theorem ok_of_fn {F : FTy → Type} [FloatOps F] [Cert.Pre_input_domain.Facts]
    (m : (ℓ : Loc nD τ sig) → Buf (Elt F) ℓ)
    (h : ∀ c : Dev nD,
      Cert.Pre_input_domain.fn (F := F) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) = fun _ => 1#1) :
    PreOK m :=
  fun d j => Cert.PreRange.range_of_pre _ _ _ _ _ _ (h d) j

/-- The claim's precondition, at the exact instance, grants it. -/
theorem ok_of_pre_ideal [hP : Cert.Pre_input_domain.Facts]
    (m : (ℓ : Loc Cert.KernelIdeal.nD Cert.KernelIdeal.τ Cert.KernelIdeal.sig) → Buf (Elt Ideal) ℓ)
    (h : Cert.Pre_KernelIdeal m) : PreOK (F := Ideal) m :=
  ok_of_fn m h

end Cert.Proof.KI

end
-- ==== Proof.Spec.lean ====
/-
  The common vocabulary of the two sides of the claim, over plain index types and no program.

  Both programs compute, for session b and item n,

      util(b, n) = Σ_k x(b, k) · β(n, k)  +  Σ_k item(n, k) · c(k)  +  ι(n)

  where x(b, ·) is the row of the user table that the index word of session b names, β is the user-coefficient
  matrix with a zero row put in front (item 0 has no coefficients) and ι the intercept vector with a zero put in
  front.  The two programs differ only in how the three summands are grouped and in the order of the factors of
  the item term; on the extended reals addition is associative and commutative and multiplication commutative,
  so no finiteness is needed to join them.
-/
import Idealize.ShloMosaic.PureOps.Ideal
import Idealize.ShloMosaic.Lib.ValueIdx

noncomputable section

namespace Cert.Spec

open Idealize.ShloMosaic Idealize.ShloMosaic.ValueIdx

/-- β(n, k): row n of the user-coefficient matrix with a zero row in front. -/
def beta (cu : (⟨2, ![99, 128]⟩ : Shape).Idx → EReal) (n : Fin 100) (k : Fin 128) : EReal :=
  if h : n.val = 0 then 0 else cu (ix2 (⟨n.val - 1, by omega⟩ : Fin 99) k)

/-- ι(n): entry n of the intercept vector with a zero in front. -/
def icpt (ci : (⟨1, ![99]⟩ : Shape).Idx → EReal) (n : Fin 100) : EReal :=
  if h : n.val = 0 then 0 else ci (ix1 (⟨n.val - 1, by omega⟩ : Fin 99))

/-- ι(n) read off the intercepts laid out as a [1, 99] row (the kernel's reshaped operand). -/
def icptRow (ci : (⟨2, ![1, 99]⟩ : Shape).Idx → EReal) (n : Fin 100) : EReal :=
  if h : n.val = 0 then 0 else ci (ix2 (0 : Fin 1) (⟨n.val - 1, by omega⟩ : Fin 99))

/-- The row of the user table session b reads: its index word as a natural number, in range by hypothesis. -/
def row (idx : (⟨1, ![16384]⟩ : Shape).Idx → BitVec 32) (hr : ∀ j, (idx j).toNat < 100000) (b : Fin 16384) : Fin 100000 :=
  ⟨(idx (ix1 b)).toNat, hr _⟩

/-- The kernel's grouping: the user term plus (item term with the coefficient first, plus intercept). -/
def KF (x : Fin 16384 → Fin 128 → EReal) (cu : (⟨2, ![99, 128]⟩ : Shape).Idx → EReal)
    (item : (⟨2, ![100, 64]⟩ : Shape).Idx → EReal) (c : Fin 64 → EReal) (io : Fin 100 → EReal) (b : Fin 16384) (n : Fin 100) : EReal :=
  (∑ k : Fin 128, x b k * beta cu n k) + ((∑ k : Fin 64, c k * item (ix2 n k)) + io n)

/-- The reference's grouping: (user term plus item term with the item entry first) plus intercept. -/
def RF (x : Fin 16384 → Fin 128 → EReal) (cu : (⟨2, ![99, 128]⟩ : Shape).Idx → EReal)
    (item : (⟨2, ![100, 64]⟩ : Shape).Idx → EReal) (c : Fin 64 → EReal) (io : Fin 100 → EReal) (b : Fin 16384) (n : Fin 100) : EReal :=
  ((∑ k : Fin 128, x b k * beta cu n k) + (∑ k : Fin 64, item (ix2 n k) * c k)) + io n

/-- The two groupings agree: associativity of the sum and commutativity of each product of the item term. -/
theorem KF_eq_RF (x : Fin 16384 → Fin 128 → EReal) (cu : (⟨2, ![99, 128]⟩ : Shape).Idx → EReal)
    (item : (⟨2, ![100, 64]⟩ : Shape).Idx → EReal) (c : Fin 64 → EReal) (io : Fin 100 → EReal) (b : Fin 16384) (n : Fin 100) :
    KF x cu item c io b n = RF x cu item c io b n := by
  unfold KF RF
  rw [← add_assoc]
  congr 2
  exact Finset.sum_congr rfl fun k _ => mul_comm _ _

end Cert.Spec

end
-- ==== Proof.LibTransposedMatmul.lean ====
/-
  A matrix product with the right operand transposed, read at an index, at the exact (extended-real) instance.

  For operands `l : [M, K]` and `w : [N, K]` and the dimension numbers "contract the last axis of both operands, no batch
  axis" — the product `l · wᵀ` — the product accumulated into the zero array has, at `(r, c)`, the value
  `∑ j, l (r, j) * w (c, j)`: there is no rounding and no accumulation order at this instance, and the one-axis contraction
  index is its one coordinate. Stated for every extent and every pair of operand formats.
-/
import Idealize.ShloMosaic.Lib.ValueIdx
import Idealize.ShloMosaic.PureOps.Ideal.Laws

noncomputable section

open scoped BigOperators

namespace Cert.Lib

open Idealize.ShloMosaic Idealize.ShloMosaic.ValueIdx

/-- A product `[M, K] × [N, K]ᵀ` accumulated into zeros, read at `(r, c)`: the sum over the contracted index `j` of
    `l (r, j) * w (c, j)`. -/
theorem matmul_transposedRhs_zero_apply {M K N : ℕ} {φ₁ φ₂ : FTy} (prec : Option ContractPrecision)
    (l : FVec Ideal ⟨2, ![M, K]⟩ φ₁) (w : FVec Ideal ⟨2, ![N, K]⟩ φ₂) (r : Fin M) (c : Fin N) :
    matmul (DotDims.transposedRhs M K N) prec l w (constant (F := Ideal) ⟨2, ![M, N]⟩ .f32 0x00000000#32) (ix2 r c)
      = ∑ j : Fin K, l (ix2 r j) * w (ix2 c j) := by
  simp only [matmul]
  rw [Ideal.matmul_constant_zero_apply, ← Equiv.sum_comp (contrEquiv1 (DotDims.transposedRhs M K N) K rfl rfl).symm]
  refine Finset.sum_congr rfl fun k _ => ?_
  -- the contraction index built from `k` has `k` as its one coordinate
  have hk := contrEquiv1_symm_val (DotDims.transposedRhs M K N) K rfl rfl k
  -- the left operand is read at (r, k): its kept axis follows the output's row, its last axis the contraction index
  have el : (DotDims.transposedRhs M K N).lhsIdx (ix2 r c) ((contrEquiv1 (DotDims.transposedRhs M K N) K rfl rfl).symm k)
      = ix2 r k :=
    funext fun a => Fin.ext (by
      match a with
      | ⟨0, _⟩ => rfl
      | ⟨1, _⟩ => exact ((DotDims.transposedRhs M K N).lhsIdx_val_of_single rfl _ _).trans hk)
  -- the right operand is read at (c, k): its kept axis follows the output's column, its last axis the contraction index
  have er : (DotDims.transposedRhs M K N).rhsIdx (ix2 r c) ((contrEquiv1 (DotDims.transposedRhs M K N) K rfl rfl).symm k)
      = ix2 c k :=
    funext fun a => Fin.ext (by
      match a with
      | ⟨0, _⟩ => rfl
      | ⟨1, _⟩ => exact ((DotDims.transposedRhs M K N).rhsIdx_val_of_single rfl _ _).trans hk)
  rw [el, er]

end Cert.Lib

end
-- ==== Proof.PayValue.lean ====
/-
  The kernel's one payload on the matrix unit, read at an index, at the exact (extended-real) instance.

  The payload is  x · βᵀ + broadcast(c · itemᵀ + ι)  where β is the [99, 128] coefficient block with a zero row put in front
  and ι the [1, 99] intercept row with a zero entry put in front.  At (r, n) it reads

      Σ_k x(r, k) · β(n, k)  +  ( Σ_k c(0, k) · item(n, k)  +  ι(n) ).

  Each step is one layout fact: a two-piece concatenation read in its first or in its second piece, a product with the right
  operand transposed accumulated into zeros, a one-row array spread over all rows, and the zero word read as the number 0.
-/
import proofs.«204720_g14766097563961_cont_week2b_356_26_alg».proof.Proof.Gen.KernelIdeal.Skeleton
import proofs.«204720_g14766097563961_cont_week2b_356_26_alg».proof.Proof.Spec
import proofs.«204720_g14766097563961_cont_week2b_356_26_alg».proof.Proof.LibTransposedMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal

/-- The zero word, as a scalar of the exact instance, is the number 0. -/
theorem zeroWord : (Scalar.ofBits (F := Ideal) .f32 0x00000000#32 : EReal) = 0 := Ideal.ofBits_zero_f32

/-- The coefficient block with a zero row in front, read at (n, k): β(n, k). -/
theorem coeffs_apply (v1 : FVec Ideal S99x128 .f32) (n : Fin 100) (k : Fin 128) :
    concatenate S100x128 0
        [⟨S1x128, broadcast S1x128 (Scalar.ofBits (F := Ideal) .f32 0x00000000#32)⟩, ⟨S99x128, v1⟩]
        Gen.concatenates_S1x128_S99x128_S100x128_d0 (ix2 n k)
      = Cert.Spec.beta v1 n k := by
  unfold Cert.Spec.beta
  split
  · next h0 =>
    -- row 0 lies in the first piece, the zero row
    refine (concatenate_pair_apply_left (t := S100x128) (s₁ := S1x128) (s₂ := S99x128) (0 : Fin 2) _ _ _ (ix2 n k) rfl (ix2 (0 : Fin 1) k) (fun b => ?_)).trans zeroWord
    match b with
    | ⟨0, _⟩ => exact h0.symm
    | ⟨1, _⟩ => rfl
  · next h0 =>
    -- a row n ≥ 1 lies in the second piece, at row n − 1
    refine concatenate_pair_apply_right (t := S100x128) (s₁ := S1x128) (s₂ := S99x128) (0 : Fin 2) _ _ _ (ix2 n k) rfl rfl
      (ix2 (⟨n.val - 1, by omega⟩ : Fin 99) k) (fun b hb => ?_) ?_
    · match b with
      | ⟨0, _⟩ => exact absurd rfl hb
      | ⟨1, _⟩ => rfl
    · show n.val - 1 + 1 = n.val
      omega

/-- The intercept row with a zero entry in front, read at (0, n): ι(n). -/
theorem icpts_apply (v4 : FVec Ideal S1x99 .f32) (n : Fin 100) :
    concatenate S1x100 1
        [⟨S1x1, broadcast S1x1 (Scalar.ofBits (F := Ideal) .f32 0x00000000#32)⟩, ⟨S1x99, v4⟩]
        Gen.concatenates_S1x1_S1x99_S1x100_d1 (ix2 (0 : Fin 1) n)
      = Cert.Spec.icptRow v4 n := by
  unfold Cert.Spec.icptRow
  split
  · next h0 =>
    -- column 0 lies in the first piece, the zero entry
    refine (concatenate_pair_apply_left (t := S1x100) (s₁ := S1x1) (s₂ := S1x99) (1 : Fin 2) _ _ _ (ix2 (0 : Fin 1) n) rfl (ix2 (0 : Fin 1) (0 : Fin 1)) (fun b => ?_)).trans zeroWord
    match b with
    | ⟨0, _⟩ => rfl
    | ⟨1, _⟩ => exact h0.symm
  · next h0 =>
    -- a column n ≥ 1 lies in the second piece, at column n − 1
    refine concatenate_pair_apply_right (t := S1x100) (s₁ := S1x1) (s₂ := S1x99) (1 : Fin 2) _ _ _ (ix2 (0 : Fin 1) n) rfl rfl
      (ix2 (0 : Fin 1) (⟨n.val - 1, by omega⟩ : Fin 99)) (fun b hb => ?_) ?_
    · match b with
      | ⟨0, _⟩ => rfl
      | ⟨1, _⟩ => exact absurd rfl hb
    · show n.val - 1 + 1 = n.val
      omega

/-- The kernel's payload read at (r, n). -/
theorem pay_apply (v1 : Vec Ideal S99x128 .f32) (v4 : Vec Ideal S1x99 .f32) (v7 : Vec Ideal S1x64 .f32)
    (v9 : Vec Ideal S100x64 .f32) (v12 : Vec Ideal S8192x128 .f32) (r : Fin 8192) (n : Fin 100) :
    Cert.KernelIdeal.Gen.k1_pay1 (F := Ideal) v1 v4 v7 v9 v12 (ValueIdx.ix2 r n)
      = (∑ k : Fin 128, v12 (ValueIdx.ix2 r k) * Cert.Spec.beta v1 n k)
        + ((∑ k : Fin 64, v7 (ValueIdx.ix2 (0 : Fin 1) k) * v9 (ValueIdx.ix2 n k)) + Cert.Spec.icptRow v4 n) := by
  unfold Gen.k1_pay1
  simp only [shapeCast_self]
  rw [addf_apply, broadcastTo_1b_ab_apply, addf_apply]
  -- the two generated dimension-number records are the "right operand transposed" records
  have hd1 : dot_S8192x128_S100x128_S8192x100_1_1_0_0_n_n = DotDims.transposedRhs 8192 128 100 := rfl
  have hd2 : dot_S1x64_S100x64_S1x100_1_1_0_0_n_n = DotDims.transposedRhs 1 64 100 := rfl
  rw [hd1, hd2]
  refine congrArg₂ (· + ·) ((Cert.Lib.matmul_transposedRhs_zero_apply none _ _ r n).trans ?_)
    (congrArg₂ (· + ·) (Cert.Lib.matmul_transposedRhs_zero_apply none _ _ (0 : Fin 1) n)
      (by rw [shapeCast_self]; exact icpts_apply v4 n))
  exact Finset.sum_congr rfl fun k _ => by rw [coeffs_apply]

end Cert.KernelIdeal.PayValue

end
-- ==== Proof.KIValue.lean ====
/-
  The idealized kernel's result array read at an index, at the exact (extended-real) instance.

  The pipeline's two points each write back one block of 8192 rows of the result; the block point t writes is the
  payload of the input blocks at t, and the two blocks cover the array.  Read at (b, n), the payload is the user term
  of the gathered row b, the item term with the coefficient first, and the intercept of item n: the kernel's
  grouping of the common vocabulary.
-/
import proofs.«204720_g14766097563961_cont_week2b_356_26_alg».proof.Proof.KIRegion
import proofs.«204720_g14766097563961_cont_week2b_356_26_alg».proof.Proof.PayValue
import proofs.«204720_g14766097563961_cont_week2b_356_26_alg».proof.Proof.Spec
import Idealize.ShloMosaic.Lib.Pipeline.Value
import Idealize.ShloMosaic.Lib.ValueLayout

noncomputable section

open scoped BigOperators

namespace Cert.Proof.KI

open Cert.KernelIdeal Cert.KernelIdeal.Gen
open Idealize.ShloMosaic Idealize.ShloMosaic.TcCoe Idealize.SL.Sem
open Idealize.ShloMosaic.SparseCore (S V T)
open Idealize.ShloMosaic.Pipeline (Dat)
open Idealize.ShloMosaic.ValueIdx

variable (m : (ℓ : Loc nD τ sig) → Buf (Elt Ideal) ℓ)

/-! ## What the region finds in the five arrays it reads -/

section Entry
variable (hpre : PreOK m) (c : Dev nD)

/-- The gathered array is where the SparseCore call left it. -/
theorem Ve_v2 : Ve m hpre c main_v2 = gath m hpre c := by
  show Function.update (V2 m c) (Proc.devRef .tc (main_v2 : Ref sig .tc)) (gath m hpre c) (Proc.devRef .tc (main_v2 : Ref sig .tc)) = _
  exact Function.update_self ..

/-- The coefficient matrix and the item matrix are as launched: neither reshape nor the call wrote them. -/
theorem Ve_arg2 : Ve m hpre c main_arg2 = m ((c : Thread nD τ).loc main_arg2) := by
  show Function.update (V2 m c) (Proc.devRef .tc (main_v2 : Ref sig .tc)) (gath m hpre c) (Proc.devRef .tc (main_arg2 : Ref sig .tc)) = _
  rw [Function.update_of_ne (StableHlo.devRef_ne_of_ne (by decide))]
  unfold V2
  rw [StableHlo.reshape_result_ne (h := (by decide : (main_arg2 : Ref sig .tc) ≠ main_v1)),
    StableHlo.reshape_result_ne (h := (by decide : (main_arg2 : Ref sig .tc) ≠ main_v0))]

theorem Ve_arg1 : Ve m hpre c main_arg1 = m ((c : Thread nD τ).loc main_arg1) := by
  show Function.update (V2 m c) (Proc.devRef .tc (main_v2 : Ref sig .tc)) (gath m hpre c) (Proc.devRef .tc (main_arg1 : Ref sig .tc)) = _
  rw [Function.update_of_ne (StableHlo.devRef_ne_of_ne (by decide))]
  unfold V2
  rw [StableHlo.reshape_result_ne (h := (by decide : (main_arg1 : Ref sig .tc) ≠ main_v1)),
    StableHlo.reshape_result_ne (h := (by decide : (main_arg1 : Ref sig .tc) ≠ main_v0))]

/-- The item coefficients as a [1, 64] row: the first reshape's result, untouched since. -/
theorem Ve_v0 : Ve m hpre c main_v0 = shapeCast S1x64 (m ((c : Thread nD τ).loc main_arg3)) shapeCasts_S64_S1x64 := by
  show Function.update (V2 m c) (Proc.devRef .tc (main_v2 : Ref sig .tc)) (gath m hpre c) (Proc.devRef .tc (main_v0 : Ref sig .tc)) = _
  rw [Function.update_of_ne (StableHlo.devRef_ne_of_ne (by decide))]
  unfold V2
  rw [StableHlo.reshape_result_ne (h := (by decide : (main_v0 : Ref sig .tc) ≠ main_v1)), StableHlo.reshape_result]
  rfl

/-- The intercepts as a [1, 99] row: the second reshape's result. -/
theorem Ve_v1 : Ve m hpre c main_v1 = shapeCast S1x99 (m ((c : Thread nD τ).loc main_arg4)) shapeCasts_S99_S1x99 := by
  show Function.update (V2 m c) (Proc.devRef .tc (main_v2 : Ref sig .tc)) (gath m hpre c) (Proc.devRef .tc (main_v1 : Ref sig .tc)) = _
  rw [Function.update_of_ne (StableHlo.devRef_ne_of_ne (by decide))]
  unfold V2
  rw [StableHlo.reshape_result, StableHlo.reshape_result_ne (h := (by decide : (main_arg4 : Ref sig .tc) ≠ main_v0))]
  rfl

end Entry

/-! ## The row forms of the two small operands -/

/-- The intercept row made from the intercept vector reads ι. -/
theorem icptRow_shapeCast (v : FVec Ideal S99 .f32) (n : Fin 100) :
    Cert.Spec.icptRow (shapeCast S1x99 v shapeCasts_S99_S1x99) n = Cert.Spec.icpt v n := by
  unfold Cert.Spec.icptRow Cert.Spec.icpt
  by_cases h : n.val = 0
  · rw [dif_pos h, dif_pos h]
  · rw [dif_neg h, dif_neg h]
    exact shapeCast_a_1a_apply v shapeCasts_S99_S1x99 0 _

/-! ## One point's block of the result, over variables -/

/-- The payload of five blocks at (r, n), when the blocks are known at the indices it reads: the kernel's grouping
    of the common vocabulary at the session the row belongs to. -/
theorem point_value (x0 : Vec Ideal S8192x128 .f32) (x1 : Vec Ideal S99x128 .f32) (x2 : Vec Ideal S100x64 .f32)
    (x3 : Vec Ideal S1x64 .f32) (x4 : Vec Ideal S1x99 .f32) (r : Fin 8192) (n : Fin 100)
    (X : Fin 16384 → Fin 128 → EReal) (cu : Vec Ideal S99x128 .f32) (item : Vec Ideal S100x64 .f32)
    (cv : Fin 64 → EReal) (io : Fin 100 → EReal) (b : Fin 16384)
    (h0 : ∀ k, x0 (ix2 r k) = X b k) (h1 : x1 = cu) (h2 : x2 = item) (h3 : ∀ k, x3 (ix2 (0 : Fin 1) k) = cv k)
    (h4 : Cert.Spec.icptRow x4 n = io n) :
    k1_pay1 (F := Ideal) x1 x4 x3 x2 x0 (ix2 r n) = Cert.Spec.KF X cu item cv io b n := by
  subst h1 h2
  rw [Cert.KernelIdeal.PayValue.pay_apply]
  unfold Cert.Spec.KF
  rw [h4]
  refine congrArg₂ (· + ·) (Finset.sum_congr rfl fun k _ => by rw [h0]) ?_
  exact congrArg (· + io n) (Finset.sum_congr rfl fun k _ => by rw [h3])

/-! ## The windows' blocks read at an index -/

theorem hz : (![0, 0] : Fin 2 → Nat) = fun _ => 0 := funext fun a => by fin_cases a <;> rfl

/-- The printed index maps, decided over the two points: the gathered array's and the result's block row is the
    point, every other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section Blocks
variable (hpre : PreOK m) (c : Dev nD) (t : Fin cfg1.N)

/-- Block t of the gathered array is its rows 8192·t … 8192·t + 8191. -/
theorem iblk0_apply (x : S8192x128.Idx) (k : S16384x128.Idx) (hk0 : (k 0).val = 8192 * t.val + (x 0).val)
    (hk1 : (k 1).val = (x 1).val) :
    (iblk m hpre c 0 t : Vec Ideal S8192x128 .f32) x = (gath m hpre c : S16384x128.Idx → EReal) k := by
  unfold iblk
  rw [View.read_apply]
  show Ve m hpre c main_v2 _ = _
  rw [Ve_v2]
  congr 1
  funext a
  apply Fin.ext
  match a with
  | ⟨0, _⟩ => show win1_0.index t (0 : Fin 2) * 8192 + 1 * (x 0).val = (k 0).val; rw [(idx_facts t).1, hk0]; omega
  | ⟨1, _⟩ => show win1_0.index t (1 : Fin 2) * 128 + 1 * (x 1).val = (k 1).val; rw [(idx_facts t).2.1, hk1]; omega

/-- The coefficient matrix is staged whole. -/
theorem iblk1_eq : (iblk m hpre c 1 t : Vec Ideal S99x128 .f32) = m ((c : Thread nD τ).loc main_arg2) := by
  funext x
  unfold iblk
  rw [View.read_apply]
  show Ve m hpre c main_arg2 _ = _
  rw [Ve_arg2]
  congr 1
  funext a
  apply Fin.ext
  match a with
  | ⟨0, _⟩ => show win1_1.index t (0 : Fin 2) * 99 + 1 * (x 0).val = (x 0).val; rw [(idx_facts t).2.2.1]; omega
  | ⟨1, _⟩ => show win1_1.index t (1 : Fin 2) * 128 + 1 * (x 1).val = (x 1).val; rw [(idx_facts t).2.2.2.1]; omega

/-- The item matrix is staged whole. -/
theorem iblk2_eq : (iblk m hpre c 2 t : Vec Ideal S100x64 .f32) = m ((c : Thread nD τ).loc main_arg1) := by
  funext x
  unfold iblk
  rw [View.read_apply]
  show Ve m hpre c main_arg1 _ = _
  rw [Ve_arg1]
  congr 1
  funext a
  apply Fin.ext
  match a with
  | ⟨0, _⟩ => show win1_2.index t (0 : Fin 2) * 100 + 1 * (x 0).val = (x 0).val; rw [(idx_facts t).2.2.2.2.1]; omega
  | ⟨1, _⟩ => show win1_2.index t (1 : Fin 2) * 64 + 1 * (x 1).val = (x 1).val; rw [(idx_facts t).2.2.2.2.2.1]; omega

/-- The item coefficients' row is staged whole. -/
theorem iblk3_eq : (iblk m hpre c 3 t : Vec Ideal S1x64 .f32)
    = shapeCast S1x64 (m ((c : Thread nD τ).loc main_arg3)) shapeCasts_S64_S1x64 := by
  funext x
  unfold iblk
  rw [View.read_apply]
  show Ve m hpre c main_v0 _ = _
  rw [Ve_v0]
  congr 1
  funext a
  apply Fin.ext
  match a with
  | ⟨0, _⟩ => show win1_3.index t (0 : Fin 2) * 1 + 1 * (x 0).val = (x 0).val; rw [(idx_facts t).2.2.2.2.2.2.1]; omega
  | ⟨1, _⟩ => show win1_3.index t (1 : Fin 2) * 64 + 1 * (x 1).val = (x 1).val; rw [(idx_facts t).2.2.2.2.2.2.2.1]; omega

/-- The intercepts' row is staged whole. -/
theorem iblk4_eq : (iblk m hpre c 4 t : Vec Ideal S1x99 .f32)
    = shapeCast S1x99 (m ((c : Thread nD τ).loc main_arg4)) shapeCasts_S99_S1x99 := by
  funext x
  unfold iblk
  rw [View.read_apply]
  show Ve m hpre c main_v1 _ = _
  rw [Ve_v1]
  congr 1
  funext a
  apply Fin.ext
  match a with
  | ⟨0, _⟩ => show win1_4.index t (0 : Fin 2) * 1 + 1 * (x 0).val = (x 0).val; rw [(idx_facts t).2.2.2.2.2.2.2.2.1]; omega
  | ⟨1, _⟩ => show win1_4.index t (1 : Fin 2) * 99 + 1 * (x 1).val = (x 1).val; rw [(idx_facts t).2.2.2.2.2.2.2.2.2.1]; omega

end Blocks

/-! ## From the blocks to the array -/

section Array
variable (hpre : PreOK m) (c : Dev nD)

/-- The rows of the user table the sessions read. -/
abbrev userRows : Fin 16384 → Fin 128 → EReal :=
  fun b k => m (uLoc c) (ix2 (Cert.Spec.row (m (iLoc c)) (hpre c) b) k)

/-- The whole result array: the kernel's grouping of the common vocabulary at every (b, n). -/
def resArr : S16384x100.Idx → EReal := fun i =>
  Cert.Spec.KF (userRows m hpre c) (m ((c : Thread nD τ).loc main_arg2)) (m ((c : Thread nD τ).loc main_arg1))
    (fun k => m ((c : Thread nD τ).loc main_arg3) (ix1 k)) (Cert.Spec.icpt (m ((c : Thread nD τ).loc main_arg4))) (i 0) (i 1)

/-- The gathered array at (b, k) is entry k of the row session b reads. -/
theorem gath_apply (b : Fin 16384) (k : Fin 128) :
    (gath m hpre c : S16384x128.Idx → EReal) (ix2 b k) = userRows m hpre c b k := rfl

/-- WHAT POINT t WRITES BACK is block t of the whole result array. -/
theorem flushed_eq (t : Fin cfg1.N) :
    (dat1 (F := Ideal) m hpre c).flushed 5 t = ((cfg1.win 5).blk t).view.read (Elt Ideal) (resArr m hpre c) := by
  show (cfg1.win 5).cut (grid1.coords t) ((dat1 (F := Ideal) m hpre c).after 5 t) = _
  rw [after_5]
  unfold outBlk
  rw [View.canon_unit_zero hz]
  simp only [View.ld_unit_zero (S := S8192x128) hz, View.ld_unit_zero (S := S99x128) hz, View.ld_unit_zero (S := S100x64) hz,
    View.ld_unit_zero (S := S1x64) hz, View.ld_unit_zero (S := S1x99) hz]
  funext j
  rw [View.read_apply]
  have hj0 : (j 0).val < 8192 := (j 0).isLt
  have hj1 : (j 1).val < 100 := (j 1).isLt
  have ht : t.val < 2 := lt_of_lt_of_eq t.isLt N_1
  have hy : (cfg1.win 5).xinj (grid1.coords t) j = ix2 (⟨(j 0).val, hj0⟩ : Fin 8192) (⟨(j 1).val, hj1⟩ : Fin 100) :=
    funext fun a => Fin.ext (by
      match a with
      | ⟨0, _⟩ => rfl
      | ⟨1, _⟩ => rfl)
  have he0 : ((((cfg1.win 5).blk t).view.emb j) 0).val = 8192 * t.val + (j 0).val := by
    show win1_5.index t (0 : Fin 2) * 8192 + 1 * (j 0).val = _
    rw [(idx_facts t).2.2.2.2.2.2.2.2.2.2.1]; omega
  have he1 : ((((cfg1.win 5).blk t).view.emb j) 1).val = (j 1).val := by
    show win1_5.index t (1 : Fin 2) * 100 + 1 * (j 1).val = _
    rw [(idx_facts t).2.2.2.2.2.2.2.2.2.2.2]; omega
  show k1_pay1 (F := Ideal) (iblk m hpre c 1 t) (iblk m hpre c 4 t) (iblk m hpre c 3 t) (iblk m hpre c 2 t) (iblk m hpre c 0 t)
      ((cfg1.win 5).xinj (grid1.coords t) j) = resArr m hpre c (((cfg1.win 5).blk t).view.emb j)
  rw [hy]
  refine (point_value (iblk m hpre c 0 t) (iblk m hpre c 1 t) (iblk m hpre c 2 t) (iblk m hpre c 3 t) (iblk m hpre c 4 t)
    (⟨(j 0).val, hj0⟩ : Fin 8192) (⟨(j 1).val, hj1⟩ : Fin 100) (userRows m hpre c)
    (m ((c : Thread nD τ).loc main_arg2)) (m ((c : Thread nD τ).loc main_arg1))
    (fun k => m ((c : Thread nD τ).loc main_arg3) (ix1 k)) (Cert.Spec.icpt (m ((c : Thread nD τ).loc main_arg4)))
    (⟨8192 * t.val + (j 0).val, by omega⟩ : Fin 16384)
    (fun k => ?_) (iblk1_eq m hpre c t) (iblk2_eq m hpre c t) (fun k => ?_) ?_).trans ?_
  · exact (iblk0_apply m hpre c t _ (ix2 (⟨8192 * t.val + (j 0).val, by omega⟩ : Fin 16384) k) rfl rfl).trans
      (gath_apply m hpre c _ k)
  · rw [iblk3_eq]
    exact shapeCast_a_1a_apply _ shapeCasts_S64_S1x64 0 k
  · rw [iblk4_eq]
    exact icptRow_shapeCast _ _
  · unfold resArr
    congr 1
    · exact Fin.ext he0.symm
    · exact Fin.ext he1.symm

/-- The two blocks cover the result array: row b lies in the block of point b / 8192. -/
theorem cover (i : S16384x100.Idx) :
    ∃ t : Fin cfg1.N, (cfg1.win 5).flush t = true ∧ i ∈ ((cfg1.win 5).blk t).view.set := by
  have hi0 : (i 0).val < 16384 := (i 0).isLt
  have hi1 : (i 1).val < 100 := (i 1).isLt
  obtain ⟨t, ht⟩ : ∃ t : Fin cfg1.N, t.val = (i 0).val / 8192 :=
    ⟨⟨(i 0).val / 8192, lt_of_lt_of_eq (by omega : (i 0).val / 8192 < 2) N_1.symm⟩, rfl⟩
  refine ⟨t, flush1_5 t, ?_⟩
  show i ∈ ((View.whole main_v3).slice (win1_5.rect t)).set
  rw [View.set_slice_whole, Rect.mem_set_unit]
  intro a
  match a with
  | ⟨0, _⟩ =>
    show win1_5.index t (0 : Fin 2) * 8192 ≤ (i 0).val ∧ (i 0).val < win1_5.index t (0 : Fin 2) * 8192 + 8192
    rw [(idx_facts t).2.2.2.2.2.2.2.2.2.2.1, ht]
    omega
  | ⟨1, _⟩ =>
    show win1_5.index t (1 : Fin 2) * 100 ≤ (i 1).val ∧ (i 1).val < win1_5.index t (1 : Fin 2) * 100 + 100
    rw [(idx_facts t).2.2.2.2.2.2.2.2.2.2.2]
    omega

/-- The result array after the run is the whole-array function. -/
theorem final : (dat1 (F := Ideal) m hpre c).arrAt 5 cfg1.N = resArr m hpre c :=
  (dat1 (F := Ideal) m hpre c).arrAt_eq_of_cover 5 (resArr m hpre c) (fun t _ => flushed_eq m hpre c t) (fun i => cover i)

end Array

/-- THE KERNEL'S RESULT at (b, n): the kernel's grouping of the common vocabulary. -/
theorem out_value (hpre : PreOK m) (c : Dev nD) (b : Fin 16384) (n : Fin 100) :
    (dat1 (F := Ideal) m hpre c).arrAt 5 cfg1.N (ValueIdx.ix2 b n)
      = Cert.Spec.KF (fun b k => m (uLoc c) (ValueIdx.ix2 (Cert.Spec.row (m (iLoc c)) (hpre c) b) k))
          (m ((c : Thread nD τ).loc main_arg2)) (m ((c : Thread nD τ).loc main_arg1))
          (fun k => m ((c : Thread nD τ).loc main_arg3) (ValueIdx.ix1 k))
          (Cert.Spec.icpt (m ((c : Thread nD τ).loc main_arg4))) b n := by
  rw [final m hpre c]
  rfl

end Cert.Proof.KI

end
-- ==== Proof.RefRun.lean ====
/-
  The reference program's @main as the list of its host operations — the sixteen of @main itself and, at the one
  call, the twenty-four of the row-lookup function (with the select of its inner function in place) over the
  call's own buffers — and its run read back: every weakly fair execution terminates with the result buffer at
  the operations' composed pure term of the arguments' launch contents, the arguments unchanged.

  The composed term is stated through named stages, each the printed operations of one step of the computation:
  the coefficient matrix with a zero row in front, the intercepts with a zero in front, the index words after
  the wrap-around of negative ones, their in-range mask, the looked-up rows, the two contractions.
-/
import proofs.«204720_g14766097563961_cont_week2b_356_26_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages of the composed term -/

/-- The coefficient matrix with a row of zeros put in front. -/
def betaFull (a2 : FVec F S99x128 .f32) : FVec F S100x128 .f32 :=
  concatenate S100x128 0 [⟨S1x128, broadcastInDim S1x128 ![] bcast_S_S1x128 (constant S_ .f32 0x00000000#32)⟩, ⟨S99x128, a2⟩]
    concatenates_S1x128_S99x128_S100x128_d0

/-- The intercepts with a zero put in front. -/
def icptFull (a4 : FVec F S99 .f32) : FVec F S100 .f32 :=
  concatenate S100 0 [⟨S1, broadcastInDim S1 ![] bcast_S_S1 (constant S_ .f32 0x00000000#32)⟩, ⟨S99, a4⟩]
    concatenates_S1_S99_S100_d0

/-- The index words after the wrap-around: a negative word has the table's height added. -/
def idxW (a5 : IVec S16384 32) : IVec S16384 32 :=
  select (cmpi .slt a5 (broadcastInDim S16384 ![] bcast_S_S16384 (constantI S_ 32 0#32)))
    (addi a5 (broadcastInDim S16384 ![] bcast_S_S16384 (constantI S_ 32 100000#32))) a5

/-- The wrapped index words as a column. -/
def idxCol (a5 : IVec S16384 32) : IVec S16384x1 32 :=
  broadcastInDim S16384x1 ![0] bcast_S16384_S16384x1_0 (idxW a5)

/-- The in-range mask: 0 ≤ word ≤ 99999, per session. -/
def inRange (a5 : IVec S16384 32) : IVec S16384 1 :=
  Host.reduce IntOp.andi
    (andi (cmpi .sge (idxCol a5) (broadcastInDim S16384x1 ![] bcast_S_S16384x1 (constantI S_ 32 0#32)))
      (cmpi .sle (idxCol a5)
        (broadcastInDim S16384x1 ![0, 1] bcast_S1x1_S16384x1_0_1 (broadcastInDim S1x1 ![1] bcast_S1_S1x1_1 (constantI S1 32 99999#32)))))
    (constantI S_ 1 1#1) reducesTo_S16384x1_S16384_d1 h_S_

/-- The looked-up rows of the user table: the gathered row where the word is in range, the fill value elsewhere. -/
def taken (a0 : FVec F S100000x128 .f32) (a5 : IVec S16384 32) : FVec F S16384x128 .f32 :=
  select (broadcastInDim S16384x128 ![0] bcast_S16384_S16384x128_0 (inRange a5))
    (Host.gather gather_S100000x128_S16384x1_S16384x128_1_0_n_n_0_1_1128 a0 (idxCol a5))
    (broadcastInDim S16384x128 ![] bcast_S_S16384x128 (constant S_ .f32 0x7FC00000#32))

/-- The user term: the looked-up rows contracted with the transposed coefficient matrix. -/
def userTerm (a0 : FVec F S100000x128 .f32) (a2 : FVec F S99x128 .f32) (a5 : IVec S16384 32) : FVec F S16384x100 .f32 :=
  Host.dotGeneral dot_S16384x128_S128x100_S16384x100_1_0_0_1_n_n none (taken a0 a5)
    (transpose S128x100 [1, 0] (betaFull a2) transposes_S100x128_S128x100_1_0)

/-- The item term: the item matrix contracted with the item coefficients. -/
def itemTerm (a1 : FVec F S100x64 .f32) (a3 : FVec F S64 .f32) : FVec F S100 .f32 :=
  Host.dotGeneral dot_S100x64_S64_S100_1_0_0_n_n_n none a1 a3

/-- A vector over the items spread over the sessions. -/
def spread (v : FVec F S100 .f32) : FVec F S16384x100 .f32 :=
  broadcastInDim S16384x100 ![0, 1] bcast_S1x100_S16384x100_0_1 (broadcastInDim S1x100 ![1] bcast_S100_S1x100_1 v)

/-- The operations' composed term: (user term + item term) + intercepts. -/
def res (a0 : FVec F S100000x128 .f32) (a1 : FVec F S100x64 .f32) (a2 : FVec F S99x128 .f32) (a3 : FVec F S64 .f32)
    (a4 : FVec F S99 .f32) (a5 : IVec S16384 32) : FVec F S16384x100 .f32 :=
  addf (addf (userTerm a0 a2 a5) (spread (itemTerm a1 a3))) (spread (icptFull a4))

/-! ## The operations -/

/-- @main's operations in order, the call unfolded: six of @main, the row lookup's twenty-four into the call's
    buffers (the seventh of them the inner function's select), ten of @main. -/
abbrev ops : List (HloOp τ sig (Elt F)) :=
  [ nullary main_cst (constant S_ .f32 0x00000000#32),
    unary main_cst main_v0 (broadcastInDim S1x128 ![] bcast_S_S1x128 : (⟨S_, .f32⟩ : BufTy).Contents (Elt F) → (⟨S1x128, .f32⟩ : BufTy).Contents (Elt F)),
    binary main_v0 main_arg2 main_v1 ((fun a b => concatenate S100x128 0 [⟨S1x128, a⟩, ⟨S99x128, b⟩] concatenates_S1x128_S99x128_S100x128_d0) : (⟨S1x128, .f32⟩ : BufTy).Contents (Elt F) → (⟨S99x128, .f32⟩ : BufTy).Contents (Elt F) → (⟨S100x128, .f32⟩ : BufTy).Contents (Elt F)),
    nullary main_cst_0 (constant S_ .f32 0x00000000#32),
    unary main_cst_0 main_v2 (broadcastInDim S1 ![] bcast_S_S1 : (⟨S_, .f32⟩ : BufTy).Contents (Elt F) → (⟨S1, .f32⟩ : BufTy).Contents (Elt F)),
    binary main_v2 main_arg4 main_v3 ((fun a b => concatenate S100 0 [⟨S1, a⟩, ⟨S99, b⟩] concatenates_S1_S99_S100_d0) : (⟨S1, .f32⟩ : BufTy).Contents (Elt F) → (⟨S99, .f32⟩ : BufTy).Contents (Elt F) → (⟨S100, .f32⟩ : BufTy).Contents (Elt F)),
    TRef.nullary main_call0.c (constantI S_ 32 0#32),
    TRef.unary main_call0.c main_call0.v0 (broadcastInDim S16384 ![] bcast_S_S16384),
    TRef.binary (.of main_arg5) main_call0.v0 main_call0.v1 (cmpi .slt),
    TRef.nullary main_call0.c_0 (constantI S_ 32 100000#32),
    TRef.unary main_call0.c_0 main_call0.v2 (broadcastInDim S16384 ![] bcast_S_S16384),
    TRef.binary (.of main_arg5) main_call0.v2 main_call0.v3 addi,
    TRef.ternary main_call0.v1 main_call0.v3 (.of main_arg5) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg0) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select,
    unary main_v1 main_v5 ((transpose S128x100 [1, 0] · transposes_S100x128_S128x100_1_0) : (⟨S100x128, .f32⟩ : BufTy).Contents (Elt F) → (⟨S128x100, .f32⟩ : BufTy).Contents (Elt F)),
    binary main_v4 main_v5 main_v6 ((fun l r => Host.dotGeneral dot_S16384x128_S128x100_S16384x100_1_0_0_1_n_n none l r) : (⟨S16384x128, .f32⟩ : BufTy).Contents (Elt F) → (⟨S128x100, .f32⟩ : BufTy).Contents (Elt F) → (⟨S16384x100, .f32⟩ : BufTy).Contents (Elt F)),
    binary main_arg1 main_arg3 main_v7 ((fun l r => Host.dotGeneral dot_S100x64_S64_S100_1_0_0_n_n_n none l r) : (⟨S100x64, .f32⟩ : BufTy).Contents (Elt F) → (⟨S64, .f32⟩ : BufTy).Contents (Elt F) → (⟨S100, .f32⟩ : BufTy).Contents (Elt F)),
    unary main_v7 main_v8 (broadcastInDim S1x100 ![1] bcast_S100_S1x100_1 : (⟨S100, .f32⟩ : BufTy).Contents (Elt F) → (⟨S1x100, .f32⟩ : BufTy).Contents (Elt F)),
    unary main_v8 main_v9 (broadcastInDim S16384x100 ![0, 1] bcast_S1x100_S16384x100_0_1 : (⟨S1x100, .f32⟩ : BufTy).Contents (Elt F) → (⟨S16384x100, .f32⟩ : BufTy).Contents (Elt F)),
    binary main_v6 main_v9 main_v10 (addf : (⟨S16384x100, .f32⟩ : BufTy).Contents (Elt F) → (⟨S16384x100, .f32⟩ : BufTy).Contents (Elt F) → (⟨S16384x100, .f32⟩ : BufTy).Contents (Elt F)),
    unary main_v3 main_v11 (broadcastInDim S1x100 ![1] bcast_S100_S1x100_1 : (⟨S100, .f32⟩ : BufTy).Contents (Elt F) → (⟨S1x100, .f32⟩ : BufTy).Contents (Elt F)),
    unary main_v11 main_v12 (broadcastInDim S16384x100 ![0, 1] bcast_S1x100_S16384x100_0_1 : (⟨S1x100, .f32⟩ : BufTy).Contents (Elt F) → (⟨S16384x100, .f32⟩ : BufTy).Contents (Elt F)),
    binary main_v10 main_v12 main_v13 (addf : (⟨S16384x100, .f32⟩ : BufTy).Contents (Elt F) → (⟨S16384x100, .f32⟩ : BufTy).Contents (Elt F) → (⟨S16384x100, .f32⟩ : BufTy).Contents (Elt F)) ]

-- forty binds re-associated: the rewrite under the chain recurses once per statement
set_option maxRecDepth 1024 in
/-- @main is that straight line: the two functions' definitions unfolded at their calls, both sides are one
    chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., binary_bufs_sub .., binary_bufs_sub .., unary_bufs_sub .., unary_bufs_sub .., binary_bufs_sub ..,
    unary_bufs_sub .., unary_bufs_sub .., binary_bufs_sub ..⟩

attribute [local irreducible] Host.reduce Host.gather in
set_option maxRecDepth 8192 in
/-- The fold of the operations at the result buffer is the composed term, by computation: each operation's result
    decides whether the buffer read is the one it writes, and the typed references' casts are the identity at
    these literal references. The reduction and the gather stay folded meanwhile (the equation never looks inside). -/
theorem out_eq (V : Valuation τ sig (Elt F)) :
    after ops V (main_v13 : DevRef τ sig)
      = res (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- On every device, for any float values, from any memory with zero counters: every weakly fair execution of
    @main terminates with the result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
        = res (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v13).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefRun

end
-- ==== Proof.RefValue.lean ====
/-
  The reference's composed term read at an index, at the exact (extended-real) instance.

  Under the hypothesis that every index word, read unsigned, is below the user table's height, each word is
  nonnegative as a signed integer and at most 99999: the wrap-around select keeps the word, the in-range mask is
  true everywhere, the outer select keeps the gathered row, and the gather reads the row the word names.  The
  coefficient matrix with a zero row in front, transposed and contracted, and the intercepts with a zero in
  front are the common vocabulary's β and ι; each contraction over one axis is a plain sum.
-/
import proofs.«204720_g14766097563961_cont_week2b_356_26_alg».proof.Proof.RefRun
import proofs.«204720_g14766097563961_cont_week2b_356_26_alg».proof.Proof.Spec
import Idealize.ShloMosaic.Lib.ValueIdx
import Idealize.ShloMosaic.Lib.ValueLayout
import Idealize.ShloMosaic.Lib.Pipeline.Value
import Idealize.ShloMosaic.Lib.Affine
import Idealize.ShloMosaic.PureOps.Reduce
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## Words below the table's height -/

/-- A 32-bit word below 100000 read unsigned reads the same signed. -/
theorem toInt_of_lt (w : BitVec 32) (h : w.toNat < 100000) : w.toInt = (w.toNat : Int) :=
  BitVec.toInt_eq_toNat_of_lt (by omega)

theorem slt_zero_of_lt (w : BitVec 32) (h : w.toNat < 100000) : IntOp.cmpi .slt w 0#32 = 0#1 :=
  eq_zero_of_ne_one fun h1 => by
    have := IntOp.cmpi_slt.mp h1
    rw [toInt_of_lt w h, show (0#32 : BitVec 32).toInt = 0 from by decide] at this
    omega

theorem sge_zero_of_lt (w : BitVec 32) (h : w.toNat < 100000) : IntOp.cmpi .sge w 0#32 = 1#1 :=
  IntOp.cmpi_sge.mpr (by rw [toInt_of_lt w h, show (0#32 : BitVec 32).toInt = 0 from by decide]; omega)

theorem sle_top_of_lt (w : BitVec 32) (h : w.toNat < 100000) : IntOp.cmpi .sle w 99999#32 = 1#1 :=
  IntOp.cmpi_sle.mpr (by rw [toInt_of_lt w h, show (99999#32 : BitVec 32).toInt = 99999 from by decide]; omega)

/-! ## A reduction by "and" of an array of ones -/

theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_ones x hx l

/-- A reduce by "and" from 1 over an array that is 1 everywhere is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x hx _

/-! ## The index words, the mask, the looked-up rows -/

section Lookup
variable (a5 : IVec S16384 32) (hr : ∀ j, (a5 j).toNat < 100000)
include hr

/-- No word is negative, so the wrap-around keeps every word. -/
theorem idxW_apply (j : S16384.Idx) : idxW a5 j = a5 j := by
  unfold idxW
  rw [select_apply]
  have h0 : cmpi .slt a5 (broadcastInDim S16384 ![] bcast_S_S16384 (constantI S_ 32 0#32)) j = 0#1 :=
    slt_zero_of_lt (a5 j) (hr j)
  rw [h0, select_zero]

/-- The column of words reads, at row r, word r. -/
theorem idxCol_apply (j : S16384x1.Idx) : idxCol a5 j = a5 (ix1 (j 0)) := by
  unfold idxCol
  rw [broadcastInDim_apply ![0] bcast_S16384_S16384x1_0 (idxW a5) j (ix1 (j 0))
    (fun a => by
      match a with
      | ⟨0, _⟩ => show (j 0).val = if (16384 : Nat) = 1 then 0 else (j 0).val; rw [if_neg (by decide)])]
  exact idxW_apply a5 hr _

/-- Every word is in range. -/
theorem inRange_apply (j : S16384.Idx) : inRange a5 j = 1#1 := by
  unfold inRange
  refine reduce_andi_ones _ _ _ _ (fun i => ?_) (fun _ => rfl) j
  refine IntOp.andi_eq_one.mpr ⟨?_, ?_⟩
  · show IntOp.cmpi .sge (idxCol a5 i) 0#32 = 1#1
    rw [idxCol_apply a5 hr]; exact sge_zero_of_lt _ (hr _)
  · show IntOp.cmpi .sle (idxCol a5 i) 99999#32 = 1#1
    rw [idxCol_apply a5 hr]; exact sle_top_of_lt _ (hr _)

end Lookup

section Gather
variable {α : Type}

/-- The gather reads, at (b, k), the table at column k of the row the b-th start index names, read signed and
    clamped into the table. -/
theorem gather_apply (a0 : S100000x128.Idx → α) (idx : IVec S16384x1 32) (b : Fin 16384) (k : Fin 128) :
    Host.gather gather_S100000x128_S16384x1_S16384x128_1_0_n_n_0_1_1128 a0 idx (ix2 b k)
      = a0 (ix2 (⟨min (idx (ix2 b (0 : Fin 1))).toInt.toNat 99999, by omega⟩ : Fin 100000) k) := by
  unfold Host.gather
  refine congrArg a0 (funext fun a => Fin.ext ?_)
  match a with
  | ⟨0, _⟩ =>
    show gather_S100000x128_S16384x1_S16384x128_1_0_n_n_0_1_1128.start (ix2 b k) idx 0
      + gather_S100000x128_S16384x1_S16384x128_1_0_n_n_0_1_1128.batchCoord (ix2 b k) 0
      + gather_S100000x128_S16384x1_S16384x128_1_0_n_n_0_1_1128.offCoord (ix2 b k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S16384x1_S16384x128_1_0_n_n_0_1_1128.startIndexMap from
      List.mem_singleton.mpr rfl)]
    have hsi : gather_S100000x128_S16384x1_S16384x128_1_0_n_n_0_1_1128.siIdx (ix2 b k)
        ⟨List.idxOf (0 : Fin 2) gather_S100000x128_S16384x1_S16384x128_1_0_n_n_0_1_1128.startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show gather_S100000x128_S16384x1_S16384x128_1_0_n_n_0_1_1128.start (ix2 b k) idx 1
      + gather_S100000x128_S16384x1_S16384x128_1_0_n_n_0_1_1128.batchCoord (ix2 b k) 1
      + gather_S100000x128_S16384x1_S16384x128_1_0_n_n_0_1_1128.offCoord (ix2 b k) 1 = k.val
    have hs : gather_S100000x128_S16384x1_S16384x128_1_0_n_n_0_1_1128.start (ix2 b k) idx 1 = 0 := by
      unfold GatherDims.start
      rw [dif_neg (show (1 : Fin 2) ∉ gather_S100000x128_S16384x1_S16384x128_1_0_n_n_0_1_1128.startIndexMap from
        fun h => absurd (List.mem_singleton.mp h) (by decide))]
    have ho : gather_S100000x128_S16384x1_S16384x128_1_0_n_n_0_1_1128.offCoord (ix2 b k) 1 = k.val := by
      unfold GatherDims.offCoord
      rw [dif_pos ((GatherDims.mem_sKept _ _).mpr
        ⟨fun h => absurd (List.mem_singleton.mp h) (by decide), List.not_mem_nil⟩)]
      rfl
    rw [GatherDims.batchCoord_eq_zero _ _ _ List.not_mem_nil, hs, ho]
    omega

end Gather

section Taken
variable (a5 : IVec S16384 32) (hr : ∀ j, (a5 j).toNat < 100000)
include hr

/-- The looked-up rows: session b reads the row of the user table its index word names. -/
theorem taken_apply (a0 : FVec Ideal S100000x128 .f32) (b : Fin 16384) (k : Fin 128) :
    taken (F := Ideal) a0 a5 (ix2 b k) = a0 (ix2 (Cert.Spec.row a5 hr b) k) := by
  unfold taken
  rw [select_apply]
  have hm : broadcastInDim S16384x128 ![0] bcast_S16384_S16384x128_0 (inRange a5) (ix2 b k) = 1#1 := by
    rw [broadcastInDim_apply ![0] bcast_S16384_S16384x128_0 (inRange a5) (ix2 b k) (ix1 b)
      (fun a => by
        match a with
        | ⟨0, _⟩ => show b.val = if (16384 : Nat) = 1 then 0 else b.val; rw [if_neg (by decide)])]
    exact inRange_apply a5 hr _
  rw [hm, select_one, gather_apply]
  refine congrArg a0 (congrArg (fun r => ix2 r k) (Fin.ext ?_))
  show min (idxCol a5 (ix2 b (0 : Fin 1))).toInt.toNat 99999 = (a5 (ix1 b)).toNat
  rw [idxCol_apply a5 hr]
  show min (a5 (ix1 b)).toInt.toNat 99999 = (a5 (ix1 b)).toNat
  rw [toInt_of_lt _ (hr _), Int.toNat_natCast]
  exact Nat.min_eq_left (by have := hr (ix1 b); omega)

end Taken

/-! ## The zero row and the zero entry in front -/

/-- The coefficient matrix with a zero row in front is β. -/
theorem betaFull_apply (a2 : FVec Ideal S99x128 .f32) (n : Fin 100) (k : Fin 128) :
    betaFull (F := Ideal) a2 (ix2 n k) = Cert.Spec.beta a2 n k := by
  unfold betaFull Cert.Spec.beta
  by_cases h : n.val = 0
  · rw [dif_pos h,
      concatenate_pair_apply_left (t := S100x128) (s₁ := S1x128) (s₂ := S99x128) (0 : Fin 2) _ a2
        concatenates_S1x128_S99x128_S100x128_d0 (ix2 n k) (rfl : S1x128.rank = S100x128.rank) (ix2 (0 : Fin 1) k)
        (fun c => by
          match c with
          | ⟨0, _⟩ => exact h.symm
          | ⟨1, _⟩ => rfl)]
    exact Ideal.ofBits_zero_f32
  · rw [dif_neg h]
    exact concatenate_pair_apply_right (t := S100x128) (s₁ := S1x128) (s₂ := S99x128) (0 : Fin 2) _ a2
      concatenates_S1x128_S99x128_S100x128_d0 (ix2 n k) (rfl : S1x128.rank = S100x128.rank) (rfl : S99x128.rank = S100x128.rank)
      (ix2 (⟨n.val - 1, by omega⟩ : Fin 99) k)
      (fun c hc => by
        match c with
        | ⟨0, _⟩ => exact absurd rfl hc
        | ⟨1, _⟩ => rfl)
      (by show n.val - 1 + 1 = n.val; omega)

/-- The intercepts with a zero in front are ι. -/
theorem icptFull_apply (a4 : FVec Ideal S99 .f32) (n : Fin 100) :
    icptFull (F := Ideal) a4 (ix1 n) = Cert.Spec.icpt a4 n := by
  unfold icptFull Cert.Spec.icpt
  by_cases h : n.val = 0
  · rw [dif_pos h,
      concatenate_pair_apply_left (t := S100) (s₁ := S1) (s₂ := S99) (0 : Fin 1) _ a4
        concatenates_S1_S99_S100_d0 (ix1 n) (rfl : S1.rank = S100.rank) (ix1 (0 : Fin 1))
        (fun c => by
          match c with
          | ⟨0, _⟩ => exact h.symm)]
    exact Ideal.ofBits_zero_f32
  · rw [dif_neg h]
    exact concatenate_pair_apply_right (t := S100) (s₁ := S1) (s₂ := S99) (0 : Fin 1) _ a4
      concatenates_S1_S99_S100_d0 (ix1 n) (rfl : S1.rank = S100.rank) (rfl : S99.rank = S100.rank)
      (ix1 (⟨n.val - 1, by omega⟩ : Fin 99))
      (fun c hc => by
        match c with
        | ⟨0, _⟩ => exact absurd rfl hc)
      (by show n.val - 1 + 1 = n.val; omega)

/-! ## The two contractions, each a plain sum -/

/-- The user term at (b, n): the sum over k of the looked-up row's entry k times β's (n, k) entry (the transposed
    matrix read at (k, n)). -/
theorem userTerm_apply (a0 : FVec Ideal S100000x128 .f32) (a2 : FVec Ideal S99x128 .f32) (a5 : IVec S16384 32)
    (b : Fin 16384) (n : Fin 100) :
    userTerm (F := Ideal) a0 a2 a5 (ix2 b n) = ∑ k : Fin 128, taken (F := Ideal) a0 a5 (ix2 b k) * betaFull (F := Ideal) a2 (ix2 n k) := by
  unfold userTerm
  simp only [Host.dotGeneral]
  rw [Ideal.dotGeneral_apply,
    ← Equiv.sum_comp (contrEquiv1 dot_S16384x128_S128x100_S16384x100_1_0_0_1_n_n 128 rfl rfl).symm]
  refine Finset.sum_congr rfl fun k _ => ?_
  have hk := contrEquiv1_symm_val dot_S16384x128_S128x100_S16384x100_1_0_0_1_n_n 128 rfl rfl k
  have el : dot_S16384x128_S128x100_S16384x100_1_0_0_1_n_n.lhsIdx (ix2 b n)
      ((contrEquiv1 dot_S16384x128_S128x100_S16384x100_1_0_0_1_n_n 128 rfl rfl).symm k) = ix2 b k :=
    funext fun a => Fin.ext (by
      match a with
      | ⟨0, _⟩ => rfl
      | ⟨1, _⟩ => exact (dot_S16384x128_S128x100_S16384x100_1_0_0_1_n_n.lhsIdx_val_of_single rfl _ _).trans hk)
  have er : dot_S16384x128_S128x100_S16384x100_1_0_0_1_n_n.rhsIdx (ix2 b n)
      ((contrEquiv1 dot_S16384x128_S128x100_S16384x100_1_0_0_1_n_n 128 rfl rfl).symm k) = ix2 k n :=
    funext fun a => Fin.ext (by
      match a with
      | ⟨0, _⟩ => exact (dot_S16384x128_S128x100_S16384x100_1_0_0_1_n_n.rhsIdx_val_of_single rfl _ _).trans hk
      | ⟨1, _⟩ => rfl)
  rw [el, er, transpose_ix2_apply]

/-- The item term at n: the sum over k of the item matrix's (n, k) entry times coefficient k. -/
theorem itemTerm_apply (a1 : FVec Ideal S100x64 .f32) (a3 : FVec Ideal S64 .f32) (n : Fin 100) :
    itemTerm (F := Ideal) a1 a3 (ix1 n) = ∑ k : Fin 64, a1 (ix2 n k) * a3 (ix1 k) := by
  unfold itemTerm
  simp only [Host.dotGeneral]
  rw [Ideal.dotGeneral_apply, ← Equiv.sum_comp (contrEquiv1 dot_S100x64_S64_S100_1_0_0_n_n_n 64 rfl rfl).symm]
  refine Finset.sum_congr rfl fun k _ => ?_
  have hk := contrEquiv1_symm_val dot_S100x64_S64_S100_1_0_0_n_n_n 64 rfl rfl k
  have el : dot_S100x64_S64_S100_1_0_0_n_n_n.lhsIdx (ix1 n)
      ((contrEquiv1 dot_S100x64_S64_S100_1_0_0_n_n_n 64 rfl rfl).symm k) = ix2 n k :=
    funext fun a => Fin.ext (by
      match a with
      | ⟨0, _⟩ => rfl
      | ⟨1, _⟩ => exact (dot_S100x64_S64_S100_1_0_0_n_n_n.lhsIdx_val_of_single rfl _ _).trans hk)
  have er : dot_S100x64_S64_S100_1_0_0_n_n_n.rhsIdx (ix1 n)
      ((contrEquiv1 dot_S100x64_S64_S100_1_0_0_n_n_n 64 rfl rfl).symm k) = ix1 k :=
    funext fun a => Fin.ext (by
      match a with
      | ⟨0, _⟩ => exact (dot_S100x64_S64_S100_1_0_0_n_n_n.rhsIdx_val_of_single rfl _ _).trans hk)
  rw [el, er]

/-! ## A vector over the items spread over the sessions -/

theorem spread_apply {α : Type} (v : S100.Idx → α) (b : Fin 16384) (n : Fin 100) :
    broadcastInDim S16384x100 ![0, 1] bcast_S1x100_S16384x100_0_1 (broadcastInDim S1x100 ![1] bcast_S100_S1x100_1 v) (ix2 b n)
      = v (ix1 n) := by
  refine (broadcastInDim_apply ![0, 1] bcast_S1x100_S16384x100_0_1 _ (ix2 b n) (ix2 (0 : Fin 1) n) (fun ax => ?_)).trans
    (broadcastInDim_apply ![1] bcast_S100_S1x100_1 v (ix2 (0 : Fin 1) n) (ix1 n) (fun ax => ?_))
  · match ax with
    | ⟨0, _⟩ => show 0 = if (1 : Nat) = 1 then 0 else b.val; rw [if_pos rfl]
    | ⟨1, _⟩ => show n.val = if (100 : Nat) = 1 then 0 else n.val; rw [if_neg (by decide)]
  · match ax with
    | ⟨0, _⟩ => show n.val = if (100 : Nat) = 1 then 0 else n.val; rw [if_neg (by decide)]

/-! ## The result at an index -/

/-- THE REFERENCE'S RESULT at (b, n), under the hypothesis that every index word is below the table's height:
    (user term + item term) + intercept over the common vocabulary. -/
theorem res_apply (a0 : FVec Ideal S100000x128 .f32) (a1 : FVec Ideal S100x64 .f32) (a2 : FVec Ideal S99x128 .f32)
    (a3 : FVec Ideal S64 .f32) (a4 : FVec Ideal S99 .f32) (a5 : IVec S16384 32)
    (hr : ∀ j, (a5 j).toNat < 100000) (b : Fin 16384) (n : Fin 100) :
    RefRun.res (F := Ideal) a0 a1 a2 a3 a4 a5 (ix2 b n)
      = Cert.Spec.RF (fun b k => a0 (ix2 (Cert.Spec.row a5 hr b) k)) a2 a1 (fun k => a3 (ix1 k)) (Cert.Spec.icpt a4) b n := by
  unfold RefRun.res RefRun.spread Cert.Spec.RF
  rw [addf_apply, addf_apply, spread_apply, spread_apply, userTerm_apply, itemTerm_apply, icptFull_apply]
  refine congrArg (· + Cert.Spec.icpt a4 n) (congrArg (· + ∑ k : Fin 64, a1 (ix2 n k) * a3 (ix1 k)) ?_)
  exact Finset.sum_congr rfl fun k _ => by rw [taken_apply a5 hr, betaFull_apply]

end Cert.ReferenceIdeal.RefValue

end
-- ==== Proof.KIBridge.lean ====
/-
  The two results are one array.

  The reference's result at (b, n) is (user term + item term) + intercept; the kernel's is user term + (item term with the
  factors the other way round + intercept), over the same user rows — the rows of the user table the index words name —
  the same coefficients and the same intercepts. On the extended reals addition is associative and multiplication
  commutative, so the two arrays agree at every index; no finiteness is needed.
-/
import proofs.«204720_g14766097563961_cont_week2b_356_26_alg».proof.Proof.KIFinDefs
import proofs.«204720_g14766097563961_cont_week2b_356_26_alg».proof.Proof.KIValue
import proofs.«204720_g14766097563961_cont_week2b_356_26_alg».proof.Proof.RefValue
import proofs.«204720_g14766097563961_cont_week2b_356_26_alg».proof.Proof.Spec

noncomputable section

namespace Cert.Proof.KI

open Cert.KernelIdeal Cert.KernelIdeal.Gen

open Idealize.ShloMosaic Idealize.ShloMosaic.TcCoe Idealize.ShloMosaic.ValueIdx

/-- The reference's composed term of the launch arrays is the array the kernel's pipeline leaves. -/
theorem bridge (m : (ℓ : Loc nD τ sig) → Buf (Elt Ideal) ℓ) (hpre : PreOK m) (c : Dev nD) :
    Cert.ReferenceIdeal.RefRun.res (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      = outFinal m hpre c := by
  funext j
  obtain ⟨b, n, rfl⟩ : ∃ (b : Fin 16384) (n : Fin 100), j = ix2 b n := ⟨j 0, j 1, eq_ix2 j⟩
  -- the reference's grouping, the kernel's grouping, and the two groupings agree
  refine (Cert.ReferenceIdeal.RefValue.res_apply _ _ _ _ _ _ (hpre c) b n).trans ?_
  refine Eq.trans ?_ (out_value m hpre c b n).symm
  exact (Cert.Spec.KF_eq_RF _ _ _ _ _ b n).symm

end Cert.Proof.KI

end
-- ==== Proof.KITileValue.lean ====
/-
  What one tile leaves in its chunk of the gathered array.

  Tile w owns rows 512·w … 512·w + 511 of the gathered array and words 512·w … 512·w + 511 of the index vector.  The row
  stream delivers, at (p, k) of the tile's row scratch, entry k of the user-table row named by word p of the tile's chunk of
  the index vector — word 512·w + p of the whole vector — and the copy-out puts that at (512·w + p, k) of the gathered array.
  So on the tile's chunk the array holds, at (b, k), entry k of the user-table row that session b's index word names.
-/
import proofs.«204720_g14766097563961_cont_week2b_356_26_alg».proof.Proof.KISetup
import Idealize.ShloMosaic.Lib.SparseCore.Stream
import Idealize.ShloMosaic.Lib.Pipeline.Value

noncomputable section

namespace Cert.Proof.KI

open Cert.KernelIdeal Cert.KernelIdeal.Gen

open Idealize.ShloMosaic
open Idealize.ShloMosaic.SparseCore (S V T)
open Idealize.SL Idealize.SL.RA Idealize.SL.BI
open Idealize.SL.Sem
open Idealize.ShloMosaic.ValueIdx

variable {F : FTy → Type}

variable (m : (ℓ : Loc nD τ sig) → Buf (Elt F) ℓ) (ρ : Dev nD → PrngReg)

variable [FloatOps F]

section Tile

variable (d : Dev nD) (L : grid0.Coords)

/-- A tile's copy-out, on its chunk of the gathered array: a write through the chunk's view with the full mask puts the
    payload's entry y at the element under y, and every element of the chunk is under some y. -/
theorem tile_value (hpre : PreOK m) (fo : Buf (Elt F) (oLoc d)) (pay : S512x128.Idx → Elt F .f32)
    (hpay : ∀ y : S512x128.Idx, pay y = gath m hpre d ((oRowK L).view.emb y)) :
    ∀ j ∈ oRowSet (wL L), View.write (Elt F) (oRowK L).view fo pay Finset.univ j = gath m hpre d j := by
  intro j hj
  rw [← set_oRowK] at hj
  obtain ⟨y, rfl⟩ := View.exists_emb_of_mem_set (oRowK L).view hj
  rw [View.write_emb_of_mem _ _ (Finset.mem_univ y), hpay]
  exact cast_eq _ _

/-- Entry k of a rank-one list in row-major order is the entry at coordinate k. -/
theorem rowMajor_symm_one_val {n : ℕ} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

/-- The row stream's payload at (p, k) of the tile: the whole user table read at the row that word p of the tile's chunk of
    the index vector names, column k — the gathered array's entry under (p, k) of the tile's chunk. Both chunks start at the
    same row, 1024·(subcore) + 512·(core). -/
theorem gather_value (hpre : PreOK m) (hn : S512.numel = S512x128.size gathers_S100000x128_S512x128.axis')
    (hin : ∀ x, ((iRowK L).view.read (Elt F) (m (iLoc d)) x).toNat < S100000x128.size gathers_S100000x128_S512x128.axis) (y : S512x128.Idx) :
    SparseCore.gatherPayload gathers_S100000x128_S512x128 ((uAllK).view.read (Elt F) (m (uLoc d)))
        (SparseCore.rows ((iRowK L).view.read (Elt F) (m (iLoc d))) hn hin) y
      = gath m hpre d ((oRowK L).view.emb y) := by
  unfold SparseCore.gatherPayload gath
  rw [show ∀ j, (uAllK).view.read (Elt F) (m (uLoc d)) j = m (uLoc d) ((uAllK).view.emb j) from fun j => (View.read_apply _ _).trans (cast_eq _ _)]
  refine congrArg (m (uLoc d)) (funext fun b => Fin.ext ?_)
  match b with
  | ⟨0, _⟩ =>
    show 0 + 1 * ((gathers_S100000x128_S512x128).idx (SparseCore.rows ((iRowK L).view.read (Elt F) (m (iLoc d))) hn hin) y
        (gathers_S100000x128_S512x128).axis).val = (m (iLoc d) (ix1 ((oRowK L).view.emb y 0))).toNat
    rw [Shape.Gathers.idx_axis, Nat.zero_add, Nat.one_mul]
    show ((iRowK L).view.read (Elt F) (m (iLoc d)) (S512.rowMajor.symm ((y 0).cast hn.symm))).toNat = _
    rw [show ∀ j, (iRowK L).view.read (Elt F) (m (iLoc d)) j = m (iLoc d) ((iRowK L).view.emb j) from fun j => (View.read_apply _ _).trans (cast_eq _ _)]
    refine congrArg (fun i : S16384.Idx => (m (iLoc d) i).toNat) (funext fun a => Fin.ext ?_)
    match a with
    | ⟨0, _⟩ =>
      show k0_off1 L 0 + 1 * ((S512.rowMajor.symm ((y 0).cast hn.symm)) 0).val = k0_off2 L 0 + 1 * (y 0).val
      rw [rowMajor_symm_one_val, k0_off1_eq, k0_off2_eq]
      rfl
  | ⟨1, _⟩ =>
    show 0 + 1 * ((gathers_S100000x128_S512x128).idx (SparseCore.rows ((iRowK L).view.read (Elt F) (m (iLoc d))) hn hin) y
        ⟨1, by decide⟩).val = k0_off2 L 1 + 1 * (y 1).val
    rw [Shape.Gathers.idx_of_ne _ _ _ _ (by decide), k0_off2_eq]
    rfl

/-- What the tile leaves in its chunk of the gathered array: the index copy lands the tile's chunk of the index vector in the
    index scratch, the row stream lands its payload in the row scratch (a read of a scratch just written whole is what was
    written), and the copy-out writes the row scratch, as it is, through the whole of the chunk's view. -/
theorem tile_value_w (hpre : PreOK m) (fs : Buf (Elt F) ((V d (cV L) (jV L)).loc cc0_scratch0)) (fr : Buf (Elt F) ((V d (cV L) (jV L)).loc cc0_scratch1))
    (hn : S512.numel = S512x128.size gathers_S100000x128_S512x128.axis')
    (hin : ∀ x, ((sV).view.read (Elt F) (View.write (Elt F) (sV).view fs ((iRowK L).view.read (Elt F) (m (iLoc d))) Finset.univ) x).toNat < S100000x128.size gathers_S100000x128_S512x128.axis) :
    ∀ j ∈ (oRowK L).view.set,
      (oRowK L).view.writes (Elt F) (m (oLoc d)) [⟨Rect.whole S512x128,
          ReadAs.same.apply (View.read (Elt F) (rV).view (View.write (Elt F) (rV).view fr
            (SparseCore.gatherPayload gathers_S100000x128_S512x128 (View.read (Elt F) (uAllK).view (m (uLoc d)))
              (SparseCore.rows (View.read (Elt F) (sV).view (View.write (Elt F) (sV).view fs ((iRowK L).view.read (Elt F) (m (iLoc d))) Finset.univ)) hn hin))
            Finset.univ))⟩] j
        = gath m hpre d j := by
  intro j hj
  obtain ⟨y, rfl⟩ := View.exists_emb_of_mem_set (oRowK L).view hj
  -- the stream's payload, whatever list of words it is given that equals the tile's chunk of the index vector
  have key : ∀ (idx : S512.Idx → Elt F .i32) (e : idx = (iRowK L).view.read (Elt F) (m (iLoc d)))
      (h : ∀ x, (idx x).toNat < S100000x128.size gathers_S100000x128_S512x128.axis),
      SparseCore.gatherPayload gathers_S100000x128_S512x128 (View.read (Elt F) (uAllK).view (m (uLoc d))) (SparseCore.rows idx hn h) y
        = gath m hpre d ((oRowK L).view.emb y) := by
    intro idx e h; subst e; exact gather_value m d L hpre hn h y
  -- the element under y of the chunk is the element under y of the chunk's whole rectangle
  have hy : (oRowK L).view.emb y = ((oRowK L).view.slice (Rect.whole S512x128)).emb y := by
    show _ = (oRowK L).view.emb ((Rect.whole S512x128).emb y)
    rw [Rect.emb_whole_apply]
  rw [View.writes_singleton]
  refine ((congrArg _ hy).trans (View.write_emb_of_mem _ _ (Finset.mem_univ y))).trans ?_
  rw [ReadAs.apply_same, View.read_write_univ]
  exact (cast_eq _ _).trans (key _ (View.read_write_univ _ _) hin)

end Tile

end Cert.Proof.KI

end
-- ==== Proof.KITile.lean ====
/-
  The task of one tile, run symbolically at any grid coordinates: the index copy and its wait, the stream of the
  rows the index words name and its wait, the copy-out and its wait; the tile brings back its chunk of the gathered
  array at the gathered array's own values.
-/
import proofs.«204720_g14766097563961_cont_week2b_356_26_alg».proof.Proof.KISetup
import proofs.«204720_g14766097563961_cont_week2b_356_26_alg».proof.Proof.KITileValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F]

section Tile

variable (d : Dev nD) (L : grid0.Coords)

set_option maxHeartbeats 4000000 in
/-- The task of the tile at grid coordinates L on device d: the index copy and its wait, the stream of the named rows
    and its wait, the copy-out and its wait. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goOf m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L uV (Memref.isWhole_whole _) iV (Memref.isWhole_whole _) oV (Memref.isWhole_whole _)
            sV (Memref.isWhole_whole _) rV (Memref.isWhole_whole _) cc0_scratch2 cc0_scoped0 cc0_scoped1)
          fun _ => iprop(tdOf m hpre d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hi, Hu, Ho⟩, ⟨⟨%fs, Hs⟩, ⟨%fr, Hr⟩, Hbufs⟩, ⟨HsemA, HsemG, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hu' := (Entails.of_eq (pts_uV (F := F) d L _ _).symm) $$ Hu
  ihave Hs' := (Entails.of_eq (pts_sV (F := F) d L _).symm) $$ Hs
  ihave Hr' := (Entails.of_eq (pts_rV (F := F) d L _).symm) $$ Hr
  sl_exec
  -- the stream over the copied words: a share of the user table, the row scratch, the index scratch whole and the
  -- stream's cell at zero go in; the words are in range by the precondition
  ihave Hus := (pointsTo_split_subset (q := uq (wL L)) (f := m (uLoc d)) (S := Finset.univ) (Finset.subset_univ (uAllK).view.set)).1 $$ Hu'
  icases Hus with ⟨Hus, Hur⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 m d L) Finset.univ : sProp 𝕄)
      = (sV).view.loc (V d (cV L) (jV L)) ↦[(sV).view.set]{fullShare} View.write (Elt F) (sV).view fs (tile_body.sl.dma0 m d L) Finset.univ
      by rw [hss])) $$ Hs'
  have hN : ∀ h : S100000x128.Gathers 0 S512x128, ∑ j, ((rV).slice (S512x128.rowRect h.axis' j) (S512x128.stride_rowRect h.axis' j)).view.dmaCredit
      = (rV).view.dmaCredit := by decide +kernel
  iapply (SparseCore.wp_indirectGatherLocal countersEmb 𝒱₀ (V d (cV L) (jV L)) none (hg := gathers_S100000x128_S512x128) (default : HIx 1)
      (rV).view.dmaCredit (hN _) (by decide) (inb_of_pre m d L hpre fs _ rfl)) $$ [Hus Hr'' Hs'' HsemG]
  · isplitl [Hus]; · iexact Hus
    isplitl [Hr'']; · iexact Hr''
    isplitl [Hs'']; · iexact Hs''
    iexact HsemG
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hus, Hs'⟩, HsemG, HO⟩
  ihave Hu' := (pointsTo_split_subset (q := uq (wL L)) (f := m (uLoc d)) (S := Finset.univ) (Finset.subset_univ (uAllK).view.set)).2 $$ [Hus Hur]; · isplitl [Hus] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  -- the chunk of the gathered array as the copy-out left it is the gathered array there
  have hval : ∀ j ∈ (oRowK L).view.set,
      (oRowK L).view.writes (Elt F) (m (oLoc d)) [⟨Rect.whole S512x128, tile_body.sl.dma0_1 m d L hpre fs fr⟩] j = gath m hpre d j :=
    tile_value_w m d L hpre fs fr _ _
  ihave Ho2 := (Entails.of_eq (pointsTo_congr (q := fullShare) hval)) $$ Ho'
  isplitl [Hi' Hu' Ho2]
  · isplitl [Hi']; · iapply (Entails.of_eq (pts_iRowK (F := F) d L _)); iexact Hi'
    isplitl [Hu']; · iexact Hu'
    iapply (Entails.of_eq (pts_oRowK (F := F) d L _)); iexact Ho2
  isplitl [Hs3 Hr3 Hbufs]
  · isplitl [Hs3]; · iexists _; iexact Hs3
    isplitl [Hr3]; · iexists _; iexact Hr3
    iexact Hbufs
  isplitl [HsemA HsemG HsemB Hsems]
  · isplitl [HsemA]; · iexact HsemA
    isplitl [HsemG]; · iexact HsemG
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The launch theorem's obligation for a tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          uV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m hpre) v₀ 0 := by
  intro d c i O W hO _ _
  simp only [show (P m hpre).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Cert.Proof.KI

end
-- ==== Proof.KISplit.lean ====
/-
  How the three arrays of the SparseCore call are dealt to the thirty-two tiles and gathered back: the index vector
  and the gathered array cut into thirty-two chunks of 512 rows, the user table (which every tile reads whole) into
  thirty-two shares; a SparseCore's sixteen tiles hold the chunks 2·s + c, s = 0 … 15.
-/
import proofs.«204720_g14766097563961_cont_week2b_356_26_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The chunks are disjoint and cover -/

theorem iRowSet_eq (w : Fin 32) : iRowSet w = (irow w).set := by
  show ((View.whole (main_arg5_scv : Ref sig .scVector)).slice (irow w)).set = _
  rw [View.set_slice]; exact Finset.map_refl
theorem oRowSet_eq (w : Fin 32) : oRowSet w = (orow w).set := by
  show ((View.whole (main_v2_scv : Ref sig .scVector)).slice (orow w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
theorem uPts_shares (d : Dev nD) (f : Buf (Elt F) (uLoc d)) :
    (uLoc d ↦{fullShare} f : sProp 𝕄) = bigSep Finset.univ fun w : Fin 32 => uLoc d ↦{uq w} f :=
  pointsTo_piecesOf Finset.univ f (by decide) fullShare

/-! ## Thirty-two chunks are two SparseCores' sixteen -/

/-- (c, s) ↦ 2·s + c is a bijection of the tiles onto the chunks. -/
def chunkEquiv : Fin 2 × Fin 16 ≃ Fin 32 where
  toFun p := chunk p.1 p.2
  invFun w := (⟨w.val % 2, Nat.mod_lt _ (by decide)⟩, ⟨w.val / 2, by have := w.isLt; omega⟩)
  left_inv p := by
    obtain ⟨⟨c, hc⟩, ⟨s, hs⟩⟩ := p
    simp only [chunk, chunkN, Prod.mk.injEq, Fin.mk.injEq]
    omega
  right_inv w := by
    apply Fin.ext
    simp only [chunk, chunkN]
    omega

theorem bigSep_chunks (Φ : Fin 32 → sProp 𝕄) :
    bigSep Finset.univ Φ = bigSep Finset.univ fun c : Fin 2 => bigSep Finset.univ fun s : Fin 16 => Φ (chunk c s) := by
  rw [bigSep_univ_equiv chunkEquiv Φ, bigSep_univ_prod]; rfl

variable [FloatOps F]

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The three arrays whole, at contents f for the gathered array, are the thirty-two tiles' holdings. -/
theorem whole_eq_chunks (d : Dev nD) (f : Buf (Elt F) (oLoc d)) :
    (iprop(iPts m d ∗ uPts m d ∗ oPts d f) : sProp 𝕄)
      = bigSep Finset.univ fun c : Fin 2 => bigSep Finset.univ fun s : Fin 16 =>
          iprop(iRowPts m d (chunk c s) ∗ uShPts m d (chunk c s) ∗ oRowPts d (chunk c s) f) := by
  rw [← bigSep_chunks (F := F) (fun w => iprop(iRowPts m d w ∗ uShPts m d w ∗ oRowPts d w f)), bigSep_sep', bigSep_sep']
  unfold iPts uPts oPts iRowPts uShPts oRowPts
  rw [iPts_rows, uPts_shares, oPts_rows]

/-- What the call takes for the two SparseCores, and what it hands back. -/
theorem st0_eq (hpre : PreOK m) (d : Dev nD) :
    (bigSep Finset.univ fun c : Fin ((K (F := F)).nCore 0) => (P m hpre).st 0 d c) = iprop(iPts m d ∗ uPts m d ∗ oPts d (m (oLoc d))) := by
  rw [whole_eq_chunks]
  exact bigSep_cores (F := F) (fun c => bigSep Finset.univ fun s : Fin 16 => goOf m d (chunk c s))
theorem dn0_eq (hpre : PreOK m) (d : Dev nD) :
    (bigSep Finset.univ fun c : Fin ((K (F := F)).nCore 0) => (P m hpre).dn 0 d c) = iprop(iPts m d ∗ uPts m d ∗ oPts d (gath m hpre d)) := by
  rw [whole_eq_chunks]
  exact bigSep_cores (F := F) (fun c => bigSep Finset.univ fun s : Fin 16 => tdOf m hpre d (chunk c s))

/-- A SparseCore's holdings are its tiles', going in and coming back. -/
theorem vecSplit (hpre : PreOK m) : (K (F := F)).VecSplit' (P m hpre) 0 := by
  intro d c
  show (bigSep Finset.univ fun s : Fin 16 => goOf m d (chunk (Fin.cast nCore_zero c) s)) ⊢ |={Set.univ}=> iprop(
      (bigSep Finset.univ fun i : Fin ((K (F := F)).nSub 0) => goOf m d (chunk (Fin.cast nCore_zero c) (Fin.cast nSub_zero i)))
      ∗ ((bigSep Finset.univ fun i : Fin ((K (F := F)).nSub 0) => tdOf m hpre d (chunk (Fin.cast nCore_zero c) (Fin.cast nSub_zero i)))
          -∗ bigSep Finset.univ fun s : Fin 16 => tdOf m hpre d (chunk (Fin.cast nCore_zero c) s)))
  rw [bigSep_tasks (F := F) (fun i => goOf m d (chunk (Fin.cast nCore_zero c) i)),
    bigSep_tasks (F := F) (fun i => tdOf m hpre d (chunk (Fin.cast nCore_zero c) i))]
  iintro H; imodintro
  isplitl [H]; · iexact H
  iintro H; iexact H

end Cert.Proof.KI

end
-- ==== Proof.KIFin.lean ====
/-
  At the end of the run the TensorCore holds its seven arrays whole, at the full share; what is held at the full share is
  what the memory holds. So a final memory has the six argument arrays as launched and the result array at what the
  pipeline wrote back.
-/
import proofs.«204720_g14766097563961_cont_week2b_356_26_alg».proof.Proof.KIFinDefs

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)
variable [FloatOps F]

set_option maxRecDepth 16384 in
/-- Each array held whole at the full share agrees with the memory at every index; the state interpretation is kept from one
    array to the next. -/
theorem hfin (hpre : PreOK m) (d : Dev nD) (s' : Phys nD τ sig (Elt F)) :
    iprop(FIN m hpre d ∗ SI s') ⊢ (⌜fq m hpre d s'⌝ : sProp 𝕄) := by
  iintro ⟨⟨H0, H1, H2, H3, H4, H5, H6⟩, HSI⟩
  ihave H := (persistent_entails_right (SI_pointsTo_agree (st := s') (ℓ := (d : Thread nD τ).loc main_arg0) (I := Finset.univ) (q := fullShare)
      (f := m ((d : Thread nD τ).loc main_arg0)))) $$ [HSI H0]
  · isplitl [HSI] <;> iassumption
  icases H with ⟨%h0, HSI, -⟩
  ihave H := (persistent_entails_right (SI_pointsTo_agree (st := s') (ℓ := (d : Thread nD τ).loc main_arg1) (I := Finset.univ) (q := fullShare)
      (f := m ((d : Thread nD τ).loc main_arg1)))) $$ [HSI H1]
  · isplitl [HSI] <;> iassumption
  icases H with ⟨%h1, HSI, -⟩
  ihave H := (persistent_entails_right (SI_pointsTo_agree (st := s') (ℓ := (d : Thread nD τ).loc main_arg2) (I := Finset.univ) (q := fullShare)
      (f := m ((d : Thread nD τ).loc main_arg2)))) $$ [HSI H2]
  · isplitl [HSI] <;> iassumption
  icases H with ⟨%h2, HSI, -⟩
  ihave H := (persistent_entails_right (SI_pointsTo_agree (st := s') (ℓ := (d : Thread nD τ).loc main_arg3) (I := Finset.univ) (q := fullShare)
      (f := m ((d : Thread nD τ).loc main_arg3)))) $$ [HSI H3]
  · isplitl [HSI] <;> iassumption
  icases H with ⟨%h3, HSI, -⟩
  ihave H := (persistent_entails_right (SI_pointsTo_agree (st := s') (ℓ := (d : Thread nD τ).loc main_arg4) (I := Finset.univ) (q := fullShare)
      (f := m ((d : Thread nD τ).loc main_arg4)))) $$ [HSI H4]
  · isplitl [HSI] <;> iassumption
  icases H with ⟨%h4, HSI, -⟩
  ihave H := (persistent_entails_right (SI_pointsTo_agree (st := s') (ℓ := (d : Thread nD τ).loc main_arg5) (I := Finset.univ) (q := fullShare)
      (f := m ((d : Thread nD τ).loc main_arg5)))) $$ [HSI H5]
  · isplitl [HSI] <;> iassumption
  icases H with ⟨%h5, HSI, -⟩
  ihave H := (SI_pointsTo_agree (st := s') (ℓ := (d : Thread nD τ).loc main_v3) (I := Finset.univ) (q := fullShare)
      (f := outFinal m hpre d)) $$ [HSI H6]
  · isplitl [HSI] <;> iassumption
  icases H with %h6
  ipureintro
  exact ⟨funext fun i => h6 i (Finset.mem_univ i), funext fun i => h0 i (Finset.mem_univ i), funext fun i => h1 i (Finset.mem_univ i),
    funext fun i => h2 i (Finset.mem_univ i), funext fun i => h3 i (Finset.mem_univ i), funext fun i => h4 i (Finset.mem_univ i),
    funext fun i => h5 i (Finset.mem_univ i)⟩

end Cert.Proof.KI

end
-- ==== Proof.KIReg.lean ====
/-
  The pipeline of the idealized kernel's program as one region of the TensorCore's @main: its proof data in the form
  the region rule takes, the region's entry and exit states, the launch element that funds the handshakes' rounds
  and the pipeline's staging cells, and the region step inside the whole program's body table.
-/
import proofs.«204720_g14766097563961_cont_week2b_356_26_alg».proof.Proof.KITile
import proofs.«204720_g14766097563961_cont_week2b_356_26_alg».proof.Proof.KISplit
import proofs.«204720_g14766097563961_cont_week2b_356_26_alg».proof.Proof.KIRegion
import proofs.«204720_g14766097563961_cont_week2b_356_26_alg».proof.Proof.KIFinDefs
import proofs.«204720_g14766097563961_cont_week2b_356_26_alg».proof.Proof.KIFin

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic
open Idealize.ShloMosaic.Pipeline (Dat)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The pipeline's proof data as the region rule takes it -/

abbrev adm : (p : Fin 1) → (pcfgs (F := F) p).Adm := fun p => (cfgs p).toPCfg_adm
def pdats (hpre : PreOK m) : (p : Fin 1) → (c : Dev nD) → Dat τ (Elt F) (HIx 1) ℕ UU ℕ (Pipeline.pin (pcfgs (F := F)) adm p) c
  | 0 => dat1 m hpre

local notation "ι₀" => (default : HIx 1)

/-- THE REGION: the six arrays into the pipeline, the other four bypassing it, the core owing nothing; entered from
    the TensorCore's arrays as the SparseCore call left them. -/
def reg1 (hpre : PreOK m) : Pipeline.RegionSeg (pcfgs (F := F)) adm (pdats m hpre) ι₀ defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation m hpre c).loose
  hwaits c := (show (levAts (K (F := F)).L (K (F := F)).lev : sProp 𝕄) ⊢ iprop(emp) from by iintro -; iempintro).trans
    (Pipeline.cellsWaits_of_owed_zero _ (pdats m hpre) ι₀ 0 c (fun _ => rfl))
  pre c := iprop(unscopedBufs c (Ve m hpre c) ∗ (pdats m hpre 0 c).owesAt ι₀ 0)
  post c := iprop((pdats m hpre 0 c).arrays ((pdats m hpre 0 c).arrAt · (Pipeline.pin (pcfgs (F := F)) adm 0).N)
    ∗ (pdats m hpre 0 c).owesAt ι₀ (Fin.last (Pipeline.pin (pcfgs (F := F)) adm 0).N)
    ∗ Pipeline.unscopedRest (Ix := HIx 1) (Name := ℕ) (U := UU) (Lvl := ℕ) spec1 c (Ve m hpre c))
  X _ := iprop(emp)
  Y _ := iprop(emp)
  Z c := Pipeline.unscopedRest (Ix := HIx 1) (Name := ℕ) (U := UU) (Lvl := ℕ) spec1 c (Ve m hpre c)
  hentry c := by
    rw [Pipeline.ownSems0_none]
    have hsplit := Pipeline.arrays_of_unscopedBufs (pcfgs (F := F)) adm (pdats m hpre) launch1.win launch1.arr_whole c
      ((pdats m hpre 0 c).share_full fun _ => rfl) (Ve m hpre c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    iexact Hr
  hin c := by iintro -; iempintro
  hout c := by
    rw [Pipeline.ownSems0_none, scopedRest1_eq]
    iintro -; isplitr; · iempintro
    isplitr <;> iempintro
  hexit c := by
    iintro ⟨Ha, HO, -, Hr⟩
    imodintro
    isplitl [Ha]; · iexact Ha
    isplitl [HO]; · iexact HO
    iexact Hr

/-! ## The launch element: the handshakes' rounds, the pipeline's staging cells' rounds, the counters -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), (1 : Counters)))

/-- What the launch leaves each TensorCore beside its handshake state: its pipeline's cells' ghost state and duty tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

theorem hu₀ (hpre : PreOK m) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m hpre).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), (1 : Counters)) : UP × Counters)) $$ Hu
  icases H with ⟨HH, HR⟩
  ihave H2 := (own_pair_emb (embR : Emb (UP × Counters) 𝕄)
    (initOf (Pipeline.cells (Pipeline.pin (pcfgs (F := F)) adm) cellOf_inj) (Pipeline.launchToks (Pipeline.pin (pcfgs (F := F)) adm) cellOf_inj)) (1 : Counters)) $$ HR
  icases H2 with ⟨HP, -⟩
  ihave HP2 := (show (BI.own (((Emb.inl : Emb UP (UP × Counters)).trans (embR : Emb (UP × Counters) 𝕄))
        (initOf (Pipeline.cells (Pipeline.pin (pcfgs (F := F)) adm) cellOf_inj) (Pipeline.launchToks (Pipeline.pin (pcfgs (F := F)) adm) cellOf_inj))) : sProp 𝕄)
      ⊢ BI.own ((EP : Emb UP 𝕄) (initOf (Pipeline.cells (Pipeline.pin (pcfgs (F := F)) adm) cellOf_inj) (Pipeline.launchToks (Pipeline.pin (pcfgs (F := F)) adm) cellOf_inj)))
      from .rfl) $$ HP
  imod (Pipeline.fund_ghost (Pipeline.pin (pcfgs (F := F)) adm) (EP : Emb UP 𝕄) cellOf_inj) $$ HP2 with ⟨Hg, Ht⟩
  imodintro
  isplitl [HH]; · iexact HH
  have e1 : (bigSep Finset.univ fun c : Dev nD => bigSep Finset.univ fun p : Fin 1 => Pipeline.cellsGhost (Pipeline.pin (pcfgs (F := F)) adm) (EP : Emb UP 𝕄) p c)
      = bigSep Finset.univ fun c : Dev nD => Pipeline.cellsGhost (Pipeline.pin (pcfgs (F := F)) adm) (EP : Emb UP 𝕄) 0 c :=
    bigSep_congr fun c _ => bigSep_univ_of_subsingleton (0 : Fin 1)
  have e2 : (bigSep Finset.univ fun c : Dev nD => bigSep Finset.univ fun p : Fin 1 => (Pipeline.toksInit (Pipeline.pin (pcfgs (F := F)) adm) (EP : Emb UP 𝕄) p c : sProp 𝕄))
      = bigSep Finset.univ fun c : Dev nD => Pipeline.toksInit (Pipeline.pin (pcfgs (F := F)) adm) (EP : Emb UP 𝕄) 0 c :=
    bigSep_congr fun c _ => bigSep_univ_of_subsingleton (0 : Fin 1)
  ihave Hg' := (Entails.of_eq e1) $$ Hg
  ihave Ht' := (Entails.of_eq e2) $$ Ht
  isplitl [Hg' Ht']
  · rw [bigSep_sep']
    isplitl [Hg']; · iexact Hg'
    iexact Ht'
  rw [show (bigSep Finset.univ fun thr : Thread nD τ => bigSep Finset.univ fun q : Fin 1 => (P (F := F) m hpre).x q thr) = bigSep Finset.univ fun _ => iprop(emp) from
    bigSep_congr fun _ _ => bigSep_univ_of_subsingleton (0 : Fin 1), bigSep_emp']
  iempintro

/-! ## The region step -/

/-- The region's entry call, as the whole program spells it, is the pipeline's entry call lifted to the whole
    program's labels. -/
theorem entry_lift (d : Dev nD) :
    (Prog.lift (TpuEff.customCall (SparseCore.inner (Pipeline.entry (0 : Fin 1))) ()) :
        Prog (TpuEff nD τ sig (Elt F) (SparseCore.Sig (ΛP (F := F)) 1) (SparseCore.T d).2) PUnit)
      = SparseCore.liftProg (Q := 1) (Prog.op (TpuEff.customCall (Pipeline.entry (0 : Fin 1)) ()) fun _ => Prog.ret ⟨⟩ :
          Prog (TpuEff nD τ sig (Elt F) (ΛP (F := F)) (SparseCore.T d).2) PUnit) := rfl

/-- The region on device d's TensorCore under the pipeline library's own body table: the library's region rule at
    this region's record. -/
theorem region_core [∀ e, Nonempty (Elt F e)] (hpre : PreOK m) (d : Dev nD) (Φ : PUnit → sProp 𝕄) :
    iprop((iprop(boundary (SparseCore.T d) ∗ (reg1 m hpre).post d) -∗ wp frame (wpE (D (F := F)) 𝒱 (SparseCore.T d) none) Set.univ (Prog.ret ⟨⟩) Φ)
        ∗ boundary (SparseCore.T d) ∗ (reg1 m hpre).pre d ∗ levAts (K (F := F)).L (K (F := F)).lev
        ∗ Pipeline.cellsGhost (Pipeline.pin (pcfgs (F := F)) adm) (EP : Emb UP 𝕄) 0 d ∗ Pipeline.toksInit (Pipeline.pin (pcfgs (F := F)) adm) (EP : Emb UP 𝕄) 0 d)
      ⊢ wp frame (wpE (D (F := F)) 𝒱 (SparseCore.T d) none) Set.univ
          (Prog.op (TpuEff.customCall (Pipeline.entry (0 : Fin 1)) ()) fun _ => Prog.ret ⟨⟩) Φ := by
  have h := Pipeline.RegionSeg.wp (pcfgs (F := F)) adm (pdats m hpre) ι₀ cellOf_inj (EP : Emb UP 𝕄) defs₀ 𝒱₀ (K (F := F)).L (K (F := F)).lev
    (reg1 m hpre) d none (fun _ h => nomatch h) (fun _ => Prog.ret ⟨⟩) Φ
  exact h

theorem reg1_pre (hpre : PreOK m) (d : Dev nD) :
    (reg1 m hpre).pre d = iprop(unscopedBufs d (Ve m hpre d) ∗ (pdats m hpre 0 d).owesAt ι₀ 0) := rfl
theorem reg1_post (hpre : PreOK m) (d : Dev nD) :
    (reg1 m hpre).post d = iprop((pdats m hpre 0 d).arrays ((pdats m hpre 0 d).arrAt · (Pipeline.pin (pcfgs (F := F)) adm 0).N)
      ∗ (pdats m hpre 0 d).owesAt ι₀ (Fin.last (Pipeline.pin (pcfgs (F := F)) adm 0).N)
      ∗ Pipeline.unscopedRest (Ix := HIx 1) (Name := ℕ) (U := UU) (Lvl := ℕ) spec1 d (Ve m hpre d)) := rfl

/-- The region step's hypotheses, repacked as the region rule takes them. -/
theorem region_pack [∀ e, Nonempty (Elt F e)] (hpre : PreOK m) (d : Dev nD) (Φ : PUnit → sProp 𝕄) :
    iprop((iprop(boundary (SparseCore.T d)
            ∗ ((pdats m hpre 0 d).arrays ((pdats m hpre 0 d).arrAt · (Pipeline.pin (pcfgs (F := F)) adm 0).N)
              ∗ (pdats m hpre 0 d).owesAt ι₀ (Fin.last (Pipeline.pin (pcfgs (F := F)) adm 0).N)
              ∗ Pipeline.unscopedRest (Ix := HIx 1) (Name := ℕ) (U := UU) (Lvl := ℕ) spec1 d (Ve m hpre d))) -∗ Φ ⟨⟩)
        ∗ boundary (SparseCore.T d) ∗ (unscopedBufs d (Ve m hpre d) ∗ (pdats m hpre 0 d).owesAt ι₀ 0)
        ∗ levAts (K (F := F)).L (K (F := F)).lev ∗ G (F := F) d)
      ⊢ iprop((iprop(boundary (SparseCore.T d) ∗ (reg1 m hpre).post d) -∗ wp frame (wpE (D (F := F)) 𝒱 (SparseCore.T d) none) Set.univ (Prog.ret ⟨⟩) Φ)
        ∗ boundary (SparseCore.T d) ∗ (reg1 m hpre).pre d ∗ levAts (K (F := F)).L (K (F := F)).lev
        ∗ Pipeline.cellsGhost (Pipeline.pin (pcfgs (F := F)) adm) (EP : Emb UP 𝕄) 0 d ∗ Pipeline.toksInit (Pipeline.pin (pcfgs (F := F)) adm) (EP : Emb UP 𝕄) 0 d) := by
  rw [reg1_pre, reg1_post]
  iintro ⟨Hk, Hb, Hpre, Hlv, Hcg, Htk⟩
  isplitl [Hk]
  · iintro H; rw [wp_ret]; imodintro; iapply Hk; iexact H
  isplitl [Hb]; · iexact Hb
  isplitl [Hpre]; · iexact Hpre
  isplitl [Hlv]; · iexact Hlv
  isplitl [Hcg]; · iexact Hcg
  iexact Htk

/-- THE REGION STEP on device d's TensorCore inside the whole program: the region rule, lifted to the whole program's
    body table; the region is entered from the arrays as the SparseCore call left them and the core owing nothing, and
    left with the six staged arrays at their final contents. -/
theorem region_step [∀ e, Nonempty (Elt F e)] (hpre : PreOK m) (d : Dev nD) (Φ : PUnit → sProp 𝕄) :
    iprop((iprop(boundary (SparseCore.T d)
            ∗ ((pdats m hpre 0 d).arrays ((pdats m hpre 0 d).arrAt · (Pipeline.pin (pcfgs (F := F)) adm 0).N)
              ∗ (pdats m hpre 0 d).owesAt ι₀ (Fin.last (Pipeline.pin (pcfgs (F := F)) adm 0).N)
              ∗ Pipeline.unscopedRest (Ix := HIx 1) (Name := ℕ) (U := UU) (Lvl := ℕ) spec1 d (Ve m hpre d))) -∗ Φ ⟨⟩)
        ∗ boundary (SparseCore.T d) ∗ (unscopedBufs d (Ve m hpre d) ∗ (pdats m hpre 0 d).owesAt ι₀ 0)
        ∗ levAts (K (F := F)).L (K (F := F)).lev ∗ G (F := F) d)
      ⊢ wp frame (wpE ((K (F := F)).defs (D (F := F))) 𝒱 (SparseCore.T d) none) Set.univ
          (Prog.lift (TpuEff.customCall (SparseCore.inner (Pipeline.entry (0 : Fin 1))) ())) Φ := by
  rw [entry_lift]
  exact (region_pack m hpre d Φ).trans ((region_core m hpre d Φ).trans
    ((K (F := F)).wp_liftProg (D (F := F)) 𝒱 (SparseCore.T d) Set.univ none _ Φ))

end Cert.Proof.KI

end
-- ==== Proof.KIMain.lean ====
/-
  The whole program of the idealized kernel run on its thirty-five threads: the TensorCore reshapes the two small
  operands, starts the SparseCore gather and waits for it, then runs the pipeline of two points over the gathered
  array; the run ends with the six argument arrays as launched and the result array at what the pipeline's two
  points wrote back.
-/
import proofs.«204720_g14766097563961_cont_week2b_356_26_alg».proof.Proof.KIReg

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic
open Idealize.ShloMosaic.Pipeline (Dat)

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "ι₀" => (default : HIx 1)

/-! ## @main on the TensorCore -/

/-- The TensorCore's arrays, all unscoped, as device references. -/
abbrev refEmb : Ref sig .tc ↪ DevRef τ sig := ⟨Proc.devRef .tc, Proc.devRef_injective _⟩
abbrev S10 : Finset (DevRef τ sig) := (Finset.univ.filter fun b : Ref sig .tc => ¬ b.isScoped).map refEmb

omit [FloatOps F] in
theorem unscoped_held (d : Dev nD) (Vv : Valuation τ sig (Elt F)) :
    (unscopedBufs d (fun b => Vv (Proc.devRef .tc b)) : sProp 𝕄) = held (T d) S10 Vv := by
  unfold unscopedBufs held S10; rw [bigSep_map]; rfl

abbrev a0' : DevRef τ sig := Proc.devRef .tc (main_arg0 : Ref sig .tc)
abbrev a5' : DevRef τ sig := Proc.devRef .tc (main_arg5 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
/-- The three arrays of the SparseCore call. -/
abbrev T3 : Finset (DevRef τ sig) := {a0', a5', v2'}

omit [FloatOps F] in
theorem held_T3 (d : Dev nD) (W : Valuation τ sig (Elt F)) :
    (held (T d) T3 W : sProp 𝕄) = iprop((uLoc d ↦{fullShare} W a0') ∗ (iLoc d ↦{fullShare} W a5') ∗ oLoc d ↦{fullShare} W v2') := by
  unfold held T3
  rw [SparseCore.bigSep_insert' (by decide), SparseCore.bigSep_insert' (by decide), bigSep_singleton]

/-- The reshapes write only their results. -/
theorem V2_of_ne (d : Dev nD) (b : DevRef τ sig) (h0 : b ≠ v0') (h1 : b ≠ v1') : V2 m d b = V0 m d b := by
  unfold V2
  rw [(opR4 (F := F)).result_of_not_mem _ (show b ∉ ({v1'} : Finset (DevRef τ sig)) from fun h => h1 (Finset.mem_singleton.mp h)),
    (opR3 (F := F)).result_of_not_mem _ (show b ∉ ({v0'} : Finset (DevRef τ sig)) from fun h => h0 (Finset.mem_singleton.mp h))]

theorem Vr_v2 (hpre : PreOK m) (d : Dev nD) : Vr m hpre d v2' = gath m hpre d := Function.update_self ..
theorem Vr_of_ne (hpre : PreOK m) (d : Dev nD) (b : DevRef τ sig) (h : b ≠ v2') : Vr m hpre d b = V2 m d b := Function.update_of_ne h ..

/-- An argument array, or the result array, is at region entry what it was at launch. -/
theorem Ve_launch (hpre : PreOK m) (d : Dev nD) (b : Ref sig .tc) (h0 : (Proc.devRef .tc b : DevRef τ sig) ≠ v0') (h1 : (Proc.devRef .tc b : DevRef τ sig) ≠ v1')
    (h2 : (Proc.devRef .tc b : DevRef τ sig) ≠ v2') : Ve m hpre d b = m ((d : Thread nD τ).loc b) := by
  show Vr m hpre d (Proc.devRef .tc b) = _
  rw [Vr_of_ne m hpre d _ h2, V2_of_ne m d _ h0 h1]

theorem Otc_one (d : Dev nD) : (K (F := F)).Otc d 1 = 0 := by
  unfold SparseCore.Cfg.Otc
  exact Finset.sum_eq_zero fun q _ => if_neg (by have := q.isLt; omega)

abbrev a3' : DevRef τ sig := Proc.devRef .tc (main_arg3 : Ref sig .tc)
abbrev a4' : DevRef τ sig := Proc.devRef .tc (main_arg4 : Ref sig .tc)
theorem hR3 : (opR3 (F := F)).bufs ⊆ S10 := show ({a3', v0'} : Finset (DevRef τ sig)) ⊆ S10 by decide
theorem hR4 : (opR4 (F := F)).bufs ⊆ S10 := show ({a4', v1'} : Finset (DevRef τ sig)) ⊆ S10 by decide

/-- The arrays at a valuation that agrees with the launch memory on the call's inputs: the call's three and the rest. -/
theorem held_call (d : Dev nD) (W : Valuation τ sig (Elt F)) :
    (held (T d) S10 W : sProp 𝕄)
      = iprop(((uLoc d ↦{fullShare} W a0') ∗ (iLoc d ↦{fullShare} W a5') ∗ oLoc d ↦{fullShare} W v2') ∗ held (T d) (S10 \ T3) W) := by
  rw [held_sub_split (SparseCore.T d) (T := T3) (S := S10) (by decide) W, held_T3]

theorem V2_a0 (d : Dev nD) : V2 m d a0' = m (uLoc d) := V2_of_ne m d a0' (by decide) (by decide)
theorem V2_a5 (d : Dev nD) : V2 m d a5' = m (iLoc d) := V2_of_ne m d a5' (by decide) (by decide)
theorem V2_v2 (d : Dev nD) : V2 m d v2' = m (oLoc d) := V2_of_ne m d v2' (by decide) (by decide)
theorem Vr_a0 (hpre : PreOK m) (d : Dev nD) : Vr m hpre d a0' = m (uLoc d) := (Vr_of_ne m hpre d a0' (by decide)).trans (V2_a0 m d)
theorem Vr_a5 (hpre : PreOK m) (d : Dev nD) : Vr m hpre d a5' = m (iLoc d) := (Vr_of_ne m hpre d a5' (by decide)).trans (V2_a5 m d)
theorem held_rest (hpre : PreOK m) (d : Dev nD) : (held (T d) (S10 \ T3) (Vr m hpre d) : sProp 𝕄) = held (T d) (S10 \ T3) (V2 m d) :=
  held_congr (SparseCore.T d) fun b hb => Vr_of_ne m hpre d b fun e => (Finset.mem_sdiff.mp hb).2 (by rw [e]; decide)

/-- The TensorCore before "call 1" (after the one call): it owes nothing; the rest of its handshake state. -/
theorem tcSt_one (d : Dev nD) : ∃ R : sProp 𝕄, ((K (F := F)).tcSt EH d 1 : sProp 𝕄)
    = iprop((∃ W, ⌜(K (F := F)).WBelow (T d) W 8⌝ ∗ owes (T d) (0 : CellTallies nD τ sig (HIx 1)) W) ∗ R) :=
  ⟨_, by unfold SparseCore.Cfg.tcSt; rw [Otc_one]⟩

/-- A wait recorded within the region's bound sits at level at most 8. -/
theorem bound_le (hpre : PreOK m) (d : Dev nD) (t : Fin (cfg1.N + 1)) (p : SemLoc sig × HIx 1) (hp : p ∈ (dat1 m hpre d).bound (default : HIx 1) t) :
    (K (F := F)).lev ((d : Thread nD τ), p.1) p.2 ≤ 8 := by
  rcases hp with hp | ⟨w, s, rfl⟩
  · exact hp
  · exact Nat.zero_le _

/-- The pipeline's six arrays at contents Fa, one by one. -/
theorem arrays_eq1 (hpre : PreOK m) (c : Dev nD) (Fa) :
    ((pdats m hpre 0 c).arrays Fa : sProp 𝕄)
      = iprop(pl c main_v2 (Fa 0) ∗ pl c main_arg2 (Fa 1) ∗ pl c main_arg1 (Fa 2) ∗ pl c main_v0 (Fa 3) ∗ pl c main_v1 (Fa 4) ∗ pl c main_v3 (Fa 5)) := by
  rw [Pipeline.arrays_eq (Pipeline.pin (pcfgs (F := F)) adm) (pdats m hpre) 0 c launch1.arr_whole ((pdats m hpre 0 c).share_full fun _ => rfl) Fa, bigSep_W1]

/-- The two argument arrays the pipeline stages reach its exit as launched. -/
theorem arrAt_arg2 (hpre : PreOK m) (c : Dev nD) :
    (pdats m hpre 0 c).arrAt 1 (Pipeline.pin (pcfgs (F := F)) adm 0).N = m ((c : Thread nD τ).loc main_arg2) :=
  ((dat1 m hpre c).arrAt_in 1 rfl _).trans (Ve_launch m hpre c main_arg2 (by decide) (by decide) (by decide))
theorem arrAt_arg1 (hpre : PreOK m) (c : Dev nD) :
    (pdats m hpre 0 c).arrAt 2 (Pipeline.pin (pcfgs (F := F)) adm 0).N = m ((c : Thread nD τ).loc main_arg1) :=
  ((dat1 m hpre c).arrAt_in 2 rfl _).trans (Ve_launch m hpre c main_arg1 (by decide) (by decide) (by decide))
theorem arrAt_v3 (hpre : PreOK m) (c : Dev nD) :
    (pdats m hpre 0 c).arrAt 5 (Pipeline.pin (pcfgs (F := F)) adm 0).N = outFinal m hpre c := rfl

/-- The four argument arrays the pipeline does not stage are as launched. -/
theorem rest_launch (hpre : PreOK m) (c : Dev nD) :
    (Pipeline.unscopedRest (Ix := HIx 1) (Name := ℕ) (U := UU) (Lvl := ℕ) spec1 c (Ve m hpre c) : sProp 𝕄)
      = iprop(pl c main_arg0 (m ((c : Thread nD τ).loc main_arg0)) ∗ pl c main_arg3 (m ((c : Thread nD τ).loc main_arg3))
          ∗ pl c main_arg4 (m ((c : Thread nD τ).loc main_arg4)) ∗ pl c main_arg5 (m ((c : Thread nD τ).loc main_arg5))) := by
  rw [unscopedRest1_eq, Ve_launch m hpre c main_arg0 (by decide) (by decide) (by decide), Ve_launch m hpre c main_arg3 (by decide) (by decide) (by decide),
    Ve_launch m hpre c main_arg4 (by decide) (by decide) (by decide), Ve_launch m hpre c main_arg5 (by decide) (by decide) (by decide)]

set_option maxHeartbeats 2000000 in
/-- @main on device d's TensorCore. -/
theorem hmain [∀ e, Nonempty (Elt F e)] (hpre : PreOK m) (κ : GSem nD τ sig → ℕ) (d : Dev nD) :
    iprop((K (F := F)).ctx EH (P m hpre) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m hpre d) := by
  unfold SparseCore.Cfg.tcRes
  rw [show (unscopedBufs d (fun b => m ((SparseCore.T d).loc b)) : sProp 𝕄) = held (T d) S10 (V0 m d) from unscoped_held d (V0 m d)]
  simp only [main, wp_bind, wp_pure]
  iintro ⟨#Hctx, Hst, ⟨Hb, Hheld, -, -⟩, ⟨Hcg, Htk⟩⟩
  -- the two reshapes
  iapply (wp_hlo_within 𝒱 (SparseCore.T d) none Set.univ (op := opR3 (F := F)) (S := S10) hR3 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opR4 (F := F)) (S := S10) hR4 (V := (opR3 (F := F)).result (V0 m d))) $$ [Hb Hheld]
  · isplitl [Hb]; · iexact Hb
    iexact Hheld
  iintro ⟨Hb, Hheld⟩
  rw [wp_ret]; imodintro
  -- the SparseCore call: the user table, the index vector and the gathered array go to the two SparseCores and come back
  ihave Hheld2 := (show (held (SparseCore.T d) S10 ((opR4 (F := F)).result ((opR3 (F := F)).result (V0 m d))) : sProp 𝕄) ⊢ held (T d) S10 (V2 m d) from .rfl) $$ Hheld
  ihave Hh := (Entails.of_eq (held_call (F := F) d (V2 m d))) $$ Hheld2
  rw [V2_a0, V2_a5, V2_v2]
  icases Hh with ⟨⟨Hu, Hi, Ho⟩, Hrest⟩
  iapply ((K (F := F)).wp_run (D (F := F)) 𝒱 (EH := EH) (P := P m hpre) κ d 0) $$ [Hst Hi Hu Ho Hb Hrest Hcg Htk]
  isplitr; · iexact Hctx
  isplitl [Hst]; · iexact Hst
  isplitl [Hi Hu Ho]
  · rw [st0_eq]
    isplitl [Hi]; · iexact Hi
    isplitl [Hu]; · iexact Hu
    iexact Ho
  iintro ⟨Hst, Hdn⟩
  ihave Hdn' := (Entails.of_eq (dn0_eq m hpre d)) $$ Hdn
  icases Hdn' with ⟨Hi, Hu, Ho⟩
  -- the arrays as the region finds them
  ihave Hub := (show iprop(((uLoc d ↦{fullShare} m (uLoc d)) ∗ (iLoc d ↦{fullShare} m (iLoc d)) ∗ oLoc d ↦{fullShare} gath m hpre d) ∗ held (T d) (S10 \ T3) (V2 m d))
      ⊢ (unscopedBufs d (Ve m hpre d) : sProp 𝕄) from by
        rw [show (unscopedBufs d (Ve m hpre d) : sProp 𝕄) = held (T d) S10 (Vr m hpre d) from unscoped_held d (Vr m hpre d),
          held_call, Vr_a0, Vr_a5, Vr_v2, held_rest]) $$ [Hu Hi Ho Hrest]
  · isplitr [Hrest]
    · isplitl [Hu]; · iexact Hu
      isplitl [Hi]; · iexact Hi
      iexact Ho
    · iexact Hrest
  -- the TensorCore owes nothing now; its recorded waits sit at levels up to 8
  obtain ⟨R, hR⟩ := tcSt_one (F := F) d
  ihave Hst1 := (show ((K (F := F)).tcSt EH d ((0 : Fin 1).val + 1) : sProp 𝕄) ⊢ (K (F := F)).tcSt EH d 1 from .rfl) $$ Hst
  ihave Hst2 := (Entails.of_eq hR) $$ Hst1
  icases Hst2 with ⟨⟨%W, %hW, HO⟩, HR⟩
  ihave Hlev := ((K (F := F)).ctx_levAts (EH := EH) (P := P m hpre) κ) $$ Hctx
  -- the pipeline over the gathered array
  iapply (region_step m hpre d _) $$ [Hcg Htk Hb Hub HO HR]
  isplitr [Hb Hub HO Hcg Htk]
  · -- after the region: the handshake state again, and the arrays the claim reads
    iintro ⟨-, Ha, HO, Hrst⟩
    icases HO with ⟨%W', %hW', HO⟩
    ihave Ha' := (Entails.of_eq (arrays_eq1 m hpre d _)) $$ Ha
    ihave Hr' := (Entails.of_eq (rest_launch m hpre d)) $$ Hrst
    rw [arrAt_arg2, arrAt_arg1, arrAt_v3]
    icases Ha' with ⟨-, H2, H1, -, -, H3⟩
    icases Hr' with ⟨H0, H3a, H4, H5⟩
    imodintro
    isplitl [HO HR]
    · rw [hR]
      isplitl [HO]
      · iexists W'; isplitr
        · ipureintro; exact fun p hp => bound_le m hpre d _ p (hW' hp)
        iexact HO
      iexact HR
    isplitl [H0]; · iexact H0
    isplitl [H1]; · iexact H1
    isplitl [H2]; · iexact H2
    isplitl [H3a]; · iexact H3a
    isplitl [H4]; · iexact H4
    isplitl [H5]; · iexact H5
    iexact H3
  isplitl [Hb]; · iexact Hb
  isplitl [Hub HO]
  · isplitl [Hub]; · iexact Hub
    iexists W; isplitr
    · ipureintro; exact fun p hp => Or.inl (hW p hp)
    iexact HO
  isplitr; · iexact Hlev
  isplitl [Hcg]; · iexact Hcg
  iexact Htk

/-! ## The program's run -/

/-- At any float values, from any memory with zero counters in which every index word names a row of the user table:
    every weakly fair execution of the program on its thirty-five threads terminates, and every final memory has the
    result array at what the pipeline's two points wrote back and the six argument arrays as launched. -/
theorem run_main [∀ e, Nonempty (Elt F e)] (hpre : PreOK m) :
    θ_run (Cert.KernelIdeal.defs (F := F)) (Cert.KernelIdeal.threads (F := F)) ⟨m, fun _ => 0, ρ⟩ (QC m hpre) :=
  SparseCore.Cfg.θ_run_sc (K := K (F := F)) (D := D (F := F)) (𝒱 := 𝒱) (EH := EH) (P := P m hpre) facts v₀
    (fun q hq => match q with | 0 => nomatch hq)
    (fun q _ => match q with | 0 => tileObl m facts hpre)
    (fun q _ => match q with | 0 => SparseCore.Cfg.VecSplit.of_plain (vecSplit m hpre))
    m ρ main (G (F := F)) (FIN m hpre) (u₀ (F := F)) (sep_elim_left.trans (hu₀ m hpre)) (hmain m ρ hpre) (fq m hpre) (hfin m hpre) (QC m hpre)
    (fun _ h => h)

end Cert.Proof.KI

end
-- ==== Proof.KBSetup.lean ====
/-
  The SparseCore part of the kernel's program: thirty-two tiles (two SparseCores of sixteen), tile (c, s)
  taking chunk w = 2·s + c of the 16384 sessions — 512 consecutive index words and the 512 rows of the gathered
  array they name. A tile copies its index words into its index scratch, streams the rows of the user table those
  words name into its row scratch, and copies the row scratch out to its chunk of the gathered array. The gathered
  array therefore holds, at (b, k), entry k of the user-table row that session b's index word names.
-/
import proofs.«204720_g14766097563961_cont_week2b_356_26_alg».proof.Proof.Gen.Kernel
import proofs.«204720_g14766097563961_cont_week2b_356_26_alg».proof.Proof.Gen.Kernel.Skeleton
import proofs.«204720_g14766097563961_cont_week2b_356_26_alg».proof.Proof.Gen.Kernel.Launch
import proofs.«204720_g14766097563961_cont_week2b_356_26_alg».proof.Proof.Gen.Kernel.Points
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.ValueIdx
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The launch memory and the buffers -/

variable (m : (ℓ : Loc nD τ sig) → Buf (Elt F) ℓ) (ρ : Dev nD → PrngReg)

abbrev uLoc (d : Dev nD) : Loc nD τ sig := (SparseCore.T d).loc main_arg0
abbrev iLoc (d : Dev nD) : Loc nD τ sig := (SparseCore.T d).loc main_arg5
abbrev oLoc (d : Dev nD) : Loc nD τ sig := (SparseCore.T d).loc main_v2

abbrev uV : Memref sig .scVector .hbm S100000x128 .f32 := Memref.whole main_arg0_scv
abbrev iV : Memref sig .scVector .hbm S16384 .i32 := Memref.whole main_arg5_scv
abbrev oV : Memref sig .scVector .hbm S16384x128 .f32 := Memref.whole main_v2_scv
abbrev sV : Memref sig .scVector .vmem S512 .i32 := Memref.whole cc0_scratch0
abbrev rV : Memref sig .scVector .vmem S512x128 .f32 := Memref.whole cc0_scratch1

theorem idiv : 32 ∣ S16384.size 0 := ⟨512, rfl⟩
theorem odiv : 32 ∣ S16384x128.size 0 := ⟨512, rfl⟩
/-- Chunk w of the index vector: words 512·w … 512·w + 511; and of the gathered array: the same rows. -/
abbrev irow (w : Fin 32) : Rect S16384 := Rect.part (s := S16384) (a₀ := 0) idiv w
abbrev orow (w : Fin 32) : Rect S16384x128 := Rect.part (s := S16384x128) (a₀ := 0) odiv w
abbrev iRowSet (w : Fin 32) : Finset S16384.Idx := ((iV).view.slice (irow w)).set
abbrev oRowSet (w : Fin 32) : Finset S16384x128.Idx := ((oV).view.slice (orow w)).set

/-- The chunk of tile s of SparseCore c. -/
def chunkN (c s : ℕ) (hc : c < 2) (hs : s < 16) : Fin 32 := ⟨2 * s + c, by omega⟩
abbrev chunk (c : Fin 2) (s : Fin 16) : Fin 32 := chunkN c.val s.val c.isLt s.isLt

/-! ## Shares of the user table: the full share cut into thirty-two pieces, one per tile -/

abbrev uq (w : Fin 32) : PosShare TreeShare := pieceOf fullShare 32 (by decide) w

variable [FloatOps F]

/-- What the proof asks of the launch memory: every index word names a row of the user table. -/
def PreOK : Prop := ∀ (d : Dev nD) (j : S16384.Idx), (m (iLoc d) j).toNat < 100000

/-- The gathered array: at (b, k), entry k of the user-table row that the index word of session b names. -/
def gath (hpre : PreOK m) (d : Dev nD) : Buf (Elt F) (oLoc d) :=
  fun j : S16384x128.Idx => (m (uLoc d) (ix2 (n0 := 100000) (n1 := 128) ⟨(m (iLoc d) (ix1 (n := 16384) (j 0))).toNat, hpre d _⟩ (j 1)) : Elt F .f32)

/-! ## What the handshakes carry -/

abbrev uPts (d : Dev nD) : sProp 𝕄 := uLoc d ↦{fullShare} m (uLoc d)
abbrev iPts (d : Dev nD) : sProp 𝕄 := iLoc d ↦{fullShare} m (iLoc d)
abbrev oPts (d : Dev nD) (f : Buf (Elt F) (oLoc d)) : sProp 𝕄 := oLoc d ↦{fullShare} f
abbrev iRowPts (d : Dev nD) (w : Fin 32) : sProp 𝕄 := iLoc d ↦[iRowSet w]{fullShare} m (iLoc d)
abbrev uShPts (d : Dev nD) (w : Fin 32) : sProp 𝕄 := uLoc d ↦{uq w} m (uLoc d)
abbrev oRowPts (d : Dev nD) (w : Fin 32) (f : Buf (Elt F) (oLoc d)) : sProp 𝕄 := oLoc d ↦[oRowSet w]{fullShare} f

/-- What a tile is handed and what it brings back: its chunk of the index vector, its share of the user table, its
    chunk of the gathered array — at the launch contents going in, at the gathered array coming back. -/
abbrev goOf (d : Dev nD) (w : Fin 32) : sProp 𝕄 := iprop(iRowPts m d w ∗ uShPts m d w ∗ oRowPts d w (m (oLoc d)))
abbrev tdOf (hpre : PreOK m) (d : Dev nD) (w : Fin 32) : sProp 𝕄 := iprop(iRowPts m d w ∗ uShPts m d w ∗ oRowPts d w (gath m hpre d))

/-- A SparseCore is handed its sixteen tiles' holdings and brings them back. -/
def P (hpre : PreOK m) : (K (F := F)).Pay (nD := nD) (Val := Elt F) (Name := ℕ) (U := UU) where
  st := fun q d c => match q with | 0 => bigSep Finset.univ fun s : Fin 16 => goOf m d (chunk (Fin.cast nCore_zero c) s)
  dn := fun q d c => match q with | 0 => bigSep Finset.univ fun s : Fin 16 => tdOf m hpre d (chunk (Fin.cast nCore_zero c) s)
  go := fun q d c i => match q with | 0 => goOf m d (chunk (Fin.cast nCore_zero c) (Fin.cast nSub_zero i))
  td := fun q d c i => match q with | 0 => tdOf m hpre d (chunk (Fin.cast nCore_zero c) (Fin.cast nSub_zero i))
  x := fun _ _ => iprop(emp)

instance P_storable (hpre : PreOK m) : (P (F := F) m hpre).IsStorable where
  st q d c := match q with
    | 0 => (inferInstance : BI.Storable (upEmb : UEmb _ 𝕄) (bigSep Finset.univ fun s : Fin 16 => goOf m d (chunk (Fin.cast nCore_zero c) s)))
  dn q d c := match q with
    | 0 => (inferInstance : BI.Storable (upEmb : UEmb _ 𝕄) (bigSep Finset.univ fun s : Fin 16 => tdOf m hpre d (chunk (Fin.cast nCore_zero c) s)))
  go q d c i := match q with
    | 0 => (inferInstance : BI.Storable (upEmb : UEmb _ 𝕄) (goOf m d (chunk (Fin.cast nCore_zero c) (Fin.cast nSub_zero i))))
  td q d c i := match q with
    | 0 => (inferInstance : BI.Storable (upEmb : UEmb _ 𝕄) (tdOf m hpre d (chunk (Fin.cast nCore_zero c) (Fin.cast nSub_zero i))))

/-! ## The task -/

section Tile

variable (d : Dev nD) (L : grid0.Coords)

abbrev cV (L : grid0.Coords) : Fin τ.nSC := (L 0).castLE hcore0
abbrev jV (L : grid0.Coords) : Fin τ.nSub := (L 1).castLE hsub0

theorem bound_zero : grid0.bound 0 = 2 := rfl
theorem bound_one : grid0.bound 1 = 16 := rfl
/-- The chunk of the tile at grid coordinates L. -/
abbrev wL (L : grid0.Coords) : Fin 32 := chunkN (L 0).val (L 1).val (L 0).isLt (L 1).isLt

abbrev irowK (L : grid0.Coords) : Rect S16384 := Rect.unit (s := S16384) (k0_off1 L) S512.size (k0_off1_inb L)
abbrev orowK (L : grid0.Coords) : Rect S16384x128 := Rect.unit (s := S16384x128) (k0_off2 L) S512x128.size (k0_off2_inb L)
abbrev iRowK (L : grid0.Coords) : Memref sig .scVector .hbm S512 .i32 := (iV).slice (irowK L) (fun _ => rfl)
abbrev oRowK (L : grid0.Coords) : Memref sig .scVector .hbm S512x128 .f32 := (oV).slice (orowK L) (fun _ => rfl)
abbrev uAllK : Memref sig .scVector .hbm S100000x128 .f32 := (uV).slice (Rect.unit (s := S100000x128) ![0, 0] S100000x128.size inb_S100000x128_S100000x128_0_0) (fun _ => rfl)

omit [FloatOps F] in
theorem irowK_eq : irowK L = irow (wL L) := by
  unfold irowK irow Rect.part Rect.block
  congr 1 <;> funext a
  · rw [k0_off1_eq]
    match a with
    | 0 => simp [Shape.partIx, Shape.partSize, wL, chunkN]; omega
  · match a with
    | 0 => simp [Shape.partSize]
omit [FloatOps F] in
theorem orowK_eq : orowK L = orow (wL L) := by
  unfold orowK orow Rect.part Rect.block
  congr 1 <;> funext a
  · rw [k0_off2_eq]
    match a with
    | 0 => simp [Shape.partIx, Shape.partSize, wL, chunkN]; omega
    | 1 => simp [Shape.partIx, Shape.partSize]
  · match a with
    | 0 => simp [Shape.partSize]
    | 1 => simp [Shape.partSize]

omit [FloatOps F] in
theorem set_iRowK : (iRowK L).view.set = iRowSet (wL L) := by
  show ((iV).view.slice (irowK L)).set = ((iV).view.slice (irow (wL L))).set
  exact irowK_eq L ▸ rfl
omit [FloatOps F] in
theorem set_oRowK : (oRowK L).view.set = oRowSet (wL L) := by
  show ((oV).view.slice (orowK L)).set = ((oV).view.slice (orow (wL L))).set
  exact orowK_eq L ▸ rfl

omit [FloatOps F] in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] in
theorem pts_uV (q : PosShare TreeShare) (f : Buf (Elt F) (uLoc d)) :
    ((uV).view.loc (V d (cV L) (jV L)) ↦{q} f : sProp 𝕄) = uLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The tile's three cells: the index copy's, the stream's, the copy-out's. -/
abbrev cAcell (d : Dev nD) (c : Fin τ.nSC) (i : Fin τ.nSub) : GSem nD τ sig := (V d c i, .dma cc0_scoped0.sem)
abbrev cGcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0
          ∗ bigSep ((((ownCells (V d (cV L) (jV L))).erase (cAcell d (cV L) (jV L))).erase (cGcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc0_scratch2.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The words the stream reads are in range: what the index copy landed in the index scratch is the tile's chunk of
    the index vector, each word the number of a row of the user table. -/
theorem inb_of_pre (hpre : PreOK m) (fs : Buf (Elt F) ((V d (cV L) (jV L)).loc cc0_scratch0)) (pay : S512.Idx → Elt F .i32)
    (hpay : pay = (iRowK L).view.read (Elt F) (m (iLoc d))) :
    ∀ x, ((sV).view.read (Elt F) (View.write (Elt F) (sV).view fs pay Finset.univ) x).toNat < S100000x128.size gathers_S100000x128_S512x128.axis := by
  subst hpay; intro x
  rw [View.write_whole_univ]
  simp only [Memref.view_whole, View.read_whole]
  rw [show ∀ j, (iRowK L).view.read (Elt F) (m (iLoc d)) j = m (iLoc d) ((iRowK L).view.emb j) from fun j => (View.read_apply _ _).trans (cast_eq _ _)]
  exact hpre d _

end Tile

end Cert.Proof.KB

end
-- ==== Proof.KBTileValue.lean ====
/-
  What one tile leaves in its chunk of the gathered array.

  Tile w owns rows 512·w … 512·w + 511 of the gathered array and words 512·w … 512·w + 511 of the index vector.  The row
  stream delivers, at (p, k) of the tile's row scratch, entry k of the user-table row named by word p of the tile's chunk of
  the index vector — word 512·w + p of the whole vector — and the copy-out puts that at (512·w + p, k) of the gathered array.
  So on the tile's chunk the array holds, at (b, k), entry k of the user-table row that session b's index word names.
-/
import proofs.«204720_g14766097563961_cont_week2b_356_26_alg».proof.Proof.KBSetup
import Idealize.ShloMosaic.Lib.SparseCore.Stream
import Idealize.ShloMosaic.Lib.Pipeline.Value

noncomputable section

namespace Cert.Proof.KB

open Cert.Kernel Cert.Kernel.Gen

open Idealize.ShloMosaic
open Idealize.ShloMosaic.SparseCore (S V T)
open Idealize.SL Idealize.SL.RA Idealize.SL.BI
open Idealize.SL.Sem
open Idealize.ShloMosaic.ValueIdx

variable {F : FTy → Type}

variable (m : (ℓ : Loc nD τ sig) → Buf (Elt F) ℓ) (ρ : Dev nD → PrngReg)

variable [FloatOps F]

section Tile

variable (d : Dev nD) (L : grid0.Coords)

/-- A tile's copy-out, on its chunk of the gathered array: a write through the chunk's view with the full mask puts the
    payload's entry y at the element under y, and every element of the chunk is under some y. -/
theorem tile_value (hpre : PreOK m) (fo : Buf (Elt F) (oLoc d)) (pay : S512x128.Idx → Elt F .f32)
    (hpay : ∀ y : S512x128.Idx, pay y = gath m hpre d ((oRowK L).view.emb y)) :
    ∀ j ∈ oRowSet (wL L), View.write (Elt F) (oRowK L).view fo pay Finset.univ j = gath m hpre d j := by
  intro j hj
  rw [← set_oRowK] at hj
  obtain ⟨y, rfl⟩ := View.exists_emb_of_mem_set (oRowK L).view hj
  rw [View.write_emb_of_mem _ _ (Finset.mem_univ y), hpay]
  exact cast_eq _ _

/-- Entry k of a rank-one list in row-major order is the entry at coordinate k. -/
theorem rowMajor_symm_one_val {n : ℕ} (k : Fin (⟨1, ![n]⟩ : Shape).numel) :
    (((⟨1, ![n]⟩ : Shape).rowMajor.symm k) 0).val = k.val := by
  have h := Shape.rowMajor_val_one ((⟨1, ![n]⟩ : Shape).rowMajor.symm k)
  rw [Equiv.apply_symm_apply] at h
  exact h.symm

/-- The row stream's payload at (p, k) of the tile: the whole user table read at the row that word p of the tile's chunk of
    the index vector names, column k — the gathered array's entry under (p, k) of the tile's chunk. Both chunks start at the
    same row, 1024·(subcore) + 512·(core). -/
theorem gather_value (hpre : PreOK m) (hn : S512.numel = S512x128.size gathers_S100000x128_S512x128.axis')
    (hin : ∀ x, ((iRowK L).view.read (Elt F) (m (iLoc d)) x).toNat < S100000x128.size gathers_S100000x128_S512x128.axis) (y : S512x128.Idx) :
    SparseCore.gatherPayload gathers_S100000x128_S512x128 ((uAllK).view.read (Elt F) (m (uLoc d)))
        (SparseCore.rows ((iRowK L).view.read (Elt F) (m (iLoc d))) hn hin) y
      = gath m hpre d ((oRowK L).view.emb y) := by
  unfold SparseCore.gatherPayload gath
  rw [show ∀ j, (uAllK).view.read (Elt F) (m (uLoc d)) j = m (uLoc d) ((uAllK).view.emb j) from fun j => (View.read_apply _ _).trans (cast_eq _ _)]
  refine congrArg (m (uLoc d)) (funext fun b => Fin.ext ?_)
  match b with
  | ⟨0, _⟩ =>
    show 0 + 1 * ((gathers_S100000x128_S512x128).idx (SparseCore.rows ((iRowK L).view.read (Elt F) (m (iLoc d))) hn hin) y
        (gathers_S100000x128_S512x128).axis).val = (m (iLoc d) (ix1 ((oRowK L).view.emb y 0))).toNat
    rw [Shape.Gathers.idx_axis, Nat.zero_add, Nat.one_mul]
    show ((iRowK L).view.read (Elt F) (m (iLoc d)) (S512.rowMajor.symm ((y 0).cast hn.symm))).toNat = _
    rw [show ∀ j, (iRowK L).view.read (Elt F) (m (iLoc d)) j = m (iLoc d) ((iRowK L).view.emb j) from fun j => (View.read_apply _ _).trans (cast_eq _ _)]
    refine congrArg (fun i : S16384.Idx => (m (iLoc d) i).toNat) (funext fun a => Fin.ext ?_)
    match a with
    | ⟨0, _⟩ =>
      show k0_off1 L 0 + 1 * ((S512.rowMajor.symm ((y 0).cast hn.symm)) 0).val = k0_off2 L 0 + 1 * (y 0).val
      rw [rowMajor_symm_one_val, k0_off1_eq, k0_off2_eq]
      rfl
  | ⟨1, _⟩ =>
    show 0 + 1 * ((gathers_S100000x128_S512x128).idx (SparseCore.rows ((iRowK L).view.read (Elt F) (m (iLoc d))) hn hin) y
        ⟨1, by decide⟩).val = k0_off2 L 1 + 1 * (y 1).val
    rw [Shape.Gathers.idx_of_ne _ _ _ _ (by decide), k0_off2_eq]
    rfl

/-- What the tile leaves in its chunk of the gathered array: the index copy lands the tile's chunk of the index vector in the
    index scratch, the row stream lands its payload in the row scratch (a read of a scratch just written whole is what was
    written), and the copy-out writes the row scratch, as it is, through the whole of the chunk's view. -/
theorem tile_value_w (hpre : PreOK m) (fs : Buf (Elt F) ((V d (cV L) (jV L)).loc cc0_scratch0)) (fr : Buf (Elt F) ((V d (cV L) (jV L)).loc cc0_scratch1))
    (hn : S512.numel = S512x128.size gathers_S100000x128_S512x128.axis')
    (hin : ∀ x, ((sV).view.read (Elt F) (View.write (Elt F) (sV).view fs ((iRowK L).view.read (Elt F) (m (iLoc d))) Finset.univ) x).toNat < S100000x128.size gathers_S100000x128_S512x128.axis) :
    ∀ j ∈ (oRowK L).view.set,
      (oRowK L).view.writes (Elt F) (m (oLoc d)) [⟨Rect.whole S512x128,
          ReadAs.same.apply (View.read (Elt F) (rV).view (View.write (Elt F) (rV).view fr
            (SparseCore.gatherPayload gathers_S100000x128_S512x128 (View.read (Elt F) (uAllK).view (m (uLoc d)))
              (SparseCore.rows (View.read (Elt F) (sV).view (View.write (Elt F) (sV).view fs ((iRowK L).view.read (Elt F) (m (iLoc d))) Finset.univ)) hn hin))
            Finset.univ))⟩] j
        = gath m hpre d j := by
  intro j hj
  obtain ⟨y, rfl⟩ := View.exists_emb_of_mem_set (oRowK L).view hj
  -- the stream's payload, whatever list of words it is given that equals the tile's chunk of the index vector
  have key : ∀ (idx : S512.Idx → Elt F .i32) (e : idx = (iRowK L).view.read (Elt F) (m (iLoc d)))
      (h : ∀ x, (idx x).toNat < S100000x128.size gathers_S100000x128_S512x128.axis),
      SparseCore.gatherPayload gathers_S100000x128_S512x128 (View.read (Elt F) (uAllK).view (m (uLoc d))) (SparseCore.rows idx hn h) y
        = gath m hpre d ((oRowK L).view.emb y) := by
    intro idx e h; subst e; exact gather_value m d L hpre hn h y
  -- the element under y of the chunk is the element under y of the chunk's whole rectangle
  have hy : (oRowK L).view.emb y = ((oRowK L).view.slice (Rect.whole S512x128)).emb y := by
    show _ = (oRowK L).view.emb ((Rect.whole S512x128).emb y)
    rw [Rect.emb_whole_apply]
  rw [View.writes_singleton]
  refine ((congrArg _ hy).trans (View.write_emb_of_mem _ _ (Finset.mem_univ y))).trans ?_
  rw [ReadAs.apply_same, View.read_write_univ]
  exact (cast_eq _ _).trans (key _ (View.read_write_univ _ _) hin)

end Tile

end Cert.Proof.KB

end
-- ==== Proof.KBTile.lean ====
/-
  The task of one tile, run symbolically at any grid coordinates: the index copy and its wait, the stream of the
  rows the index words name and its wait, the copy-out and its wait; the tile brings back its chunk of the gathered
  array at the gathered array's own values.
-/
import proofs.«204720_g14766097563961_cont_week2b_356_26_alg».proof.Proof.KBSetup
import proofs.«204720_g14766097563961_cont_week2b_356_26_alg».proof.Proof.KBTileValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F]

section Tile

variable (d : Dev nD) (L : grid0.Coords)

set_option maxHeartbeats 4000000 in
/-- The task of the tile at grid coordinates L on device d: the index copy and its wait, the stream of the named rows
    and its wait, the copy-out and its wait. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goOf m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L uV (Memref.isWhole_whole _) iV (Memref.isWhole_whole _) oV (Memref.isWhole_whole _)
            sV (Memref.isWhole_whole _) rV (Memref.isWhole_whole _) cc0_scratch2 cc0_scoped0 cc0_scoped1)
          fun _ => iprop(tdOf m hpre d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hi, Hu, Ho⟩, ⟨⟨%fs, Hs⟩, ⟨%fr, Hr⟩, Hbufs⟩, ⟨HsemA, HsemG, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hu' := (Entails.of_eq (pts_uV (F := F) d L _ _).symm) $$ Hu
  ihave Hs' := (Entails.of_eq (pts_sV (F := F) d L _).symm) $$ Hs
  ihave Hr' := (Entails.of_eq (pts_rV (F := F) d L _).symm) $$ Hr
  sl_exec
  -- the stream over the copied words: a share of the user table, the row scratch, the index scratch whole and the
  -- stream's cell at zero go in; the words are in range by the precondition
  ihave Hus := (pointsTo_split_subset (q := uq (wL L)) (f := m (uLoc d)) (S := Finset.univ) (Finset.subset_univ (uAllK).view.set)).1 $$ Hu'
  icases Hus with ⟨Hus, Hur⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 m d L) Finset.univ : sProp 𝕄)
      = (sV).view.loc (V d (cV L) (jV L)) ↦[(sV).view.set]{fullShare} View.write (Elt F) (sV).view fs (tile_body.sl.dma0 m d L) Finset.univ
      by rw [hss])) $$ Hs'
  have hN : ∀ h : S100000x128.Gathers 0 S512x128, ∑ j, ((rV).slice (S512x128.rowRect h.axis' j) (S512x128.stride_rowRect h.axis' j)).view.dmaCredit
      = (rV).view.dmaCredit := by decide +kernel
  iapply (SparseCore.wp_indirectGatherLocal countersEmb 𝒱₀ (V d (cV L) (jV L)) none (hg := gathers_S100000x128_S512x128) (default : HIx 1)
      (rV).view.dmaCredit (hN _) (by decide) (inb_of_pre m d L hpre fs _ rfl)) $$ [Hus Hr'' Hs'' HsemG]
  · isplitl [Hus]; · iexact Hus
    isplitl [Hr'']; · iexact Hr''
    isplitl [Hs'']; · iexact Hs''
    iexact HsemG
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hus, Hs'⟩, HsemG, HO⟩
  ihave Hu' := (pointsTo_split_subset (q := uq (wL L)) (f := m (uLoc d)) (S := Finset.univ) (Finset.subset_univ (uAllK).view.set)).2 $$ [Hus Hur]; · isplitl [Hus] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  -- the chunk of the gathered array as the copy-out left it is the gathered array there
  have hval : ∀ j ∈ (oRowK L).view.set,
      (oRowK L).view.writes (Elt F) (m (oLoc d)) [⟨Rect.whole S512x128, tile_body.sl.dma0_1 m d L hpre fs fr⟩] j = gath m hpre d j :=
    tile_value_w m d L hpre fs fr _ _
  ihave Ho2 := (Entails.of_eq (pointsTo_congr (q := fullShare) hval)) $$ Ho'
  isplitl [Hi' Hu' Ho2]
  · isplitl [Hi']; · iapply (Entails.of_eq (pts_iRowK (F := F) d L _)); iexact Hi'
    isplitl [Hu']; · iexact Hu'
    iapply (Entails.of_eq (pts_oRowK (F := F) d L _)); iexact Ho2
  isplitl [Hs3 Hr3 Hbufs]
  · isplitl [Hs3]; · iexists _; iexact Hs3
    isplitl [Hr3]; · iexists _; iexact Hr3
    iexact Hbufs
  isplitl [HsemA HsemG HsemB Hsems]
  · isplitl [HsemA]; · iexact HsemA
    isplitl [HsemG]; · iexact HsemG
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The launch theorem's obligation for a tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          uV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m hpre) v₀ 0 := by
  intro d c i O W hO _ _
  simp only [show (P m hpre).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Cert.Proof.KB

end
-- ==== Proof.KBSplit.lean ====
/-
  How the three arrays of the SparseCore call are dealt to the thirty-two tiles and gathered back: the index vector
  and the gathered array cut into thirty-two chunks of 512 rows, the user table (which every tile reads whole) into
  thirty-two shares; a SparseCore's sixteen tiles hold the chunks 2·s + c, s = 0 … 15.
-/
import proofs.«204720_g14766097563961_cont_week2b_356_26_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The chunks are disjoint and cover -/

theorem iRowSet_eq (w : Fin 32) : iRowSet w = (irow w).set := by
  show ((View.whole (main_arg5_scv : Ref sig .scVector)).slice (irow w)).set = _
  rw [View.set_slice]; exact Finset.map_refl
theorem oRowSet_eq (w : Fin 32) : oRowSet w = (orow w).set := by
  show ((View.whole (main_v2_scv : Ref sig .scVector)).slice (orow w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
theorem uPts_shares (d : Dev nD) (f : Buf (Elt F) (uLoc d)) :
    (uLoc d ↦{fullShare} f : sProp 𝕄) = bigSep Finset.univ fun w : Fin 32 => uLoc d ↦{uq w} f :=
  pointsTo_piecesOf Finset.univ f (by decide) fullShare

/-! ## Thirty-two chunks are two SparseCores' sixteen -/

/-- (c, s) ↦ 2·s + c is a bijection of the tiles onto the chunks. -/
def chunkEquiv : Fin 2 × Fin 16 ≃ Fin 32 where
  toFun p := chunk p.1 p.2
  invFun w := (⟨w.val % 2, Nat.mod_lt _ (by decide)⟩, ⟨w.val / 2, by have := w.isLt; omega⟩)
  left_inv p := by
    obtain ⟨⟨c, hc⟩, ⟨s, hs⟩⟩ := p
    simp only [chunk, chunkN, Prod.mk.injEq, Fin.mk.injEq]
    omega
  right_inv w := by
    apply Fin.ext
    simp only [chunk, chunkN]
    omega

theorem bigSep_chunks (Φ : Fin 32 → sProp 𝕄) :
    bigSep Finset.univ Φ = bigSep Finset.univ fun c : Fin 2 => bigSep Finset.univ fun s : Fin 16 => Φ (chunk c s) := by
  rw [bigSep_univ_equiv chunkEquiv Φ, bigSep_univ_prod]; rfl

variable [FloatOps F]

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The three arrays whole, at contents f for the gathered array, are the thirty-two tiles' holdings. -/
theorem whole_eq_chunks (d : Dev nD) (f : Buf (Elt F) (oLoc d)) :
    (iprop(iPts m d ∗ uPts m d ∗ oPts d f) : sProp 𝕄)
      = bigSep Finset.univ fun c : Fin 2 => bigSep Finset.univ fun s : Fin 16 =>
          iprop(iRowPts m d (chunk c s) ∗ uShPts m d (chunk c s) ∗ oRowPts d (chunk c s) f) := by
  rw [← bigSep_chunks (F := F) (fun w => iprop(iRowPts m d w ∗ uShPts m d w ∗ oRowPts d w f)), bigSep_sep', bigSep_sep']
  unfold iPts uPts oPts iRowPts uShPts oRowPts
  rw [iPts_rows, uPts_shares, oPts_rows]

/-- What the call takes for the two SparseCores, and what it hands back. -/
theorem st0_eq (hpre : PreOK m) (d : Dev nD) :
    (bigSep Finset.univ fun c : Fin ((K (F := F)).nCore 0) => (P m hpre).st 0 d c) = iprop(iPts m d ∗ uPts m d ∗ oPts d (m (oLoc d))) := by
  rw [whole_eq_chunks]
  exact bigSep_cores (F := F) (fun c => bigSep Finset.univ fun s : Fin 16 => goOf m d (chunk c s))
theorem dn0_eq (hpre : PreOK m) (d : Dev nD) :
    (bigSep Finset.univ fun c : Fin ((K (F := F)).nCore 0) => (P m hpre).dn 0 d c) = iprop(iPts m d ∗ uPts m d ∗ oPts d (gath m hpre d)) := by
  rw [whole_eq_chunks]
  exact bigSep_cores (F := F) (fun c => bigSep Finset.univ fun s : Fin 16 => tdOf m hpre d (chunk c s))

/-- A SparseCore's holdings are its tiles', going in and coming back. -/
theorem vecSplit (hpre : PreOK m) : (K (F := F)).VecSplit' (P m hpre) 0 := by
  intro d c
  show (bigSep Finset.univ fun s : Fin 16 => goOf m d (chunk (Fin.cast nCore_zero c) s)) ⊢ |={Set.univ}=> iprop(
      (bigSep Finset.univ fun i : Fin ((K (F := F)).nSub 0) => goOf m d (chunk (Fin.cast nCore_zero c) (Fin.cast nSub_zero i)))
      ∗ ((bigSep Finset.univ fun i : Fin ((K (F := F)).nSub 0) => tdOf m hpre d (chunk (Fin.cast nCore_zero c) (Fin.cast nSub_zero i)))
          -∗ bigSep Finset.univ fun s : Fin 16 => tdOf m hpre d (chunk (Fin.cast nCore_zero c) s)))
  rw [bigSep_tasks (F := F) (fun i => goOf m d (chunk (Fin.cast nCore_zero c) i)),
    bigSep_tasks (F := F) (fun i => tdOf m hpre d (chunk (Fin.cast nCore_zero c) i))]
  iintro H; imodintro
  isplitl [H]; · iexact H
  iintro H; iexact H

end Cert.Proof.KB

end
-- ==== Proof.KBRegion.lean ====
/-
  The TensorCore part of the kernel's program: a pipeline of two grid points, point t computing rows
  8192·t … 8192·t + 8191 of the result from block t of the gathered array and the four small operands, which are
  staged whole. What the body stores is one value, the sum of the user term, the item term and the intercepts
  (the skeleton's payload), written through the rectangle that covers the whole result block.
-/
import proofs.«204720_g14766097563961_cont_week2b_356_26_alg».proof.Proof.KBSetup
import Idealize.ShloMosaic.Lib.Pipeline.FrameBody
import Idealize.ShloMosaic.Lib.Ring

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## What the TensorCore's arrays hold when the region is entered -/

/-- The launch memory of device d as a valuation. -/
abbrev V0 (d : Dev nD) : Valuation τ sig (Elt F) := fun b => m (d, b)
/-- @main's two reshapes: the item coefficients as a [1, 64] row, the intercepts as a [1, 99] row. -/
abbrev opR3 : HloOp τ sig (Elt F) := StableHlo.reshape main_arg3 main_v0 rfl shapeCasts_S64_S1x64
abbrev opR4 : HloOp τ sig (Elt F) := StableHlo.reshape main_arg4 main_v1 rfl shapeCasts_S99_S1x99
/-- After the two reshapes; -/
def V2 (d : Dev nD) : Valuation τ sig (Elt F) := (opR4 (F := F)).result ((opR3 (F := F)).result (V0 m d))
/-- and after the SparseCore call: the gathered array where the call left it. -/
def Vr (hpre : PreOK m) (d : Dev nD) : Valuation τ sig (Elt F) :=
  Function.update (V2 m d) (Proc.devRef .tc (main_v2 : Ref sig .tc)) (gath m hpre d)

/-- Core c's TensorCore buffers when the region is entered. -/
abbrev Ve (hpre : PreOK m) (c : Dev nD) (b : Ref sig .tc) : Buf (Elt F) ((c : Thread nD τ).loc b) := Vr m hpre c (Proc.devRef .tc b)

/-! ## The windows' blocks -/

/-- Window w's block at point t, read off its array as the region finds it. -/
def iblk (hpre : PreOK m) (c : Dev nD) (w : Fin cfg1.W) (t : Fin cfg1.N) : ((cfg1.win w).xblock (cfg1.grid.coords t)).Idx → Elt F (cfg1.win w).elt :=
  ((cfg1.win w).blk t).view.read (Elt F) (Ve m hpre c (Pipeline.arrRef spec1 w))

/-! ## The body's accesses and what it leaves in the result window's buffer -/

abbrev rX : Rect S8192x128 := Rect.unit (s := S8192x128) ![0, 0] S8192x128.size inb_S8192x128_S8192x128_0_0
abbrev rCu : Rect S99x128 := Rect.unit (s := S99x128) ![0, 0] S99x128.size inb_S99x128_S99x128_0_0
abbrev rIt : Rect S100x64 := Rect.unit (s := S100x64) ![0, 0] S100x64.size inb_S100x64_S100x64_0_0
abbrev rCv : Rect S1x64 := Rect.unit (s := S1x64) ![0, 0] S1x64.size inb_S1x64_S1x64_0_0
abbrev rIc : Rect S1x99 := Rect.unit (s := S1x99) ![0, 0] S1x99.size inb_S1x99_S1x99_0_0
abbrev rO : Rect S8192x100 := Rect.unit (s := S8192x100) ![0, 0] S8192x100.size inb_S8192x100_S8192x100_0_0

/-- The result window's staging buffer after the body, from the five input blocks: its one store, the payload over
    the loads. -/
def outBlk (x0 : Vec F S8192x128 .f32) (x1 : Vec F S99x128 .f32) (x2 : Vec F S100x64 .f32) (x3 : Vec F S1x64 .f32) (x4 : Vec F S1x99 .f32) : Vec F S8192x100 .f32 :=
  View.canon [⟨rO, k1_pay1 (View.ld x1 rCu) (View.ld x4 rIc) (View.ld x3 rCv) (View.ld x2 rIt) (View.ld x0 rX)⟩]

/-- The store covers the buffer. -/
theorem coverO (p0 : Vec F S8192x100 .f32) (y : S8192x100.Idx) :
    ∃ pc ∈ ([⟨rO, p0⟩] : List (View.Piece (Elt F) S8192x100 .f32)), y ∈ pc.1.set :=
  View.cover_of_tiled [⟨rO, p0⟩] S8192x100.size (by rfl) y

/-! ## The body's triple -/

set_option maxHeartbeats 2000000 in
/-- The kernel body on whole staging memrefs, the inputs' at read contents and the output's at anything, runs to the
    continuation holding the inputs' as they were and the output's at the payload of the inputs. -/
theorem sound_kernel (c : Dev nD) (E : Set ℕ) (i : grid1.Coords)
    (arg1 : Memref sig .tc .vmem S8192x128 .f32) (harg1 : arg1.IsWhole) (arg2 : Memref sig .tc .vmem S99x128 .f32) (harg2 : arg2.IsWhole)
    (arg3 : Memref sig .tc .vmem S100x64 .f32) (harg3 : arg3.IsWhole) (arg4 : Memref sig .tc .vmem S1x64 .f32) (harg4 : arg4.IsWhole)
    (arg5 : Memref sig .tc .vmem S1x99 .f32) (harg5 : arg5.IsWhole) (arg6 : Memref sig .tc .vmem S8192x100 .f32) (harg6 : arg6.IsWhole)
    (x0 : Vec F S8192x128 .f32) (x1 : Vec F S99x128 .f32) (x2 : Vec F S100x64 .f32) (x3 : Vec F S1x64 .f32) (x4 : Vec F S1x99 .f32) (Kp : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlk x0 x1 x2 x3 x4)) -∗ Kp ⟨⟩))
      ⊢ wp frame (wpE (defs₀ (F := F)) Variants.none c none) E (cc1_body i arg1 harg1 arg2 harg2 arg3 harg3 arg4 harg4 arg5 harg5 arg6 harg6) Kp := by
  simp only [cc1_body_eq_skeleton]; unfold cc1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverO _)

/-! ## The pipeline's proof data -/

/-- The proof data of the one pipeline on core c: the arrays as the region finds them; after the body at point t
    each input's buffer at its block and the result's at the payload of the input blocks; no invariant of its own;
    nothing owed; full shares; the waits recorded so far are those of the SparseCore call, at levels up to 8. -/
def dat1 (hpre : PreOK m) (c : Dev nD) : Dat τ (Elt F) (HIx 1) ℕ UU ℕ cfg1 c where
  A w := Ve m hpre c (Pipeline.arrRef spec1 w)
  after w t := match w with
    | ⟨0, _⟩ => iblk m hpre c 0 t
    | ⟨1, _⟩ => iblk m hpre c 1 t
    | ⟨2, _⟩ => iblk m hpre c 2 t
    | ⟨3, _⟩ => iblk m hpre c 3 t
    | ⟨4, _⟩ => iblk m hpre c 4 t
    | ⟨5, _⟩ => outBlk (iblk m hpre c 0 t) (iblk m hpre c 1 t) (iblk m hpre c 2 t) (iblk m hpre c 3 t) (iblk m hpre c 4 t)
  Φ _ := iprop(emp)
  q _ := fullShare
  owed _ := 0
  recorded _ := {p | (K (F := F)).lev ((c : Thread nD τ), p.1) p.2 ≤ 8}

theorem A_eq (hpre : PreOK m) (c : Dev nD) (w : Fin cfg1.W) : (dat1 m hpre c).A w = Ve m hpre c (Pipeline.arrRef spec1 w) := by
  dsimp only [dat1]

theorem after_0 (hpre : PreOK m) (c : Dev nD) (t : Fin cfg1.N) : (dat1 m hpre c).after 0 t = iblk m hpre c 0 t := by dsimp only [dat1]
theorem after_1 (hpre : PreOK m) (c : Dev nD) (t : Fin cfg1.N) : (dat1 m hpre c).after 1 t = iblk m hpre c 1 t := by dsimp only [dat1]
theorem after_2 (hpre : PreOK m) (c : Dev nD) (t : Fin cfg1.N) : (dat1 m hpre c).after 2 t = iblk m hpre c 2 t := by dsimp only [dat1]
theorem after_3 (hpre : PreOK m) (c : Dev nD) (t : Fin cfg1.N) : (dat1 m hpre c).after 3 t = iblk m hpre c 3 t := by dsimp only [dat1]
theorem after_4 (hpre : PreOK m) (c : Dev nD) (t : Fin cfg1.N) : (dat1 m hpre c).after 4 t = iblk m hpre c 4 t := by dsimp only [dat1]
theorem after_5 (hpre : PreOK m) (c : Dev nD) (t : Fin cfg1.N) : (dat1 m hpre c).after 5 t
    = outBlk (iblk m hpre c 0 t) (iblk m hpre c 1 t) (iblk m hpre c 2 t) (iblk m hpre c 3 t) (iblk m hpre c 4 t) := by dsimp only [dat1]

/-- Each input's current staging buffer holds its block at every point, fetched there or not: the gathered array's
    block is fetched at each point; the four small operands are fetched once and their block index never moves. -/
theorem before_0 (hpre : PreOK m) (c : Dev nD) (t : Fin cfg1.N) (d) : (dat1 m hpre c).before 0 t d = iblk m hpre c 0 t :=
  ((dat1 m hpre c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hpre : PreOK m) (c : Dev nD) (t : Fin cfg1.N) (d) : (dat1 m hpre c).before 1 t d = iblk m hpre c 1 t :=
  ((dat1 m hpre c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (hpre : PreOK m) (c : Dev nD) (t : Fin cfg1.N) (d) : (dat1 m hpre c).before 2 t d = iblk m hpre c 2 t :=
  ((dat1 m hpre c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (hpre : PreOK m) (c : Dev nD) (t : Fin cfg1.N) (d) : (dat1 m hpre c).before 3 t d = iblk m hpre c 3 t :=
  ((dat1 m hpre c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (hpre : PreOK m) (c : Dev nD) (t : Fin cfg1.N) (d) : (dat1 m hpre c).before 4 t d = iblk m hpre c 4 t :=
  ((dat1 m hpre c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body obligation, at a generic point -/

def bodyPre (hpre : PreOK m) (c : Dev nD) (t : Fin cfg1.N) : sProp 𝕄 :=
  iprop((dat1 m hpre c).Φ t.castSucc ∗ (dat1 m hpre c).owesAt (default : HIx 1) t.castSucc
    ∗ (∃ d, owns (c : Thread nD τ) (st1_0 t) fullShare ((dat1 m hpre c).before 0 t d))
    ∗ (∃ d, owns (c : Thread nD τ) (st1_1 t) fullShare ((dat1 m hpre c).before 1 t d))
    ∗ (∃ d, owns (c : Thread nD τ) (st1_2 t) fullShare ((dat1 m hpre c).before 2 t d))
    ∗ (∃ d, owns (c : Thread nD τ) (st1_3 t) fullShare ((dat1 m hpre c).before 3 t d))
    ∗ (∃ d, owns (c : Thread nD τ) (st1_4 t) fullShare ((dat1 m hpre c).before 4 t d))
    ∗ (∃ d, owns (c : Thread nD τ) (st1_5 t) fullShare ((dat1 m hpre c).before 5 t d)))

def bodyPost (hpre : PreOK m) (c : Dev nD) (t : Fin cfg1.N) : sProp 𝕄 :=
  iprop((dat1 m hpre c).Φ t.succ ∗ (dat1 m hpre c).owesAt (default : HIx 1) t.succ
    ∗ owns (c : Thread nD τ) (st1_0 t) fullShare ((dat1 m hpre c).after 0 t)
    ∗ owns (c : Thread nD τ) (st1_1 t) fullShare ((dat1 m hpre c).after 1 t)
    ∗ owns (c : Thread nD τ) (st1_2 t) fullShare ((dat1 m hpre c).after 2 t)
    ∗ owns (c : Thread nD τ) (st1_3 t) fullShare ((dat1 m hpre c).after 3 t)
    ∗ owns (c : Thread nD τ) (st1_4 t) fullShare ((dat1 m hpre c).after 4 t)
    ∗ owns (c : Thread nD τ) (st1_5 t) fullShare ((dat1 m hpre c).after 5 t))

/-- The body at any point: the inputs' memrefs hold their blocks, so the body's triple applies; the invariant and the
    core's dues pass through unread. -/
theorem sound_body (hpre : PreOK m) (c : Dev nD) (t : Fin cfg1.N) :
    bodyPre m hpre c t ⊢ wp frame (wpE (defs₀ (F := F)) Variants.none c none) Set.univ (bodyAt1 t) (fun _ => bodyPost m hpre c t) := by
  unfold bodyPre bodyPost bodyAt1
  simp only [before_0, before_1, before_2, before_3, before_4]
  rw [show (dat1 m hpre c).Φ t.succ = (dat1 m hpre c).Φ t.castSucc from rfl,
    show (dat1 m hpre c).owesAt (default : HIx 1) t.succ = (dat1 m hpre c).owesAt (default : HIx 1) t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _
    (iblk m hpre c 0 t) (iblk m hpre c 1 t) (iblk m hpre c 2 t) (iblk m hpre c 3 t) (iblk m hpre c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (hpre : PreOK m) (c : Dev nD) : BodyObligation (dat1 (F := F) m hpre c) (defs₀ (F := F)) Variants.none (default : HIx 1) Set.univ := fun t => by
  rw [bigSep_W1, bigSep_W1]
  exact sound_body m hpre c t

end Cert.Proof.KB

end
-- ==== Proof.KBFinDefs.lean ====
/-
  What the TensorCore holds when its program ends, and what a final memory must then satisfy: the six argument
  arrays as launched and the result array at what the pipeline's two points wrote back.
-/
import proofs.«204720_g14766097563961_cont_week2b_356_26_alg».proof.Proof.KBRegion

noncomputable section

namespace Cert.Proof.KB

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)
variable [FloatOps F]

/-- The result array after the pipeline: what its two points wrote back. -/
abbrev outFinal (hpre : PreOK m) (c : Dev nD) : Buf (Elt F) ((c : Thread nD τ).loc main_v3) := (dat1 m hpre c).arrAt 5 cfg1.N

/-- A buffer of device d's TensorCore at the full share. -/
abbrev pl (d : Dev nD) (b : Ref sig .tc) (f : Buf (Elt F) ((d : Thread nD τ).loc b)) : sProp 𝕄 := ((d : Thread nD τ).loc b) ↦{fullShare} f

/-- What @main leaves the claim: the six arguments as launched, the result at what the pipeline wrote back. -/
abbrev FIN (hpre : PreOK m) (d : Dev nD) : sProp 𝕄 :=
  iprop(pl d main_arg0 (m ((d : Thread nD τ).loc main_arg0)) ∗ pl d main_arg1 (m ((d : Thread nD τ).loc main_arg1))
    ∗ pl d main_arg2 (m ((d : Thread nD τ).loc main_arg2)) ∗ pl d main_arg3 (m ((d : Thread nD τ).loc main_arg3))
    ∗ pl d main_arg4 (m ((d : Thread nD τ).loc main_arg4)) ∗ pl d main_arg5 (m ((d : Thread nD τ).loc main_arg5))
    ∗ pl d main_v3 (outFinal m hpre d))

/-- What a final memory satisfies on device d. -/
def fq (hpre : PreOK m) (d : Dev nD) (s' : Phys nD τ sig (Elt F)) : Prop :=
  s'.mem.mem ((d : Thread nD τ).loc main_v3) = outFinal m hpre d
    ∧ s'.mem.mem ((d : Thread nD τ).loc main_arg0) = m ((d : Thread nD τ).loc main_arg0)
    ∧ s'.mem.mem ((d : Thread nD τ).loc main_arg1) = m ((d : Thread nD τ).loc main_arg1)
    ∧ s'.mem.mem ((d : Thread nD τ).loc main_arg2) = m ((d : Thread nD τ).loc main_arg2)
    ∧ s'.mem.mem ((d : Thread nD τ).loc main_arg3) = m ((d : Thread nD τ).loc main_arg3)
    ∧ s'.mem.mem ((d : Thread nD τ).loc main_arg4) = m ((d : Thread nD τ).loc main_arg4)
    ∧ s'.mem.mem ((d : Thread nD τ).loc main_arg5) = m ((d : Thread nD τ).loc main_arg5)

/-- The run's post: on every device the result array at what the pipeline wrote back, the arguments as launched. -/
def QC (hpre : PreOK m) : PUnit × MemSt nD τ sig (Elt F) → Prop := fun r => ∀ c : Dev nD,
  r.2.mem ((c : Thread nD τ).loc main_v3) = outFinal m hpre c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)

end Cert.Proof.KB

end
-- ==== Proof.KBFin.lean ====
/-
  At the end of the run the TensorCore holds its seven arrays whole, at the full share; what is held at the full share is
  what the memory holds. So a final memory has the six argument arrays as launched and the result array at what the
  pipeline wrote back.
-/
import proofs.«204720_g14766097563961_cont_week2b_356_26_alg».proof.Proof.KBFinDefs

noncomputable section

namespace Cert.Proof.KB

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)
variable [FloatOps F]

set_option maxRecDepth 16384 in
/-- Each array held whole at the full share agrees with the memory at every index; the state interpretation is kept from one
    array to the next. -/
theorem hfin (hpre : PreOK m) (d : Dev nD) (s' : Phys nD τ sig (Elt F)) :
    iprop(FIN m hpre d ∗ SI s') ⊢ (⌜fq m hpre d s'⌝ : sProp 𝕄) := by
  iintro ⟨⟨H0, H1, H2, H3, H4, H5, H6⟩, HSI⟩
  ihave H := (persistent_entails_right (SI_pointsTo_agree (st := s') (ℓ := (d : Thread nD τ).loc main_arg0) (I := Finset.univ) (q := fullShare)
      (f := m ((d : Thread nD τ).loc main_arg0)))) $$ [HSI H0]
  · isplitl [HSI] <;> iassumption
  icases H with ⟨%h0, HSI, -⟩
  ihave H := (persistent_entails_right (SI_pointsTo_agree (st := s') (ℓ := (d : Thread nD τ).loc main_arg1) (I := Finset.univ) (q := fullShare)
      (f := m ((d : Thread nD τ).loc main_arg1)))) $$ [HSI H1]
  · isplitl [HSI] <;> iassumption
  icases H with ⟨%h1, HSI, -⟩
  ihave H := (persistent_entails_right (SI_pointsTo_agree (st := s') (ℓ := (d : Thread nD τ).loc main_arg2) (I := Finset.univ) (q := fullShare)
      (f := m ((d : Thread nD τ).loc main_arg2)))) $$ [HSI H2]
  · isplitl [HSI] <;> iassumption
  icases H with ⟨%h2, HSI, -⟩
  ihave H := (persistent_entails_right (SI_pointsTo_agree (st := s') (ℓ := (d : Thread nD τ).loc main_arg3) (I := Finset.univ) (q := fullShare)
      (f := m ((d : Thread nD τ).loc main_arg3)))) $$ [HSI H3]
  · isplitl [HSI] <;> iassumption
  icases H with ⟨%h3, HSI, -⟩
  ihave H := (persistent_entails_right (SI_pointsTo_agree (st := s') (ℓ := (d : Thread nD τ).loc main_arg4) (I := Finset.univ) (q := fullShare)
      (f := m ((d : Thread nD τ).loc main_arg4)))) $$ [HSI H4]
  · isplitl [HSI] <;> iassumption
  icases H with ⟨%h4, HSI, -⟩
  ihave H := (persistent_entails_right (SI_pointsTo_agree (st := s') (ℓ := (d : Thread nD τ).loc main_arg5) (I := Finset.univ) (q := fullShare)
      (f := m ((d : Thread nD τ).loc main_arg5)))) $$ [HSI H5]
  · isplitl [HSI] <;> iassumption
  icases H with ⟨%h5, HSI, -⟩
  ihave H := (SI_pointsTo_agree (st := s') (ℓ := (d : Thread nD τ).loc main_v3) (I := Finset.univ) (q := fullShare)
      (f := outFinal m hpre d)) $$ [HSI H6]
  · isplitl [HSI] <;> iassumption
  icases H with %h6
  ipureintro
  exact ⟨funext fun i => h6 i (Finset.mem_univ i), funext fun i => h0 i (Finset.mem_univ i), funext fun i => h1 i (Finset.mem_univ i),
    funext fun i => h2 i (Finset.mem_univ i), funext fun i => h3 i (Finset.mem_univ i), funext fun i => h4 i (Finset.mem_univ i),
    funext fun i => h5 i (Finset.mem_univ i)⟩

end Cert.Proof.KB

end
-- ==== Proof.KBReg.lean ====
/-
  The pipeline of the kernel's program as one region of the TensorCore's @main: its proof data in the form
  the region rule takes, the region's entry and exit states, the launch element that funds the handshakes' rounds
  and the pipeline's staging cells, and the region step inside the whole program's body table.
-/
import proofs.«204720_g14766097563961_cont_week2b_356_26_alg».proof.Proof.KBTile
import proofs.«204720_g14766097563961_cont_week2b_356_26_alg».proof.Proof.KBSplit
import proofs.«204720_g14766097563961_cont_week2b_356_26_alg».proof.Proof.KBRegion
import proofs.«204720_g14766097563961_cont_week2b_356_26_alg».proof.Proof.KBFinDefs
import proofs.«204720_g14766097563961_cont_week2b_356_26_alg».proof.Proof.KBFin

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic
open Idealize.ShloMosaic.Pipeline (Dat)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The pipeline's proof data as the region rule takes it -/

abbrev adm : (p : Fin 1) → (pcfgs (F := F) p).Adm := fun p => (cfgs p).toPCfg_adm
def pdats (hpre : PreOK m) : (p : Fin 1) → (c : Dev nD) → Dat τ (Elt F) (HIx 1) ℕ UU ℕ (Pipeline.pin (pcfgs (F := F)) adm p) c
  | 0 => dat1 m hpre

local notation "ι₀" => (default : HIx 1)

/-- THE REGION: the six arrays into the pipeline, the other four bypassing it, the core owing nothing; entered from
    the TensorCore's arrays as the SparseCore call left them. -/
def reg1 (hpre : PreOK m) : Pipeline.RegionSeg (pcfgs (F := F)) adm (pdats m hpre) ι₀ defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation m hpre c).loose
  hwaits c := (show (levAts (K (F := F)).L (K (F := F)).lev : sProp 𝕄) ⊢ iprop(emp) from by iintro -; iempintro).trans
    (Pipeline.cellsWaits_of_owed_zero _ (pdats m hpre) ι₀ 0 c (fun _ => rfl))
  pre c := iprop(unscopedBufs c (Ve m hpre c) ∗ (pdats m hpre 0 c).owesAt ι₀ 0)
  post c := iprop((pdats m hpre 0 c).arrays ((pdats m hpre 0 c).arrAt · (Pipeline.pin (pcfgs (F := F)) adm 0).N)
    ∗ (pdats m hpre 0 c).owesAt ι₀ (Fin.last (Pipeline.pin (pcfgs (F := F)) adm 0).N)
    ∗ Pipeline.unscopedRest (Ix := HIx 1) (Name := ℕ) (U := UU) (Lvl := ℕ) spec1 c (Ve m hpre c))
  X _ := iprop(emp)
  Y _ := iprop(emp)
  Z c := Pipeline.unscopedRest (Ix := HIx 1) (Name := ℕ) (U := UU) (Lvl := ℕ) spec1 c (Ve m hpre c)
  hentry c := by
    rw [Pipeline.ownSems0_none]
    have hsplit := Pipeline.arrays_of_unscopedBufs (pcfgs (F := F)) adm (pdats m hpre) launch1.win launch1.arr_whole c
      ((pdats m hpre 0 c).share_full fun _ => rfl) (Ve m hpre c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    iexact Hr
  hin c := by iintro -; iempintro
  hout c := by
    rw [Pipeline.ownSems0_none, scopedRest1_eq]
    iintro -; isplitr; · iempintro
    isplitr <;> iempintro
  hexit c := by
    iintro ⟨Ha, HO, -, Hr⟩
    imodintro
    isplitl [Ha]; · iexact Ha
    isplitl [HO]; · iexact HO
    iexact Hr

/-! ## The launch element: the handshakes' rounds, the pipeline's staging cells' rounds, the counters -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), (1 : Counters)))

/-- What the launch leaves each TensorCore beside its handshake state: its pipeline's cells' ghost state and duty tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

theorem hu₀ (hpre : PreOK m) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m hpre).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), (1 : Counters)) : UP × Counters)) $$ Hu
  icases H with ⟨HH, HR⟩
  ihave H2 := (own_pair_emb (embR : Emb (UP × Counters) 𝕄)
    (initOf (Pipeline.cells (Pipeline.pin (pcfgs (F := F)) adm) cellOf_inj) (Pipeline.launchToks (Pipeline.pin (pcfgs (F := F)) adm) cellOf_inj)) (1 : Counters)) $$ HR
  icases H2 with ⟨HP, -⟩
  ihave HP2 := (show (BI.own (((Emb.inl : Emb UP (UP × Counters)).trans (embR : Emb (UP × Counters) 𝕄))
        (initOf (Pipeline.cells (Pipeline.pin (pcfgs (F := F)) adm) cellOf_inj) (Pipeline.launchToks (Pipeline.pin (pcfgs (F := F)) adm) cellOf_inj))) : sProp 𝕄)
      ⊢ BI.own ((EP : Emb UP 𝕄) (initOf (Pipeline.cells (Pipeline.pin (pcfgs (F := F)) adm) cellOf_inj) (Pipeline.launchToks (Pipeline.pin (pcfgs (F := F)) adm) cellOf_inj)))
      from .rfl) $$ HP
  imod (Pipeline.fund_ghost (Pipeline.pin (pcfgs (F := F)) adm) (EP : Emb UP 𝕄) cellOf_inj) $$ HP2 with ⟨Hg, Ht⟩
  imodintro
  isplitl [HH]; · iexact HH
  have e1 : (bigSep Finset.univ fun c : Dev nD => bigSep Finset.univ fun p : Fin 1 => Pipeline.cellsGhost (Pipeline.pin (pcfgs (F := F)) adm) (EP : Emb UP 𝕄) p c)
      = bigSep Finset.univ fun c : Dev nD => Pipeline.cellsGhost (Pipeline.pin (pcfgs (F := F)) adm) (EP : Emb UP 𝕄) 0 c :=
    bigSep_congr fun c _ => bigSep_univ_of_subsingleton (0 : Fin 1)
  have e2 : (bigSep Finset.univ fun c : Dev nD => bigSep Finset.univ fun p : Fin 1 => (Pipeline.toksInit (Pipeline.pin (pcfgs (F := F)) adm) (EP : Emb UP 𝕄) p c : sProp 𝕄))
      = bigSep Finset.univ fun c : Dev nD => Pipeline.toksInit (Pipeline.pin (pcfgs (F := F)) adm) (EP : Emb UP 𝕄) 0 c :=
    bigSep_congr fun c _ => bigSep_univ_of_subsingleton (0 : Fin 1)
  ihave Hg' := (Entails.of_eq e1) $$ Hg
  ihave Ht' := (Entails.of_eq e2) $$ Ht
  isplitl [Hg' Ht']
  · rw [bigSep_sep']
    isplitl [Hg']; · iexact Hg'
    iexact Ht'
  rw [show (bigSep Finset.univ fun thr : Thread nD τ => bigSep Finset.univ fun q : Fin 1 => (P (F := F) m hpre).x q thr) = bigSep Finset.univ fun _ => iprop(emp) from
    bigSep_congr fun _ _ => bigSep_univ_of_subsingleton (0 : Fin 1), bigSep_emp']
  iempintro

/-! ## The region step -/

/-- The region's entry call, as the whole program spells it, is the pipeline's entry call lifted to the whole
    program's labels. -/
theorem entry_lift (d : Dev nD) :
    (Prog.lift (TpuEff.customCall (SparseCore.inner (Pipeline.entry (0 : Fin 1))) ()) :
        Prog (TpuEff nD τ sig (Elt F) (SparseCore.Sig (ΛP (F := F)) 1) (SparseCore.T d).2) PUnit)
      = SparseCore.liftProg (Q := 1) (Prog.op (TpuEff.customCall (Pipeline.entry (0 : Fin 1)) ()) fun _ => Prog.ret ⟨⟩ :
          Prog (TpuEff nD τ sig (Elt F) (ΛP (F := F)) (SparseCore.T d).2) PUnit) := rfl

/-- The region on device d's TensorCore under the pipeline library's own body table: the library's region rule at
    this region's record. -/
theorem region_core [∀ e, Nonempty (Elt F e)] (hpre : PreOK m) (d : Dev nD) (Φ : PUnit → sProp 𝕄) :
    iprop((iprop(boundary (SparseCore.T d) ∗ (reg1 m hpre).post d) -∗ wp frame (wpE (D (F := F)) 𝒱 (SparseCore.T d) none) Set.univ (Prog.ret ⟨⟩) Φ)
        ∗ boundary (SparseCore.T d) ∗ (reg1 m hpre).pre d ∗ levAts (K (F := F)).L (K (F := F)).lev
        ∗ Pipeline.cellsGhost (Pipeline.pin (pcfgs (F := F)) adm) (EP : Emb UP 𝕄) 0 d ∗ Pipeline.toksInit (Pipeline.pin (pcfgs (F := F)) adm) (EP : Emb UP 𝕄) 0 d)
      ⊢ wp frame (wpE (D (F := F)) 𝒱 (SparseCore.T d) none) Set.univ
          (Prog.op (TpuEff.customCall (Pipeline.entry (0 : Fin 1)) ()) fun _ => Prog.ret ⟨⟩) Φ := by
  have h := Pipeline.RegionSeg.wp (pcfgs (F := F)) adm (pdats m hpre) ι₀ cellOf_inj (EP : Emb UP 𝕄) defs₀ 𝒱₀ (K (F := F)).L (K (F := F)).lev
    (reg1 m hpre) d none (fun _ h => nomatch h) (fun _ => Prog.ret ⟨⟩) Φ
  exact h

theorem reg1_pre (hpre : PreOK m) (d : Dev nD) :
    (reg1 m hpre).pre d = iprop(unscopedBufs d (Ve m hpre d) ∗ (pdats m hpre 0 d).owesAt ι₀ 0) := rfl
theorem reg1_post (hpre : PreOK m) (d : Dev nD) :
    (reg1 m hpre).post d = iprop((pdats m hpre 0 d).arrays ((pdats m hpre 0 d).arrAt · (Pipeline.pin (pcfgs (F := F)) adm 0).N)
      ∗ (pdats m hpre 0 d).owesAt ι₀ (Fin.last (Pipeline.pin (pcfgs (F := F)) adm 0).N)
      ∗ Pipeline.unscopedRest (Ix := HIx 1) (Name := ℕ) (U := UU) (Lvl := ℕ) spec1 d (Ve m hpre d)) := rfl

/-- The region step's hypotheses, repacked as the region rule takes them. -/
theorem region_pack [∀ e, Nonempty (Elt F e)] (hpre : PreOK m) (d : Dev nD) (Φ : PUnit → sProp 𝕄) :
    iprop((iprop(boundary (SparseCore.T d)
            ∗ ((pdats m hpre 0 d).arrays ((pdats m hpre 0 d).arrAt · (Pipeline.pin (pcfgs (F := F)) adm 0).N)
              ∗ (pdats m hpre 0 d).owesAt ι₀ (Fin.last (Pipeline.pin (pcfgs (F := F)) adm 0).N)
              ∗ Pipeline.unscopedRest (Ix := HIx 1) (Name := ℕ) (U := UU) (Lvl := ℕ) spec1 d (Ve m hpre d))) -∗ Φ ⟨⟩)
        ∗ boundary (SparseCore.T d) ∗ (unscopedBufs d (Ve m hpre d) ∗ (pdats m hpre 0 d).owesAt ι₀ 0)
        ∗ levAts (K (F := F)).L (K (F := F)).lev ∗ G (F := F) d)
      ⊢ iprop((iprop(boundary (SparseCore.T d) ∗ (reg1 m hpre).post d) -∗ wp frame (wpE (D (F := F)) 𝒱 (SparseCore.T d) none) Set.univ (Prog.ret ⟨⟩) Φ)
        ∗ boundary (SparseCore.T d) ∗ (reg1 m hpre).pre d ∗ levAts (K (F := F)).L (K (F := F)).lev
        ∗ Pipeline.cellsGhost (Pipeline.pin (pcfgs (F := F)) adm) (EP : Emb UP 𝕄) 0 d ∗ Pipeline.toksInit (Pipeline.pin (pcfgs (F := F)) adm) (EP : Emb UP 𝕄) 0 d) := by
  rw [reg1_pre, reg1_post]
  iintro ⟨Hk, Hb, Hpre, Hlv, Hcg, Htk⟩
  isplitl [Hk]
  · iintro H; rw [wp_ret]; imodintro; iapply Hk; iexact H
  isplitl [Hb]; · iexact Hb
  isplitl [Hpre]; · iexact Hpre
  isplitl [Hlv]; · iexact Hlv
  isplitl [Hcg]; · iexact Hcg
  iexact Htk

/-- THE REGION STEP on device d's TensorCore inside the whole program: the region rule, lifted to the whole program's
    body table; the region is entered from the arrays as the SparseCore call left them and the core owing nothing, and
    left with the six staged arrays at their final contents. -/
theorem region_step [∀ e, Nonempty (Elt F e)] (hpre : PreOK m) (d : Dev nD) (Φ : PUnit → sProp 𝕄) :
    iprop((iprop(boundary (SparseCore.T d)
            ∗ ((pdats m hpre 0 d).arrays ((pdats m hpre 0 d).arrAt · (Pipeline.pin (pcfgs (F := F)) adm 0).N)
              ∗ (pdats m hpre 0 d).owesAt ι₀ (Fin.last (Pipeline.pin (pcfgs (F := F)) adm 0).N)
              ∗ Pipeline.unscopedRest (Ix := HIx 1) (Name := ℕ) (U := UU) (Lvl := ℕ) spec1 d (Ve m hpre d))) -∗ Φ ⟨⟩)
        ∗ boundary (SparseCore.T d) ∗ (unscopedBufs d (Ve m hpre d) ∗ (pdats m hpre 0 d).owesAt ι₀ 0)
        ∗ levAts (K (F := F)).L (K (F := F)).lev ∗ G (F := F) d)
      ⊢ wp frame (wpE ((K (F := F)).defs (D (F := F))) 𝒱 (SparseCore.T d) none) Set.univ
          (Prog.lift (TpuEff.customCall (SparseCore.inner (Pipeline.entry (0 : Fin 1))) ())) Φ := by
  rw [entry_lift]
  exact (region_pack m hpre d Φ).trans ((region_core m hpre d Φ).trans
    ((K (F := F)).wp_liftProg (D (F := F)) 𝒱 (SparseCore.T d) Set.univ none _ Φ))

end Cert.Proof.KB

end
-- ==== Proof.KBMain.lean ====
/-
  The whole program of the kernel run on its thirty-five threads: the TensorCore reshapes the two small
  operands, starts the SparseCore gather and waits for it, then runs the pipeline of two points over the gathered
  array; the run ends with the six argument arrays as launched and the result array at what the pipeline's two
  points wrote back.
-/
import proofs.«204720_g14766097563961_cont_week2b_356_26_alg».proof.Proof.KBReg

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within)
open Idealize.ShloMosaic.Tactic
open Idealize.ShloMosaic.Pipeline (Dat)

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "ι₀" => (default : HIx 1)

/-! ## @main on the TensorCore -/

/-- The TensorCore's arrays, all unscoped, as device references. -/
abbrev refEmb : Ref sig .tc ↪ DevRef τ sig := ⟨Proc.devRef .tc, Proc.devRef_injective _⟩
abbrev S10 : Finset (DevRef τ sig) := (Finset.univ.filter fun b : Ref sig .tc => ¬ b.isScoped).map refEmb

omit [FloatOps F] in
theorem unscoped_held (d : Dev nD) (Vv : Valuation τ sig (Elt F)) :
    (unscopedBufs d (fun b => Vv (Proc.devRef .tc b)) : sProp 𝕄) = held (T d) S10 Vv := by
  unfold unscopedBufs held S10; rw [bigSep_map]; rfl

abbrev a0' : DevRef τ sig := Proc.devRef .tc (main_arg0 : Ref sig .tc)
abbrev a5' : DevRef τ sig := Proc.devRef .tc (main_arg5 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
/-- The three arrays of the SparseCore call. -/
abbrev T3 : Finset (DevRef τ sig) := {a0', a5', v2'}

omit [FloatOps F] in
theorem held_T3 (d : Dev nD) (W : Valuation τ sig (Elt F)) :
    (held (T d) T3 W : sProp 𝕄) = iprop((uLoc d ↦{fullShare} W a0') ∗ (iLoc d ↦{fullShare} W a5') ∗ oLoc d ↦{fullShare} W v2') := by
  unfold held T3
  rw [SparseCore.bigSep_insert' (by decide), SparseCore.bigSep_insert' (by decide), bigSep_singleton]

/-- The reshapes write only their results. -/
theorem V2_of_ne (d : Dev nD) (b : DevRef τ sig) (h0 : b ≠ v0') (h1 : b ≠ v1') : V2 m d b = V0 m d b := by
  unfold V2
  rw [(opR4 (F := F)).result_of_not_mem _ (show b ∉ ({v1'} : Finset (DevRef τ sig)) from fun h => h1 (Finset.mem_singleton.mp h)),
    (opR3 (F := F)).result_of_not_mem _ (show b ∉ ({v0'} : Finset (DevRef τ sig)) from fun h => h0 (Finset.mem_singleton.mp h))]

theorem Vr_v2 (hpre : PreOK m) (d : Dev nD) : Vr m hpre d v2' = gath m hpre d := Function.update_self ..
theorem Vr_of_ne (hpre : PreOK m) (d : Dev nD) (b : DevRef τ sig) (h : b ≠ v2') : Vr m hpre d b = V2 m d b := Function.update_of_ne h ..

/-- An argument array, or the result array, is at region entry what it was at launch. -/
theorem Ve_launch (hpre : PreOK m) (d : Dev nD) (b : Ref sig .tc) (h0 : (Proc.devRef .tc b : DevRef τ sig) ≠ v0') (h1 : (Proc.devRef .tc b : DevRef τ sig) ≠ v1')
    (h2 : (Proc.devRef .tc b : DevRef τ sig) ≠ v2') : Ve m hpre d b = m ((d : Thread nD τ).loc b) := by
  show Vr m hpre d (Proc.devRef .tc b) = _
  rw [Vr_of_ne m hpre d _ h2, V2_of_ne m d _ h0 h1]

theorem Otc_one (d : Dev nD) : (K (F := F)).Otc d 1 = 0 := by
  unfold SparseCore.Cfg.Otc
  exact Finset.sum_eq_zero fun q _ => if_neg (by have := q.isLt; omega)

abbrev a3' : DevRef τ sig := Proc.devRef .tc (main_arg3 : Ref sig .tc)
abbrev a4' : DevRef τ sig := Proc.devRef .tc (main_arg4 : Ref sig .tc)
theorem hR3 : (opR3 (F := F)).bufs ⊆ S10 := show ({a3', v0'} : Finset (DevRef τ sig)) ⊆ S10 by decide
theorem hR4 : (opR4 (F := F)).bufs ⊆ S10 := show ({a4', v1'} : Finset (DevRef τ sig)) ⊆ S10 by decide

/-- The arrays at a valuation that agrees with the launch memory on the call's inputs: the call's three and the rest. -/
theorem held_call (d : Dev nD) (W : Valuation τ sig (Elt F)) :
    (held (T d) S10 W : sProp 𝕄)
      = iprop(((uLoc d ↦{fullShare} W a0') ∗ (iLoc d ↦{fullShare} W a5') ∗ oLoc d ↦{fullShare} W v2') ∗ held (T d) (S10 \ T3) W) := by
  rw [held_sub_split (SparseCore.T d) (T := T3) (S := S10) (by decide) W, held_T3]

theorem V2_a0 (d : Dev nD) : V2 m d a0' = m (uLoc d) := V2_of_ne m d a0' (by decide) (by decide)
theorem V2_a5 (d : Dev nD) : V2 m d a5' = m (iLoc d) := V2_of_ne m d a5' (by decide) (by decide)
theorem V2_v2 (d : Dev nD) : V2 m d v2' = m (oLoc d) := V2_of_ne m d v2' (by decide) (by decide)
theorem Vr_a0 (hpre : PreOK m) (d : Dev nD) : Vr m hpre d a0' = m (uLoc d) := (Vr_of_ne m hpre d a0' (by decide)).trans (V2_a0 m d)
theorem Vr_a5 (hpre : PreOK m) (d : Dev nD) : Vr m hpre d a5' = m (iLoc d) := (Vr_of_ne m hpre d a5' (by decide)).trans (V2_a5 m d)
theorem held_rest (hpre : PreOK m) (d : Dev nD) : (held (T d) (S10 \ T3) (Vr m hpre d) : sProp 𝕄) = held (T d) (S10 \ T3) (V2 m d) :=
  held_congr (SparseCore.T d) fun b hb => Vr_of_ne m hpre d b fun e => (Finset.mem_sdiff.mp hb).2 (by rw [e]; decide)

/-- The TensorCore before "call 1" (after the one call): it owes nothing; the rest of its handshake state. -/
theorem tcSt_one (d : Dev nD) : ∃ R : sProp 𝕄, ((K (F := F)).tcSt EH d 1 : sProp 𝕄)
    = iprop((∃ W, ⌜(K (F := F)).WBelow (T d) W 8⌝ ∗ owes (T d) (0 : CellTallies nD τ sig (HIx 1)) W) ∗ R) :=
  ⟨_, by unfold SparseCore.Cfg.tcSt; rw [Otc_one]⟩

/-- A wait recorded within the region's bound sits at level at most 8. -/
theorem bound_le (hpre : PreOK m) (d : Dev nD) (t : Fin (cfg1.N + 1)) (p : SemLoc sig × HIx 1) (hp : p ∈ (dat1 m hpre d).bound (default : HIx 1) t) :
    (K (F := F)).lev ((d : Thread nD τ), p.1) p.2 ≤ 8 := by
  rcases hp with hp | ⟨w, s, rfl⟩
  · exact hp
  · exact Nat.zero_le _

/-- The pipeline's six arrays at contents Fa, one by one. -/
theorem arrays_eq1 (hpre : PreOK m) (c : Dev nD) (Fa) :
    ((pdats m hpre 0 c).arrays Fa : sProp 𝕄)
      = iprop(pl c main_v2 (Fa 0) ∗ pl c main_arg2 (Fa 1) ∗ pl c main_arg1 (Fa 2) ∗ pl c main_v0 (Fa 3) ∗ pl c main_v1 (Fa 4) ∗ pl c main_v3 (Fa 5)) := by
  rw [Pipeline.arrays_eq (Pipeline.pin (pcfgs (F := F)) adm) (pdats m hpre) 0 c launch1.arr_whole ((pdats m hpre 0 c).share_full fun _ => rfl) Fa, bigSep_W1]

/-- The two argument arrays the pipeline stages reach its exit as launched. -/
theorem arrAt_arg2 (hpre : PreOK m) (c : Dev nD) :
    (pdats m hpre 0 c).arrAt 1 (Pipeline.pin (pcfgs (F := F)) adm 0).N = m ((c : Thread nD τ).loc main_arg2) :=
  ((dat1 m hpre c).arrAt_in 1 rfl _).trans (Ve_launch m hpre c main_arg2 (by decide) (by decide) (by decide))
theorem arrAt_arg1 (hpre : PreOK m) (c : Dev nD) :
    (pdats m hpre 0 c).arrAt 2 (Pipeline.pin (pcfgs (F := F)) adm 0).N = m ((c : Thread nD τ).loc main_arg1) :=
  ((dat1 m hpre c).arrAt_in 2 rfl _).trans (Ve_launch m hpre c main_arg1 (by decide) (by decide) (by decide))
theorem arrAt_v3 (hpre : PreOK m) (c : Dev nD) :
    (pdats m hpre 0 c).arrAt 5 (Pipeline.pin (pcfgs (F := F)) adm 0).N = outFinal m hpre c := rfl

/-- The four argument arrays the pipeline does not stage are as launched. -/
theorem rest_launch (hpre : PreOK m) (c : Dev nD) :
    (Pipeline.unscopedRest (Ix := HIx 1) (Name := ℕ) (U := UU) (Lvl := ℕ) spec1 c (Ve m hpre c) : sProp 𝕄)
      = iprop(pl c main_arg0 (m ((c : Thread nD τ).loc main_arg0)) ∗ pl c main_arg3 (m ((c : Thread nD τ).loc main_arg3))
          ∗ pl c main_arg4 (m ((c : Thread nD τ).loc main_arg4)) ∗ pl c main_arg5 (m ((c : Thread nD τ).loc main_arg5))) := by
  rw [unscopedRest1_eq, Ve_launch m hpre c main_arg0 (by decide) (by decide) (by decide), Ve_launch m hpre c main_arg3 (by decide) (by decide) (by decide),
    Ve_launch m hpre c main_arg4 (by decide) (by decide) (by decide), Ve_launch m hpre c main_arg5 (by decide) (by decide) (by decide)]

set_option maxHeartbeats 2000000 in
/-- @main on device d's TensorCore. -/
theorem hmain [∀ e, Nonempty (Elt F e)] (hpre : PreOK m) (κ : GSem nD τ sig → ℕ) (d : Dev nD) :
    iprop((K (F := F)).ctx EH (P m hpre) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m hpre d) := by
  unfold SparseCore.Cfg.tcRes
  rw [show (unscopedBufs d (fun b => m ((SparseCore.T d).loc b)) : sProp 𝕄) = held (T d) S10 (V0 m d) from unscoped_held d (V0 m d)]
  simp only [main, wp_bind, wp_pure]
  iintro ⟨#Hctx, Hst, ⟨Hb, Hheld, -, -⟩, ⟨Hcg, Htk⟩⟩
  -- the two reshapes
  iapply (wp_hlo_within 𝒱 (SparseCore.T d) none Set.univ (op := opR3 (F := F)) (S := S10) hR3 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opR4 (F := F)) (S := S10) hR4 (V := (opR3 (F := F)).result (V0 m d))) $$ [Hb Hheld]
  · isplitl [Hb]; · iexact Hb
    iexact Hheld
  iintro ⟨Hb, Hheld⟩
  rw [wp_ret]; imodintro
  -- the SparseCore call: the user table, the index vector and the gathered array go to the two SparseCores and come back
  ihave Hheld2 := (show (held (SparseCore.T d) S10 ((opR4 (F := F)).result ((opR3 (F := F)).result (V0 m d))) : sProp 𝕄) ⊢ held (T d) S10 (V2 m d) from .rfl) $$ Hheld
  ihave Hh := (Entails.of_eq (held_call (F := F) d (V2 m d))) $$ Hheld2
  rw [V2_a0, V2_a5, V2_v2]
  icases Hh with ⟨⟨Hu, Hi, Ho⟩, Hrest⟩
  iapply ((K (F := F)).wp_run (D (F := F)) 𝒱 (EH := EH) (P := P m hpre) κ d 0) $$ [Hst Hi Hu Ho Hb Hrest Hcg Htk]
  isplitr; · iexact Hctx
  isplitl [Hst]; · iexact Hst
  isplitl [Hi Hu Ho]
  · rw [st0_eq]
    isplitl [Hi]; · iexact Hi
    isplitl [Hu]; · iexact Hu
    iexact Ho
  iintro ⟨Hst, Hdn⟩
  ihave Hdn' := (Entails.of_eq (dn0_eq m hpre d)) $$ Hdn
  icases Hdn' with ⟨Hi, Hu, Ho⟩
  -- the arrays as the region finds them
  ihave Hub := (show iprop(((uLoc d ↦{fullShare} m (uLoc d)) ∗ (iLoc d ↦{fullShare} m (iLoc d)) ∗ oLoc d ↦{fullShare} gath m hpre d) ∗ held (T d) (S10 \ T3) (V2 m d))
      ⊢ (unscopedBufs d (Ve m hpre d) : sProp 𝕄) from by
        rw [show (unscopedBufs d (Ve m hpre d) : sProp 𝕄) = held (T d) S10 (Vr m hpre d) from unscoped_held d (Vr m hpre d),
          held_call, Vr_a0, Vr_a5, Vr_v2, held_rest]) $$ [Hu Hi Ho Hrest]
  · isplitr [Hrest]
    · isplitl [Hu]; · iexact Hu
      isplitl [Hi]; · iexact Hi
      iexact Ho
    · iexact Hrest
  -- the TensorCore owes nothing now; its recorded waits sit at levels up to 8
  obtain ⟨R, hR⟩ := tcSt_one (F := F) d
  ihave Hst1 := (show ((K (F := F)).tcSt EH d ((0 : Fin 1).val + 1) : sProp 𝕄) ⊢ (K (F := F)).tcSt EH d 1 from .rfl) $$ Hst
  ihave Hst2 := (Entails.of_eq hR) $$ Hst1
  icases Hst2 with ⟨⟨%W, %hW, HO⟩, HR⟩
  ihave Hlev := ((K (F := F)).ctx_levAts (EH := EH) (P := P m hpre) κ) $$ Hctx
  -- the pipeline over the gathered array
  iapply (region_step m hpre d _) $$ [Hcg Htk Hb Hub HO HR]
  isplitr [Hb Hub HO Hcg Htk]
  · -- after the region: the handshake state again, and the arrays the claim reads
    iintro ⟨-, Ha, HO, Hrst⟩
    icases HO with ⟨%W', %hW', HO⟩
    ihave Ha' := (Entails.of_eq (arrays_eq1 m hpre d _)) $$ Ha
    ihave Hr' := (Entails.of_eq (rest_launch m hpre d)) $$ Hrst
    rw [arrAt_arg2, arrAt_arg1, arrAt_v3]
    icases Ha' with ⟨-, H2, H1, -, -, H3⟩
    icases Hr' with ⟨H0, H3a, H4, H5⟩
    imodintro
    isplitl [HO HR]
    · rw [hR]
      isplitl [HO]
      · iexists W'; isplitr
        · ipureintro; exact fun p hp => bound_le m hpre d _ p (hW' hp)
        iexact HO
      iexact HR
    isplitl [H0]; · iexact H0
    isplitl [H1]; · iexact H1
    isplitl [H2]; · iexact H2
    isplitl [H3a]; · iexact H3a
    isplitl [H4]; · iexact H4
    isplitl [H5]; · iexact H5
    iexact H3
  isplitl [Hb]; · iexact Hb
  isplitl [Hub HO]
  · isplitl [Hub]; · iexact Hub
    iexists W; isplitr
    · ipureintro; exact fun p hp => Or.inl (hW p hp)
    iexact HO
  isplitr; · iexact Hlev
  isplitl [Hcg]; · iexact Hcg
  iexact Htk

/-! ## The program's run -/

/-- At any float values, from any memory with zero counters in which every index word names a row of the user table:
    every weakly fair execution of the program on its thirty-five threads terminates, and every final memory has the
    result array at what the pipeline's two points wrote back and the six argument arrays as launched. -/
theorem run_main [∀ e, Nonempty (Elt F e)] (hpre : PreOK m) :
    θ_run (Cert.Kernel.defs (F := F)) (Cert.Kernel.threads (F := F)) ⟨m, fun _ => 0, ρ⟩ (QC m hpre) :=
  SparseCore.Cfg.θ_run_sc (K := K (F := F)) (D := D (F := F)) (𝒱 := 𝒱) (EH := EH) (P := P m hpre) facts v₀
    (fun q hq => match q with | 0 => nomatch hq)
    (fun q _ => match q with | 0 => tileObl m facts hpre)
    (fun q _ => match q with | 0 => SparseCore.Cfg.VecSplit.of_plain (vecSplit m hpre))
    m ρ main (G (F := F)) (FIN m hpre) (u₀ (F := F)) (sep_elim_left.trans (hu₀ m hpre)) (hmain m ρ hpre) (fq m hpre) (hfin m hpre) (QC m hpre)
    (fun _ h => h)

end Cert.Proof.KB

end
-- ==== Proof.KBPre.lean ====
/-
  The certificate's precondition grants what the SparseCore part asks of the launch memory: every index word names a row
  of the user table. The precondition is stated of the arrays at the TensorCore's locations; the index vector the tiles
  read is the same buffer of the same device.
-/
import proofs.«204720_g14766097563961_cont_week2b_356_26_alg».proof.Defs
import proofs.«204720_g14766097563961_cont_week2b_356_26_alg».proof.Proof.KBSetup
import proofs.«204720_g14766097563961_cont_week2b_356_26_alg».proof.Proof.PreRange

noncomputable section

namespace Cert.Proof.KB

open Cert.Kernel Cert.Kernel.Gen

open Idealize.ShloMosaic

/-- If the input-domain predicate of the launch arrays is all ones on every device, every index word is below 100000. -/
theorem ok_of_fn {F : FTy → Type} [FloatOps F] [Cert.Pre_input_domain.Facts]
    (m : (ℓ : Loc nD τ sig) → Buf (Elt F) ℓ)
    (h : ∀ c : Dev nD,
      Cert.Pre_input_domain.fn (F := F) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) = fun _ => 1#1) :
    PreOK m :=
  fun d j => Cert.PreRange.range_of_pre _ _ _ _ _ _ (h d) j

/-- The claim's precondition, at the word-level instance, grants it. -/
theorem ok_of_pre_bits [hP : Cert.Pre_input_domain.Facts]
    (m : (ℓ : Loc Cert.Kernel.nD Cert.Kernel.τ Cert.Kernel.sig) → Buf (Elt Bits) ℓ)
    (h : Cert.Pre_Kernel m) : PreOK (F := Bits) m :=
  ok_of_fn m h

end Cert.Proof.KB

end
-- ==== Proof.lean ====
/-
  Utilities of 16384 sessions over 100 items.

  Both programs compute, for session b and item n,

      util(b, n) = Σ_k x(b, k) · β(n, k)  +  Σ_k item(n, k) · c(k)  +  ι(n),

  where x(b, ·) is the row of the user table that the index word of session b names, β is the user-coefficient matrix with a
  zero row in front and ι the intercept vector with a zero in front.  The kernel gathers the rows x(b, ·) on the SparseCores
  (thirty-two tiles of 512 sessions each) and forms x · βᵀ + (c · itemᵀ + ι) on the TensorCore, in two blocks of 8192 sessions:
  it groups the item term with the intercepts first and writes the item term's products with the coefficient first.  The
  reference looks the rows up with a gather and forms (x · βᵀ + item · c) + ι.  On the extended reals addition is associative
  and commutative and multiplication commutative, so the two arrays are equal entry by entry; no finiteness is needed.  The
  precondition is used for one thing only: every index word lies in [0, 99999], so every lookup is a row of the user table.
-/
import proofs.«204720_g14766097563961_cont_week2b_356_26_alg».proof.Defs
import proofs.«204720_g14766097563961_cont_week2b_356_26_alg».proof.Proof.Gen.Kernel
import proofs.«204720_g14766097563961_cont_week2b_356_26_alg».proof.Proof.Gen.KernelIdeal
import proofs.«204720_g14766097563961_cont_week2b_356_26_alg».proof.Proof.Gen.ReferenceIdeal
import proofs.«204720_g14766097563961_cont_week2b_356_26_alg».proof.Proof.Gen.Pre_input_domain
import proofs.«204720_g14766097563961_cont_week2b_356_26_alg».proof.Proof.KIFinDefs
import proofs.«204720_g14766097563961_cont_week2b_356_26_alg».proof.Proof.KIPre
import proofs.«204720_g14766097563961_cont_week2b_356_26_alg».proof.Proof.KIBridge
import proofs.«204720_g14766097563961_cont_week2b_356_26_alg».proof.Proof.RefRun
import proofs.«204720_g14766097563961_cont_week2b_356_26_alg».proof.Proof.KIMain
import proofs.«204720_g14766097563961_cont_week2b_356_26_alg».proof.Proof.KBMain
import proofs.«204720_g14766097563961_cont_week2b_356_26_alg».proof.Proof.KBPre
import Idealize.ShloMosaic.Adequacy
import Idealize.ShloMosaic.Init

noncomputable section

namespace Cert.Proof

open Idealize.ShloMosaic Idealize.SL.Sem

/-! ## The frames: each program runs and leaves its arguments as launched -/

/-- The kernel, on words: the run's post holds the six arguments unchanged beside the result. -/
theorem frame_k : Cert.frame_Kernel := fun m ρ hp =>
  (θ_run Cert.Kernel.defs _ _).mono (fun _ h c => (h c).2) (KB.run_main (F := Bits) m ρ (KB.ok_of_pre_bits m hp))

/-- The kernel, on extended reals. -/
theorem frame_ki : Cert.frame_KernelIdeal := fun m ρ hp =>
  (θ_run Cert.KernelIdeal.defs _ _).mono (fun _ h c => (h c).2) (KI.run_main (F := Ideal) m ρ (KI.ok_of_pre_ideal m hp))

/-- The reference, on extended reals. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-! ## The two results agree -/

/-- From memories that agree on the six arguments, the kernel ends with the result array its pipeline wrote back and the
    reference with its composed term of the same arguments; the two are one array. -/
theorem algebraic : Cert.algebraic_KernelIdeal_ReferenceIdeal := by
  intro m ρ m' ρ' hp hagree
  refine ⟨fun c => KI.outFinal m (KI.ok_of_pre_ideal m hp) c, KI.run_main (F := Ideal) m ρ _, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]
  exact KI.bridge m _ c

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
